-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel

variable [Facts]

def fn {F : FTy → Type} [FloatOps F] (main_arg0 : FVec F S16x8x512x512 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  main_v3
-- ==== Kernel.lean ====
abbrev S16x8x512x512 : Shape := ⟨4, ![16, 8, 512, 512]⟩
abbrev S128x512x512 : Shape := ⟨3, ![128, 512, 512]⟩
abbrev S1x1x1 : Shape := ⟨3, ![1, 1, 1]⟩
abbrev S8x512x512 : Shape := ⟨3, ![8, 512, 512]⟩
abbrev S8x512 : Shape := ⟨2, ![8, 512]⟩
abbrev S1x16x512 : Shape := ⟨3, ![1, 16, 512]⟩
abbrev S16x512 : Shape := ⟨2, ![16, 512]⟩
abbrev S1x512 : Shape := ⟨2, ![1, 512]⟩
abbrev S15x512 : Shape := ⟨2, ![15, 512]⟩
abbrev S16x1 : Shape := ⟨2, ![16, 1]⟩
abbrev S16x511 : Shape := ⟨2, ![16, 511]⟩
abbrev S1x8x512 : Shape := ⟨3, ![1, 8, 512]⟩
abbrev S1 : Shape := ⟨1, ![1]⟩
abbrev S_ : Shape := ⟨0, ![]⟩

abbrev nBuf : Space → Nat
  | .hbm => 7
  | .vmem => 3
  | .smem => 0
  | _ => 0

abbrev bufTy : (tb : Table) → Fin (tcTables nBuf tb) → BufTy
  | .hbm, ⟨0, _⟩ => ⟨S16x8x512x512, .f32⟩
  | .hbm, ⟨1, _⟩ => ⟨S128x512x512, .f32⟩
  | .hbm, ⟨2, _⟩ => ⟨S1x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8x512x512, .f32⟩
  | .local _ .vmem, ⟨1, _⟩ => ⟨S8x512x512, .f32⟩
  | .local _ .vmem, ⟨2, _⟩ => ⟨S1x1x1, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_off1 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v17 : Index := Scalar.indexCast v14
  let c0 : Index := 0#32
  let c0_8 : Index := 0#32
  ![v17.toNat, 0, 0]
def k0_off2 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v32 : Index := Scalar.indexCast v16
  let c0_9 : Index := 0#32
  let c0_10 : Index := 0#32
  ![v32.toNat, 0, 0]
def k0_off3 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v47 : Index := Scalar.indexCast v14
  let c16 : Index := 16#32
  let c0_11 : Index := 0#32
  ![v47.toNat, 16, 0]
def k0_off4 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v50 : Index := Scalar.indexCast v14
  let c15 : Index := 15#32
  let c0_12 : Index := 0#32
  ![v50.toNat, 15, 0]
def k0_off5 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v75 : Index := Scalar.indexCast v16
  let c16_15 : Index := 16#32
  let c0_16 : Index := 0#32
  ![v75.toNat, 16, 0]
def k0_off6 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v78 : Index := Scalar.indexCast v16
  let c15_17 : Index := 15#32
  let c0_18 : Index := 0#32
  ![v78.toNat, 15, 0]
def k0_off7 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v103 : Index := Scalar.indexCast v14
  let c32 : Index := 32#32
  let c0_21 : Index := 0#32
  ![v103.toNat, 32, 0]
def k0_off8 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v106 : Index := Scalar.indexCast v14
  let c31 : Index := 31#32
  let c0_22 : Index := 0#32
  ![v106.toNat, 31, 0]
def k0_off9 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v131 : Index := Scalar.indexCast v16
  let c32_25 : Index := 32#32
  let c0_26 : Index := 0#32
  ![v131.toNat, 32, 0]
def k0_off10 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v134 : Index := Scalar.indexCast v16
  let c31_27 : Index := 31#32
  let c0_28 : Index := 0#32
  ![v134.toNat, 31, 0]
def k0_off11 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v159 : Index := Scalar.indexCast v14
  let c48 : Index := 48#32
  let c0_31 : Index := 0#32
  ![v159.toNat, 48, 0]
def k0_off12 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v162 : Index := Scalar.indexCast v14
  let c47 : Index := 47#32
  let c0_32 : Index := 0#32
  ![v162.toNat, 47, 0]
def k0_off13 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v187 : Index := Scalar.indexCast v16
  let c48_35 : Index := 48#32
  let c0_36 : Index := 0#32
  ![v187.toNat, 48, 0]
def k0_off14 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v190 : Index := Scalar.indexCast v16
  let c47_37 : Index := 47#32
  let c0_38 : Index := 0#32
  ![v190.toNat, 47, 0]
def k0_off15 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v215 : Index := Scalar.indexCast v14
  let c64 : Index := 64#32
  let c0_41 : Index := 0#32
  ![v215.toNat, 64, 0]
def k0_off16 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v218 : Index := Scalar.indexCast v14
  let c63 : Index := 63#32
  let c0_42 : Index := 0#32
  ![v218.toNat, 63, 0]
def k0_off17 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v243 : Index := Scalar.indexCast v16
  let c64_45 : Index := 64#32
  let c0_46 : Index := 0#32
  ![v243.toNat, 64, 0]
def k0_off18 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v246 : Index := Scalar.indexCast v16
  let c63_47 : Index := 63#32
  let c0_48 : Index := 0#32
  ![v246.toNat, 63, 0]
def k0_off19 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v271 : Index := Scalar.indexCast v14
  let c80 : Index := 80#32
  let c0_51 : Index := 0#32
  ![v271.toNat, 80, 0]
def k0_off20 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v274 : Index := Scalar.indexCast v14
  let c79 : Index := 79#32
  let c0_52 : Index := 0#32
  ![v274.toNat, 79, 0]
def k0_off21 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v299 : Index := Scalar.indexCast v16
  let c80_55 : Index := 80#32
  let c0_56 : Index := 0#32
  ![v299.toNat, 80, 0]
def k0_off22 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v302 : Index := Scalar.indexCast v16
  let c79_57 : Index := 79#32
  let c0_58 : Index := 0#32
  ![v302.toNat, 79, 0]
def k0_off23 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v327 : Index := Scalar.indexCast v14
  let c96 : Index := 96#32
  let c0_61 : Index := 0#32
  ![v327.toNat, 96, 0]
def k0_off24 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v330 : Index := Scalar.indexCast v14
  let c95 : Index := 95#32
  let c0_62 : Index := 0#32
  ![v330.toNat, 95, 0]
def k0_off25 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v355 : Index := Scalar.indexCast v16
  let c96_65 : Index := 96#32
  let c0_66 : Index := 0#32
  ![v355.toNat, 96, 0]
def k0_off26 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v358 : Index := Scalar.indexCast v16
  let c95_67 : Index := 95#32
  let c0_68 : Index := 0#32
  ![v358.toNat, 95, 0]
def k0_off27 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v383 : Index := Scalar.indexCast v14
  let c112 : Index := 112#32
  let c0_71 : Index := 0#32
  ![v383.toNat, 112, 0]
def k0_off28 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v386 : Index := Scalar.indexCast v14
  let c111 : Index := 111#32
  let c0_72 : Index := 0#32
  ![v386.toNat, 111, 0]
def k0_off29 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v411 : Index := Scalar.indexCast v16
  let c112_75 : Index := 112#32
  let c0_76 : Index := 0#32
  ![v411.toNat, 112, 0]
def k0_off30 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v414 : Index := Scalar.indexCast v16
  let c111_77 : Index := 111#32
  let c0_78 : Index := 0#32
  ![v414.toNat, 111, 0]
def k0_off31 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v439 : Index := Scalar.indexCast v14
  let c128 : Index := 128#32
  let c0_81 : Index := 0#32
  ![v439.toNat, 128, 0]
def k0_off32 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v442 : Index := Scalar.indexCast v14
  let c127 : Index := 127#32
  let c0_82 : Index := 0#32
  ![v442.toNat, 127, 0]
def k0_off33 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v467 : Index := Scalar.indexCast v16
  let c128_85 : Index := 128#32
  let c0_86 : Index := 0#32
  ![v467.toNat, 128, 0]
def k0_off34 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v470 : Index := Scalar.indexCast v16
  let c127_87 : Index := 127#32
  let c0_88 : Index := 0#32
  ![v470.toNat, 127, 0]
def k0_off35 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v495 : Index := Scalar.indexCast v14
  let c144 : Index := 144#32
  let c0_91 : Index := 0#32
  ![v495.toNat, 144, 0]
def k0_off36 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v498 : Index := Scalar.indexCast v14
  let c143 : Index := 143#32
  let c0_92 : Index := 0#32
  ![v498.toNat, 143, 0]
def k0_off37 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v523 : Index := Scalar.indexCast v16
  let c144_95 : Index := 144#32
  let c0_96 : Index := 0#32
  ![v523.toNat, 144, 0]
def k0_off38 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v526 : Index := Scalar.indexCast v16
  let c143_97 : Index := 143#32
  let c0_98 : Index := 0#32
  ![v526.toNat, 143, 0]
def k0_off39 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v551 : Index := Scalar.indexCast v14
  let c160 : Index := 160#32
  let c0_101 : Index := 0#32
  ![v551.toNat, 160, 0]
def k0_off40 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v554 : Index := Scalar.indexCast v14
  let c159 : Index := 159#32
  let c0_102 : Index := 0#32
  ![v554.toNat, 159, 0]
def k0_off41 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v579 : Index := Scalar.indexCast v16
  let c160_105 : Index := 160#32
  let c0_106 : Index := 0#32
  ![v579.toNat, 160, 0]
def k0_off42 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v582 : Index := Scalar.indexCast v16
  let c159_107 : Index := 159#32
  let c0_108 : Index := 0#32
  ![v582.toNat, 159, 0]
def k0_off43 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v607 : Index := Scalar.indexCast v14
  let c176 : Index := 176#32
  let c0_111 : Index := 0#32
  ![v607.toNat, 176, 0]
def k0_off44 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v610 : Index := Scalar.indexCast v14
  let c175 : Index := 175#32
  let c0_112 : Index := 0#32
  ![v610.toNat, 175, 0]
def k0_off45 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v635 : Index := Scalar.indexCast v16
  let c176_115 : Index := 176#32
  let c0_116 : Index := 0#32
  ![v635.toNat, 176, 0]
def k0_off46 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v638 : Index := Scalar.indexCast v16
  let c175_117 : Index := 175#32
  let c0_118 : Index := 0#32
  ![v638.toNat, 175, 0]
def k0_off47 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v663 : Index := Scalar.indexCast v14
  let c192 : Index := 192#32
  let c0_121 : Index := 0#32
  ![v663.toNat, 192, 0]
def k0_off48 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v666 : Index := Scalar.indexCast v14
  let c191 : Index := 191#32
  let c0_122 : Index := 0#32
  ![v666.toNat, 191, 0]
def k0_off49 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v691 : Index := Scalar.indexCast v16
  let c192_125 : Index := 192#32
  let c0_126 : Index := 0#32
  ![v691.toNat, 192, 0]
def k0_off50 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v694 : Index := Scalar.indexCast v16
  let c191_127 : Index := 191#32
  let c0_128 : Index := 0#32
  ![v694.toNat, 191, 0]
def k0_off51 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v719 : Index := Scalar.indexCast v14
  let c208 : Index := 208#32
  let c0_131 : Index := 0#32
  ![v719.toNat, 208, 0]
def k0_off52 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v722 : Index := Scalar.indexCast v14
  let c207 : Index := 207#32
  let c0_132 : Index := 0#32
  ![v722.toNat, 207, 0]
def k0_off53 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v747 : Index := Scalar.indexCast v16
  let c208_135 : Index := 208#32
  let c0_136 : Index := 0#32
  ![v747.toNat, 208, 0]
def k0_off54 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v750 : Index := Scalar.indexCast v16
  let c207_137 : Index := 207#32
  let c0_138 : Index := 0#32
  ![v750.toNat, 207, 0]
def k0_off55 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v775 : Index := Scalar.indexCast v14
  let c224 : Index := 224#32
  let c0_141 : Index := 0#32
  ![v775.toNat, 224, 0]
def k0_off56 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v778 : Index := Scalar.indexCast v14
  let c223 : Index := 223#32
  let c0_142 : Index := 0#32
  ![v778.toNat, 223, 0]
def k0_off57 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v803 : Index := Scalar.indexCast v16
  let c224_145 : Index := 224#32
  let c0_146 : Index := 0#32
  ![v803.toNat, 224, 0]
def k0_off58 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v806 : Index := Scalar.indexCast v16
  let c223_147 : Index := 223#32
  let c0_148 : Index := 0#32
  ![v806.toNat, 223, 0]
def k0_off59 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v831 : Index := Scalar.indexCast v14
  let c240 : Index := 240#32
  let c0_151 : Index := 0#32
  ![v831.toNat, 240, 0]
def k0_off60 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v834 : Index := Scalar.indexCast v14
  let c239 : Index := 239#32
  let c0_152 : Index := 0#32
  ![v834.toNat, 239, 0]
def k0_off61 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v859 : Index := Scalar.indexCast v16
  let c240_155 : Index := 240#32
  let c0_156 : Index := 0#32
  ![v859.toNat, 240, 0]
def k0_off62 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v862 : Index := Scalar.indexCast v16
  let c239_157 : Index := 239#32
  let c0_158 : Index := 0#32
  ![v862.toNat, 239, 0]
def k0_off63 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v887 : Index := Scalar.indexCast v14
  let c256 : Index := 256#32
  let c0_161 : Index := 0#32
  ![v887.toNat, 256, 0]
def k0_off64 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v890 : Index := Scalar.indexCast v14
  let c255 : Index := 255#32
  let c0_162 : Index := 0#32
  ![v890.toNat, 255, 0]
def k0_off65 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v915 : Index := Scalar.indexCast v16
  let c256_165 : Index := 256#32
  let c0_166 : Index := 0#32
  ![v915.toNat, 256, 0]
def k0_off66 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v918 : Index := Scalar.indexCast v16
  let c255_167 : Index := 255#32
  let c0_168 : Index := 0#32
  ![v918.toNat, 255, 0]
def k0_off67 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v943 : Index := Scalar.indexCast v14
  let c272 : Index := 272#32
  let c0_171 : Index := 0#32
  ![v943.toNat, 272, 0]
def k0_off68 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v946 : Index := Scalar.indexCast v14
  let c271 : Index := 271#32
  let c0_172 : Index := 0#32
  ![v946.toNat, 271, 0]
def k0_off69 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v971 : Index := Scalar.indexCast v16
  let c272_175 : Index := 272#32
  let c0_176 : Index := 0#32
  ![v971.toNat, 272, 0]
def k0_off70 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v974 : Index := Scalar.indexCast v16
  let c271_177 : Index := 271#32
  let c0_178 : Index := 0#32
  ![v974.toNat, 271, 0]
def k0_off71 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v999 : Index := Scalar.indexCast v14
  let c288 : Index := 288#32
  let c0_181 : Index := 0#32
  ![v999.toNat, 288, 0]
def k0_off72 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1002 : Index := Scalar.indexCast v14
  let c287 : Index := 287#32
  let c0_182 : Index := 0#32
  ![v1002.toNat, 287, 0]
def k0_off73 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1027 : Index := Scalar.indexCast v16
  let c288_185 : Index := 288#32
  let c0_186 : Index := 0#32
  ![v1027.toNat, 288, 0]
def k0_off74 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1030 : Index := Scalar.indexCast v16
  let c287_187 : Index := 287#32
  let c0_188 : Index := 0#32
  ![v1030.toNat, 287, 0]
def k0_off75 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1055 : Index := Scalar.indexCast v14
  let c304 : Index := 304#32
  let c0_191 : Index := 0#32
  ![v1055.toNat, 304, 0]
def k0_off76 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1058 : Index := Scalar.indexCast v14
  let c303 : Index := 303#32
  let c0_192 : Index := 0#32
  ![v1058.toNat, 303, 0]
def k0_off77 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1083 : Index := Scalar.indexCast v16
  let c304_195 : Index := 304#32
  let c0_196 : Index := 0#32
  ![v1083.toNat, 304, 0]
def k0_off78 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1086 : Index := Scalar.indexCast v16
  let c303_197 : Index := 303#32
  let c0_198 : Index := 0#32
  ![v1086.toNat, 303, 0]
def k0_off79 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1111 : Index := Scalar.indexCast v14
  let c320 : Index := 320#32
  let c0_201 : Index := 0#32
  ![v1111.toNat, 320, 0]
def k0_off80 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1114 : Index := Scalar.indexCast v14
  let c319 : Index := 319#32
  let c0_202 : Index := 0#32
  ![v1114.toNat, 319, 0]
def k0_off81 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1139 : Index := Scalar.indexCast v16
  let c320_205 : Index := 320#32
  let c0_206 : Index := 0#32
  ![v1139.toNat, 320, 0]
def k0_off82 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1142 : Index := Scalar.indexCast v16
  let c319_207 : Index := 319#32
  let c0_208 : Index := 0#32
  ![v1142.toNat, 319, 0]
def k0_off83 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1167 : Index := Scalar.indexCast v14
  let c336 : Index := 336#32
  let c0_211 : Index := 0#32
  ![v1167.toNat, 336, 0]
def k0_off84 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1170 : Index := Scalar.indexCast v14
  let c335 : Index := 335#32
  let c0_212 : Index := 0#32
  ![v1170.toNat, 335, 0]
def k0_off85 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1195 : Index := Scalar.indexCast v16
  let c336_215 : Index := 336#32
  let c0_216 : Index := 0#32
  ![v1195.toNat, 336, 0]
def k0_off86 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1198 : Index := Scalar.indexCast v16
  let c335_217 : Index := 335#32
  let c0_218 : Index := 0#32
  ![v1198.toNat, 335, 0]
def k0_off87 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1223 : Index := Scalar.indexCast v14
  let c352 : Index := 352#32
  let c0_221 : Index := 0#32
  ![v1223.toNat, 352, 0]
def k0_off88 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1226 : Index := Scalar.indexCast v14
  let c351 : Index := 351#32
  let c0_222 : Index := 0#32
  ![v1226.toNat, 351, 0]
def k0_off89 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1251 : Index := Scalar.indexCast v16
  let c352_225 : Index := 352#32
  let c0_226 : Index := 0#32
  ![v1251.toNat, 352, 0]
def k0_off90 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1254 : Index := Scalar.indexCast v16
  let c351_227 : Index := 351#32
  let c0_228 : Index := 0#32
  ![v1254.toNat, 351, 0]
def k0_off91 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1279 : Index := Scalar.indexCast v14
  let c368 : Index := 368#32
  let c0_231 : Index := 0#32
  ![v1279.toNat, 368, 0]
def k0_off92 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1282 : Index := Scalar.indexCast v14
  let c367 : Index := 367#32
  let c0_232 : Index := 0#32
  ![v1282.toNat, 367, 0]
def k0_off93 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1307 : Index := Scalar.indexCast v16
  let c368_235 : Index := 368#32
  let c0_236 : Index := 0#32
  ![v1307.toNat, 368, 0]
def k0_off94 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1310 : Index := Scalar.indexCast v16
  let c367_237 : Index := 367#32
  let c0_238 : Index := 0#32
  ![v1310.toNat, 367, 0]
def k0_off95 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1335 : Index := Scalar.indexCast v14
  let c384 : Index := 384#32
  let c0_241 : Index := 0#32
  ![v1335.toNat, 384, 0]
def k0_off96 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1338 : Index := Scalar.indexCast v14
  let c383 : Index := 383#32
  let c0_242 : Index := 0#32
  ![v1338.toNat, 383, 0]
def k0_off97 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1363 : Index := Scalar.indexCast v16
  let c384_245 : Index := 384#32
  let c0_246 : Index := 0#32
  ![v1363.toNat, 384, 0]
def k0_off98 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1366 : Index := Scalar.indexCast v16
  let c383_247 : Index := 383#32
  let c0_248 : Index := 0#32
  ![v1366.toNat, 383, 0]
def k0_off99 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1391 : Index := Scalar.indexCast v14
  let c400 : Index := 400#32
  let c0_251 : Index := 0#32
  ![v1391.toNat, 400, 0]
def k0_off100 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1394 : Index := Scalar.indexCast v14
  let c399 : Index := 399#32
  let c0_252 : Index := 0#32
  ![v1394.toNat, 399, 0]
def k0_off101 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1419 : Index := Scalar.indexCast v16
  let c400_255 : Index := 400#32
  let c0_256 : Index := 0#32
  ![v1419.toNat, 400, 0]
def k0_off102 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1422 : Index := Scalar.indexCast v16
  let c399_257 : Index := 399#32
  let c0_258 : Index := 0#32
  ![v1422.toNat, 399, 0]
def k0_off103 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1447 : Index := Scalar.indexCast v14
  let c416 : Index := 416#32
  let c0_261 : Index := 0#32
  ![v1447.toNat, 416, 0]
def k0_off104 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1450 : Index := Scalar.indexCast v14
  let c415 : Index := 415#32
  let c0_262 : Index := 0#32
  ![v1450.toNat, 415, 0]
def k0_off105 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1475 : Index := Scalar.indexCast v16
  let c416_265 : Index := 416#32
  let c0_266 : Index := 0#32
  ![v1475.toNat, 416, 0]
def k0_off106 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1478 : Index := Scalar.indexCast v16
  let c415_267 : Index := 415#32
  let c0_268 : Index := 0#32
  ![v1478.toNat, 415, 0]
def k0_off107 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1503 : Index := Scalar.indexCast v14
  let c432 : Index := 432#32
  let c0_271 : Index := 0#32
  ![v1503.toNat, 432, 0]
def k0_off108 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1506 : Index := Scalar.indexCast v14
  let c431 : Index := 431#32
  let c0_272 : Index := 0#32
  ![v1506.toNat, 431, 0]
def k0_off109 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1531 : Index := Scalar.indexCast v16
  let c432_275 : Index := 432#32
  let c0_276 : Index := 0#32
  ![v1531.toNat, 432, 0]
def k0_off110 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1534 : Index := Scalar.indexCast v16
  let c431_277 : Index := 431#32
  let c0_278 : Index := 0#32
  ![v1534.toNat, 431, 0]
def k0_off111 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1559 : Index := Scalar.indexCast v14
  let c448 : Index := 448#32
  let c0_281 : Index := 0#32
  ![v1559.toNat, 448, 0]
def k0_off112 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1562 : Index := Scalar.indexCast v14
  let c447 : Index := 447#32
  let c0_282 : Index := 0#32
  ![v1562.toNat, 447, 0]
def k0_off113 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1587 : Index := Scalar.indexCast v16
  let c448_285 : Index := 448#32
  let c0_286 : Index := 0#32
  ![v1587.toNat, 448, 0]
def k0_off114 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1590 : Index := Scalar.indexCast v16
  let c447_287 : Index := 447#32
  let c0_288 : Index := 0#32
  ![v1590.toNat, 447, 0]
def k0_off115 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1615 : Index := Scalar.indexCast v14
  let c464 : Index := 464#32
  let c0_291 : Index := 0#32
  ![v1615.toNat, 464, 0]
def k0_off116 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1618 : Index := Scalar.indexCast v14
  let c463 : Index := 463#32
  let c0_292 : Index := 0#32
  ![v1618.toNat, 463, 0]
def k0_off117 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1643 : Index := Scalar.indexCast v16
  let c464_295 : Index := 464#32
  let c0_296 : Index := 0#32
  ![v1643.toNat, 464, 0]
def k0_off118 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1646 : Index := Scalar.indexCast v16
  let c463_297 : Index := 463#32
  let c0_298 : Index := 0#32
  ![v1646.toNat, 463, 0]
def k0_off119 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1671 : Index := Scalar.indexCast v14
  let c480 : Index := 480#32
  let c0_301 : Index := 0#32
  ![v1671.toNat, 480, 0]
def k0_off120 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1674 : Index := Scalar.indexCast v14
  let c479 : Index := 479#32
  let c0_302 : Index := 0#32
  ![v1674.toNat, 479, 0]
def k0_off121 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1699 : Index := Scalar.indexCast v16
  let c480_305 : Index := 480#32
  let c0_306 : Index := 0#32
  ![v1699.toNat, 480, 0]
def k0_off122 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1702 : Index := Scalar.indexCast v16
  let c479_307 : Index := 479#32
  let c0_308 : Index := 0#32
  ![v1702.toNat, 479, 0]
def k0_off123 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1727 : Index := Scalar.indexCast v14
  let c496 : Index := 496#32
  let c0_311 : Index := 0#32
  ![v1727.toNat, 496, 0]
def k0_off124 (k0_t1 : Fin k0_t1_loop.trips) : Fin 3 → Nat :=
  let c2_i32 : BitVec 32 := 2#32
  let c0_i32 : BitVec 32 := 0#32
  let c1_i32 : BitVec 32 := 1#32
  let arg3 : BitVec 32 := Scf.iv c0_i32 c1_i32 k0_t1
  let v14 : BitVec 32 := Scalar.muli c2_i32 arg3
  let v1730 : Index := Scalar.indexCast v14
  let c495 : Index := 495#32
  let c0_312 : Index := 0#32
  ![v1730.toNat, 495, 0]
def k0_off125 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1755 : Index := Scalar.indexCast v16
  let c496_315 : Index := 496#32
  let c0_316 : Index := 0#32
  ![v1755.toNat, 496, 0]
def k0_off126 (k0_t1 : Fin k0_t1_loop.trips) : Fin 3 → Nat :=
  let c2_i32_6 : BitVec 32 := 2#32
  let c0_i32 : BitVec 32 := 0#32
  let c1_i32 : BitVec 32 := 1#32
  let arg3 : BitVec 32 := Scf.iv c0_i32 c1_i32 k0_t1
  let v15 : BitVec 32 := Scalar.muli c2_i32_6 arg3
  let c1_i32_7 : BitVec 32 := 1#32
  let v16 : BitVec 32 := Scalar.addi v15 c1_i32_7
  let v1758 : Index := Scalar.indexCast v16
  let c495_317 : Index := 495#32
  let c0_318 : Index := 0#32
  ![v1758.toNat, 495, 0]
def k0_cond1 (i : grid0.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k0_cond2 (i : grid0.Coords) : BitVec 1 :=
  let arg0 : BitVec 32 := BitVec.ofNat 32 (i 0).val
  let c0_i32_4 : BitVec 32 := 0#32
  let v11 : BitVec 1 := Scalar.cmpi .ne arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S16x8x512x512_S128x512x512 : S16x8x512x512.ShapeCasts S128x512x512
  h_S1x16x512 : 0 < S1x16x512.numel
  shapeCasts_S1x16x512_S16x512 : S1x16x512.ShapeCasts S16x512
  slices_S16x512_o0_0_S1x512 : S16x512.Slices ![0, 0] S1x512
  slices_S16x512_o0_0_S15x512 : S16x512.Slices ![0, 0] S15x512
  concatenates_S1x512_S15x512_S16x512_d0 : Shape.Concatenates [S1x512, S15x512] S16x512 0
  slices_S16x512_o0_0_S16x1 : S16x512.Slices ![0, 0] S16x1
  slices_S16x512_o0_0_S16x511 : S16x512.Slices ![0, 0] S16x511
  concatenates_S16x1_S16x511_S16x512_d1 : Shape.Concatenates [S16x1, S16x511] S16x512 1
  slices_S16x512_o0_1_S16x511 : S16x512.Slices ![0, 1] S16x511
  slices_S16x512_o0_510_S16x1 : S16x512.Slices ![0, 510] S16x1
  concatenates_S16x511_S16x1_S16x512_d1 : Shape.Concatenates [S16x511, S16x1] S16x512 1
  slices_S16x512_o1_0_S15x512 : S16x512.Slices ![1, 0] S15x512
  concatenates_S15x512_S1x512_S16x512_d0 : Shape.Concatenates [S15x512, S1x512] S16x512 0
  slices_S16x512_o0_0_S8x512 : S16x512.Slices ![0, 0] S8x512
  slices_S16x512_o8_0_S8x512 : S16x512.Slices ![8, 0] S8x512
  slices_S16x512_o15_0_S1x512 : S16x512.Slices ![15, 0] S1x512
  shapeCasts_S8x512_S1x8x512 : S8x512.ShapeCasts S1x8x512
  reduces_S1x8x512_S1 : S1x8x512.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  reducesTo_S1x1x1_S_d0_1_2 : S1x1x1.ReducesTo [0, 1, 2] S_
  h_S_ : 0 < S_.numel
  hrank0 : 0 < grid0.rank
  k0_t1_ok : k0_t1_loop.OK
  k0_off1_inb : ∀ k0_t1 : Fin k0_t1_loop.trips, ∀ a, (k0_off1 k0_t1) a + S1x16x512.size a ≤ S8x512x512.size a
  k0_off2_inb : ∀ k0_t1 : Fin k0_t1_loop.trips, ∀ a, (k0_off2 k0_t1) a + S1x16x512.size a ≤ S8x512x512.size a
  k0_off3_inb : ∀ k0_t1 : Fin k0_t1_loop.trips, ∀ a, (k0_off3 k0_t1) a + S1x16x512.size a ≤ S8x512x512.size a
  k0_off4_inb : ∀ k0_t1 : Fin k0_t1_loop.trips, ∀ a, (k0_off4 k0_t1) a + S1x16x512.size a ≤ S8x512x512.size a
  k0_off5_inb : ∀ k0_t1 : Fin k0_t1_loop.trips, ∀ a, (k0_off5 k0_t1) a + S1x16x512.size a ≤ S8x512x512.size a
  k0_off6_inb : ∀ k0_t1 : Fin k0_t1_loop.trips, ∀ a, (k0_off6 k0_t1) a + S1x16x512.size a ≤ S8x512x512.size a
  k0_off7_inb : ∀ k0_t1 : Fin k0_t1_loop.trips, ∀ a, (k0_off7 k0_t1) a + S1x16x512.size a ≤ S8x512x512.size a
  k0_off8_inb : ∀ k0_t1 : Fin k0_t1_loop.trips, ∀ a, (k0_off8 k0_t1) a + S1x16x512.size a ≤ S8x512x512.size a
  k0_off9_inb : ∀ k0_t1 : Fin k0_t1_loop.trips, ∀ a, (k0_off9 k0_t1) a + S1x16x512.size a ≤ S8x512x512.size a
  k0_off10_inb : ∀ k0_t1 : Fin k0_t1_loop.trips, ∀ a, (k0_off10 k0_t1) a + S1x16x512.size a ≤ S8x512x512.size a
  k0_off11_inb : ∀ k0_t1 : Fin k0_t1_loop.trips, ∀ a, (k0_off11 k0_t1) a + S1x16x512.size a ≤ S8x512x512.size a
  k0_off12_inb : ∀ k0_t1 : Fin k0_t1_loop.trips, ∀ a, (k0_off12 k0_t1) a + S1x16x512.size a ≤ S8x512x512.size a
  k0_off13_inb : ∀ k0_t1 : Fin k0_t1_loop.trips, ∀ a, (k0_off13 k0_t1) a + S1x16x512.size a ≤ S8x512x512.size a
  k0_off14_inb : ∀ k0_t1 : Fin k0_t1_loop.trips, ∀ a, (k0_off14 k0_t1) a + S1x16x512.size a ≤ S8x512x512.size a
  k0_off15_inb : ∀ k0_t1 : Fin k0_t1_loop.trips, ∀ a, (k0_off15 k0_t1) a + S1x16x512.size a ≤ S8x512x512.size a
  k0_off16_inb : ∀ k0_t1 : Fin k0_t1_loop.trips, ∀ a, (k0_off16 k0_t1) a + S1x16x512.size a ≤ S8x512x512.size a
  k0_off17_inb : ∀ k0_t1 : Fin k0_t1_loop.trips, ∀ a, (k0_off17 k0_t1) a + S1x16x512.size a ≤ S8x512x512.size a
  k0_off18_inb : ∀ k0_t1 : Fin k0_t1_loop.trips, ∀ a, (k0_off18 k0_t1) a + S1x16x512.size a ≤ S8x512x512.size a
  k0_off19_inb : ∀ k0_t1 : Fin k0_t1_loop.trips, ∀ a, (k0_off19 k0_t1) a + S1x16x512.size a ≤ S8x512x512.size a
  k0_off20_inb : ∀ k0_t1 : Fin k0_t1_loop.trips, ∀ a, (k0_off20 k0_t1) a + S1x16x512.size a ≤ S8x512x512.size a
  k0_off21_inb : ∀ k0_t1 : Fin k0_t1_loop.trips, ∀ a, (k0_off21 k0_t1) a + S1x16x512.size a ≤ S8x512x512.size a
  k0_off22_inb : ∀ k0_t1 : Fin k0_t1_loop.trips, ∀ a, (k0_off22 k0_t1) a + S1x16x512.size a ≤ S8x512x512.size a
  k0_off23_inb : ∀ k0_t1 : Fin k0_t1_loop.trips, ∀ a, (k0_off23 k0_t1) a + S1x16x512.size a ≤ S8x512x512.size a
  k0_off24_inb : ∀ k0_t1 : Fin k0_t1_loop.trips, ∀ a, (k0_off24 k0_t1) a + S1x16x512.size a ≤ S8x512x512.size a
  k0_off25_inb : ∀ k0_t1 : Fin k0_t1_loop.trips, ∀ a, (k0_off25 k0_t1) a + S1x16x512.size a ≤ S8x512x512.size a
  k0_off26_inb : ∀ k0_t1 : Fin k0_t1_loop.trips, ∀ a, (k0_off26 k0_t1) a + S1x16x512.size a ≤ S8x512x512.size a
  k0_off27_inb : ∀ k0_t1 : Fin k0_t1_loop.trips, ∀ a, (k0_off27 k0_t1) a + S1x16x512.size a ≤ S8x512x512.size a
  k0_off28_inb : ∀ k0_t1 : Fin k0_t1_loop.trips, ∀ a, (k0_off28 k0_t1) a + S1x16x512.size a ≤ S8x512x512.size a
  k0_off29_inb : ∀ k0_t1 : Fin k0_t1_loop.trips, ∀ a, (k0_off29 k0_t1) a + S1x16x512.size a ≤ S8x512x512.size a
  k0_off30_inb : ∀ k0_t1 : Fin k0_t1_loop.trips, ∀ a, (k0_off30 k0_t1) a + S1x16x512.size a ≤ S8x512x512.size a
  k0_off31_inb : ∀ k0_t1 : Fin k0_t1_loop.trips, ∀ a, (k0_off31 k0_t1) a + S1x16x512.size a ≤ S8x512x512.size a
  k0_off32_inb : ∀ k0_t1 : Fin k0_t1_loop.trips, ∀ a, (k0_off32 k0_t1) a + S1x16x512.size a ≤ S8x512x512.size a
  k0_off33_inb : ∀ k0_t1 : Fin k0_t1_loop.trips, ∀ a, (k0_off33 k0_t1) a + S1x16x512.size a ≤ S8x512x512.size a
  k0_off34_inb : ∀ k0_t1 : Fin k0_t1_loop.trips, ∀ a, (k0_off34 k0_t1) a + S1x16x512.size a ≤ S8x512x512.size a
  k0_off35_inb : ∀ k0_t1 : Fin k0_t1_loop.trips, ∀ a, (k0_off35 k0_t1) a + S1x16x512.size a ≤ S8x512x512.size a
  k0_off36_inb : ∀ k0_t1 : Fin k0_t1_loop.trips, ∀ a, (k0_off36 k0_t1) a + S1x16x512.size a ≤ S8x512x512.size a
  k0_off37_inb : ∀ k0_t1 : Fin k0_t1_loop.trips, ∀ a, (k0_off37 k0_t1) a + S1x16x512.size a ≤ S8x512x512.size a
  k0_off38_inb : ∀ k0_t1 : Fin k0_t1_loop.trips, ∀ a, (k0_off38 k0_t1) a + S1x16x512.size a ≤ S8x512x512.size a
  k0_off39_inb : ∀ k0_t1 : Fin k0_t1_loop.trips, ∀ a, (k0_off39 k0_t1) a + S1x16x512.size a ≤ S8x512x512.size a
  k0_off40_inb : ∀ k0_t1 : Fin k0_t1_loop.trips, ∀ a, (k0_off40 k0_t1) a + S1x16x512.size a ≤ S8x512x512.size a
  k0_off41_inb : ∀ k0_t1 : Fin k0_t1_loop.trips, ∀ a, (k0_off41 k0_t1) a + S1x16x512.size a ≤ S8x512x512.size a
  k0_off42_inb : ∀ k0_t1 : Fin k0_t1_loop.trips, ∀ a, (k0_off42 k0_t1) a + S1x16x512.size a ≤ S8x512x512.size a
  k0_off43_inb : ∀ k0_t1 : Fin k0_t1_loop.trips, ∀ a, (k0_off43 k0_t1) a + S1x16x512.size a ≤ S8x512x512.size a
  k0_off44_inb : ∀ k0_t1 : Fin k0_t1_loop.trips, ∀ a, (k0_off44 k0_t1) a + S1x16x512.size a ≤ S8x512x512.size a
  k0_off45_inb : ∀ k0_t1 : Fin k0_t1_loop.trips, ∀ a, (k0_off45 k0_t1) a + S1x16x512.size a ≤ S8x512x512.size a
  k0_off46_inb : ∀ k0_t1 : Fin k0_t1_loop.trips, ∀ a, (k0_off46 k0_t1) a + S1x16x512.size a ≤ S8x512x512.size a
  k0_off47_inb : ∀ k0_t1 : Fin k0_t1_loop.trips, ∀ a, (k0_off47 k0_t1) a + S1x16x512.size a ≤ S8x512x512.size a
  k0_off48_inb : ∀ k0_t1 : Fin k0_t1_loop.trips, ∀ a, (k0_off48 k0_t1) a + S1x16x512.size a ≤ S8x512x512.size a
  k0_off49_inb : ∀ k0_t1 : Fin k0_t1_loop.trips, ∀ a, (k0_off49 k0_t1) a + S1x16x512.size a ≤ S8x512x512.size a
  k0_off50_inb : ∀ k0_t1 : Fin k0_t1_loop.trips, ∀ a, (k0_off50 k0_t1) a + S1x16x512.size a ≤ S8x512x512.size a
  k0_off51_inb : ∀ k0_t1 : Fin k0_t1_loop.trips, ∀ a, (k0_off51 k0_t1) a + S1x16x512.size a ≤ S8x512x512.size a
  k0_off52_inb : ∀ k0_t1 : Fin k0_t1_loop.trips, ∀ a, (k0_off52 k0_t1) a + S1x16x512.size a ≤ S8x512x512.size a
  k0_off53_inb : ∀ k0_t1 : Fin k0_t1_loop.trips, ∀ a, (k0_off53 k0_t1) a + S1x16x512.size a ≤ S8x512x512.size a
  k0_off54_inb : ∀ k0_t1 : Fin k0_t1_loop.trips, ∀ a, (k0_off54 k0_t1) a + S1x16x512.size a ≤ S8x512x512.size a
  k0_off55_inb : ∀ k0_t1 : Fin k0_t1_loop.trips, ∀ a, (k0_off55 k0_t1) a + S1x16x512.size a ≤ S8x512x512.size a
  k0_off56_inb : ∀ k0_t1 : Fin k0_t1_loop.trips, ∀ a, (k0_off56 k0_t1) a + S1x16x512.size a ≤ S8x512x512.size a
  k0_off57_inb : ∀ k0_t1 : Fin k0_t1_loop.trips, ∀ a, (k0_off57 k0_t1) a + S1x16x512.size a ≤ S8x512x512.size a
  k0_off58_inb : ∀ k0_t1 : Fin k0_t1_loop.trips, ∀ a, (k0_off58 k0_t1) a + S1x16x512.size a ≤ S8x512x512.size a
  k0_off59_inb : ∀ k0_t1 : Fin k0_t1_loop.trips, ∀ a, (k0_off59 k0_t1) a + S1x16x512.size a ≤ S8x512x512.size a
  k0_off60_inb : ∀ k0_t1 : Fin k0_t1_loop.trips, ∀ a, (k0_off60 k0_t1) a + S1x16x512.size a ≤ S8x512x512.size a
  k0_off61_inb : ∀ k0_t1 : Fin k0_t1_loop.trips, ∀ a, (k0_off61 k0_t1) a + S1x16x512.size a ≤ S8x512x512.size a
  k0_off62_inb : ∀ k0_t1 : Fin k0_t1_loop.trips, ∀ a, (k0_off62 k0_t1) a + S1x16x512.size a ≤ S8x512x512.size a
  k0_off63_inb : ∀ k0_t1 : Fin k0_t1_loop.trips, ∀ a, (k0_off63 k0_t1) a + S1x16x512.size a ≤ S8x512x512.size a
  k0_off64_inb : ∀ k0_t1 : Fin k0_t1_loop.trips, ∀ a, (k0_off64 k0_t1) a + S1x16x512.size a ≤ S8x512x512.size a
  k0_off65_inb : ∀ k0_t1 : Fin k0_t1_loop.trips, ∀ a, (k0_off65 k0_t1) a + S1x16x512.size a ≤ S8x512x512.size a
  k0_off66_inb : ∀ k0_t1 : Fin k0_t1_loop.trips, ∀ a, (k0_off66 k0_t1) a + S1x16x512.size a ≤ S8x512x512.size a
  k0_off67_inb : ∀ k0_t1 : Fin k0_t1_loop.trips, ∀ a, (k0_off67 k0_t1) a + S1x16x512.size a ≤ S8x512x512.size a
  k0_off68_inb : ∀ k0_t1 : Fin k0_t1_loop.trips, ∀ a, (k0_off68 k0_t1) a + S1x16x512.size a ≤ S8x512x512.size a
  k0_off69_inb : ∀ k0_t1 : Fin k0_t1_loop.trips, ∀ a, (k0_off69 k0_t1) a + S1x16x512.size a ≤ S8x512x512.size a
  k0_off70_inb : ∀ k0_t1 : Fin k0_t1_loop.trips, ∀ a, (k0_off70 k0_t1) a + S1x16x512.size a ≤ S8x512x512.size a
  k0_off71_inb : ∀ k0_t1 : Fin k0_t1_loop.trips, ∀ a, (k0_off71 k0_t1) a + S1x16x512.size a ≤ S8x512x512.size a
  k0_off72_inb : ∀ k0_t1 : Fin k0_t1_loop.trips, ∀ a, (k0_off72 k0_t1) a + S1x16x512.size a ≤ S8x512x512.size a
  k0_off73_inb : ∀ k0_t1 : Fin k0_t1_loop.trips, ∀ a, (k0_off73 k0_t1) a + S1x16x512.size a ≤ S8x512x512.size a
  k0_off74_inb : ∀ k0_t1 : Fin k0_t1_loop.trips, ∀ a, (k0_off74 k0_t1) a + S1x16x512.size a ≤ S8x512x512.size a
  k0_off75_inb : ∀ k0_t1 : Fin k0_t1_loop.trips, ∀ a, (k0_off75 k0_t1) a + S1x16x512.size a ≤ S8x512x512.size a
  k0_off76_inb : ∀ k0_t1 : Fin k0_t1_loop.trips, ∀ a, (k0_off76 k0_t1) a + S1x16x512.size a ≤ S8x512x512.size a
  k0_off77_inb : ∀ k0_t1 : Fin k0_t1_loop.trips, ∀ a, (k0_off77 k0_t1) a + S1x16x512.size a ≤ S8x512x512.size a
  k0_off78_inb : ∀ k0_t1 : Fin k0_t1_loop.trips, ∀ a, (k0_off78 k0_t1) a + S1x16x512.size a ≤ S8x512x512.size a
  k0_off79_inb : ∀ k0_t1 : Fin k0_t1_loop.trips, ∀ a, (k0_off79 k0_t1) a + S1x16x512.size a ≤ S8x512x512.size a
  k0_off80_inb : ∀ k0_t1 : Fin k0_t1_loop.trips, ∀ a, (k0_off80 k0_t1) a + S1x16x512.size a ≤ S8x512x512.size a
  k0_off81_inb : ∀ k0_t1 : Fin k0_t1_loop.trips, ∀ a, (k0_off81 k0_t1) a + S1x16x512.size a ≤ S8x512x512.size a
  k0_off82_inb : ∀ k0_t1 : Fin k0_t1_loop.trips, ∀ a, (k0_off82 k0_t1) a + S1x16x512.size a ≤ S8x512x512.size a
  k0_off83_inb : ∀ k0_t1 : Fin k0_t1_loop.trips, ∀ a, (k0_off83 k0_t1) a + S1x16x512.size a ≤ S8x512x512.size a
  k0_off84_inb : ∀ k0_t1 : Fin k0_t1_loop.trips, ∀ a, (k0_off84 k0_t1) a + S1x16x512.size a ≤ S8x512x512.size a
  k0_off85_inb : ∀ k0_t1 : Fin k0_t1_loop.trips, ∀ a, (k0_off85 k0_t1) a + S1x16x512.size a ≤ S8x512x512.size a
  k0_off86_inb : ∀ k0_t1 : Fin k0_t1_loop.trips, ∀ a, (k0_off86 k0_t1) a + S1x16x512.size a ≤ S8x512x512.size a
  k0_off87_inb : ∀ k0_t1 : Fin k0_t1_loop.trips, ∀ a, (k0_off87 k0_t1) a + S1x16x512.size a ≤ S8x512x512.size a
  k0_off88_inb : ∀ k0_t1 : Fin k0_t1_loop.trips, ∀ a, (k0_off88 k0_t1) a + S1x16x512.size a ≤ S8x512x512.size a
  k0_off89_inb : ∀ k0_t1 : Fin k0_t1_loop.trips, ∀ a, (k0_off89 k0_t1) a + S1x16x512.size a ≤ S8x512x512.size a
  k0_off90_inb : ∀ k0_t1 : Fin k0_t1_loop.trips, ∀ a, (k0_off90 k0_t1) a + S1x16x512.size a ≤ S8x512x512.size a
  k0_off91_inb : ∀ k0_t1 : Fin k0_t1_loop.trips, ∀ a, (k0_off91 k0_t1) a + S1x16x512.size a ≤ S8x512x512.size a
  k0_off92_inb : ∀ k0_t1 : Fin k0_t1_loop.trips, ∀ a, (k0_off92 k0_t1) a + S1x16x512.size a ≤ S8x512x512.size a
  k0_off93_inb : ∀ k0_t1 : Fin k0_t1_loop.trips, ∀ a, (k0_off93 k0_t1) a + S1x16x512.size a ≤ S8x512x512.size a
  k0_off94_inb : ∀ k0_t1 : Fin k0_t1_loop.trips, ∀ a, (k0_off94 k0_t1) a + S1x16x512.size a ≤ S8x512x512.size a
  k0_off95_inb : ∀ k0_t1 : Fin k0_t1_loop.trips, ∀ a, (k0_off95 k0_t1) a + S1x16x512.size a ≤ S8x512x512.size a
  k0_off96_inb : ∀ k0_t1 : Fin k0_t1_loop.trips, ∀ a, (k0_off96 k0_t1) a + S1x16x512.size a ≤ S8x512x512.size a
  k0_off97_inb : ∀ k0_t1 : Fin k0_t1_loop.trips, ∀ a, (k0_off97 k0_t1) a + S1x16x512.size a ≤ S8x512x512.size a
  k0_off98_inb : ∀ k0_t1 : Fin k0_t1_loop.trips, ∀ a, (k0_off98 k0_t1) a + S1x16x512.size a ≤ S8x512x512.size a
  k0_off99_inb : ∀ k0_t1 : Fin k0_t1_loop.trips, ∀ a, (k0_off99 k0_t1) a + S1x16x512.size a ≤ S8x512x512.size a
  k0_off100_inb : ∀ k0_t1 : Fin k0_t1_loop.trips, ∀ a, (k0_off100 k0_t1) a + S1x16x512.size a ≤ S8x512x512.size a
  k0_off101_inb : ∀ k0_t1 : Fin k0_t1_loop.trips, ∀ a, (k0_off101 k0_t1) a + S1x16x512.size a ≤ S8x512x512.size a
  k0_off102_inb : ∀ k0_t1 : Fin k0_t1_loop.trips, ∀ a, (k0_off102 k0_t1) a + S1x16x512.size a ≤ S8x512x512.size a
  k0_off103_inb : ∀ k0_t1 : Fin k0_t1_loop.trips, ∀ a, (k0_off103 k0_t1) a + S1x16x512.size a ≤ S8x512x512.size a
  k0_off104_inb : ∀ k0_t1 : Fin k0_t1_loop.trips, ∀ a, (k0_off104 k0_t1) a + S1x16x512.size a ≤ S8x512x512.size a
  k0_off105_inb : ∀ k0_t1 : Fin k0_t1_loop.trips, ∀ a, (k0_off105 k0_t1) a + S1x16x512.size a ≤ S8x512x512.size a
  k0_off106_inb : ∀ k0_t1 : Fin k0_t1_loop.trips, ∀ a, (k0_off106 k0_t1) a + S1x16x512.size a ≤ S8x512x512.size a
  k0_off107_inb : ∀ k0_t1 : Fin k0_t1_loop.trips, ∀ a, (k0_off107 k0_t1) a + S1x16x512.size a ≤ S8x512x512.size a
  k0_off108_inb : ∀ k0_t1 : Fin k0_t1_loop.trips, ∀ a, (k0_off108 k0_t1) a + S1x16x512.size a ≤ S8x512x512.size a
  k0_off109_inb : ∀ k0_t1 : Fin k0_t1_loop.trips, ∀ a, (k0_off109 k0_t1) a + S1x16x512.size a ≤ S8x512x512.size a
  k0_off110_inb : ∀ k0_t1 : Fin k0_t1_loop.trips, ∀ a, (k0_off110 k0_t1) a + S1x16x512.size a ≤ S8x512x512.size a
  k0_off111_inb : ∀ k0_t1 : Fin k0_t1_loop.trips, ∀ a, (k0_off111 k0_t1) a + S1x16x512.size a ≤ S8x512x512.size a
  k0_off112_inb : ∀ k0_t1 : Fin k0_t1_loop.trips, ∀ a, (k0_off112 k0_t1) a + S1x16x512.size a ≤ S8x512x512.size a
  k0_off113_inb : ∀ k0_t1 : Fin k0_t1_loop.trips, ∀ a, (k0_off113 k0_t1) a + S1x16x512.size a ≤ S8x512x512.size a
  k0_off114_inb : ∀ k0_t1 : Fin k0_t1_loop.trips, ∀ a, (k0_off114 k0_t1) a + S1x16x512.size a ≤ S8x512x512.size a
  k0_off115_inb : ∀ k0_t1 : Fin k0_t1_loop.trips, ∀ a, (k0_off115 k0_t1) a + S1x16x512.size a ≤ S8x512x512.size a
  k0_off116_inb : ∀ k0_t1 : Fin k0_t1_loop.trips, ∀ a, (k0_off116 k0_t1) a + S1x16x512.size a ≤ S8x512x512.size a
  k0_off117_inb : ∀ k0_t1 : Fin k0_t1_loop.trips, ∀ a, (k0_off117 k0_t1) a + S1x16x512.size a ≤ S8x512x512.size a
  k0_off118_inb : ∀ k0_t1 : Fin k0_t1_loop.trips, ∀ a, (k0_off118 k0_t1) a + S1x16x512.size a ≤ S8x512x512.size a
  k0_off119_inb : ∀ k0_t1 : Fin k0_t1_loop.trips, ∀ a, (k0_off119 k0_t1) a + S1x16x512.size a ≤ S8x512x512.size a
  k0_off120_inb : ∀ k0_t1 : Fin k0_t1_loop.trips, ∀ a, (k0_off120 k0_t1) a + S1x16x512.size a ≤ S8x512x512.size a
  k0_off121_inb : ∀ k0_t1 : Fin k0_t1_loop.trips, ∀ a, (k0_off121 k0_t1) a + S1x16x512.size a ≤ S8x512x512.size a
  k0_off122_inb : ∀ k0_t1 : Fin k0_t1_loop.trips, ∀ a, (k0_off122 k0_t1) a + S1x16x512.size a ≤ S8x512x512.size a
  k0_off123_inb : ∀ k0_t1 : Fin k0_t1_loop.trips, ∀ a, (k0_off123 k0_t1) a + S1x16x512.size a ≤ S8x512x512.size a
  k0_off124_inb : ∀ k0_t1 : Fin k0_t1_loop.trips, ∀ a, (k0_off124 k0_t1) a + S1x16x512.size a ≤ S8x512x512.size a
  k0_off125_inb : ∀ k0_t1 : Fin k0_t1_loop.trips, ∀ a, (k0_off125 k0_t1) a + S1x16x512.size a ≤ S8x512x512.size a
  k0_off126_inb : ∀ k0_t1 : Fin k0_t1_loop.trips, ∀ a, (k0_off126 k0_t1) a + S1x16x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S128x512x512.size a
  hwx0_0 : ∀ i : grid0.Coords, EltTy.bits .f32 = 32 ∨ (Rect.block (s := S128x512x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S1x1x1.size a
  hwx0_1 : ∀ i : grid0.Coords, EltTy.bits .f32 = 32 ∨ (Rect.block (s := S1x1x1) S1x1x1.size (cc0_transform_1 i) (hinb0_1 i)).WholeWords (EltTy.packing .f32)

variable [Facts₀]

abbrev win0_0 : Pipeline.Window sig grid0 :=
  Pipeline.Window.ofSpec (Memref.whole main_v0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S16x8x512x512 : Shape := ⟨4, ![16, 8, 512, 512]⟩
abbrev S_ : Shape := ⟨0, ![]⟩
abbrev S16x8x1x512 : Shape := ⟨4, ![16, 8, 1, 512]⟩
abbrev S16x8x513x512 : Shape := ⟨4, ![16, 8, 513, 512]⟩
abbrev S16x8x513x1 : Shape := ⟨4, ![16, 8, 513, 1]⟩
abbrev S16x8x513x513 : Shape := ⟨4, ![16, 8, 513, 513]⟩

abbrev nBuf : Space → Nat
  | .hbm => 33
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S_, .i32⟩
  | .hbm, ⟨2, _⟩ => ⟨S16x8x1x512, .f32⟩
  | .hbm, ⟨3, _⟩ => ⟨S16x8x1x512, .f32⟩
  | .hbm, ⟨4, _⟩ => ⟨S16x8x1x512, .f32⟩
  | .hbm, ⟨5, _⟩ => ⟨S16x8x513x512, .f32⟩
  | .hbm, ⟨6, _⟩ => ⟨S16x8x1x512, .f32⟩
  | .hbm, ⟨7, _⟩ => ⟨S16x8x513x1, .f32⟩
  | .hbm, ⟨8, _⟩ => ⟨S16x8x513x1, .f32⟩
  | .hbm, ⟨9, _⟩ => ⟨S16x8x513x1, .f32⟩
  | .hbm, ⟨10, _⟩ => ⟨S16x8x513x513, .f32⟩
  | .hbm, ⟨11, _⟩ => ⟨S16x8x513x1, .f32⟩
  | .hbm, ⟨12, _⟩ => ⟨S_, .f32⟩
  | .hbm, ⟨13, _⟩ => ⟨S16x8x512x512, .f32⟩
  | .hbm, ⟨14, _⟩ => ⟨S_, .i32⟩
  | .hbm, ⟨15, _⟩ => ⟨S16x8x1x512, .f32⟩
  | .hbm, ⟨16, _⟩ => ⟨S16x8x1x512, .f32⟩
  | .hbm, ⟨17, _⟩ => ⟨S16x8x1x512, .f32⟩
  | .hbm, ⟨18, _⟩ => ⟨S16x8x1x512, .f32⟩
  | .hbm, ⟨19, _⟩ => ⟨S16x8x513x512, .f32⟩
  | .hbm, ⟨20, _⟩ => ⟨S16x8x513x1, .f32⟩
  | .hbm, ⟨21, _⟩ => ⟨S16x8x513x1, .f32⟩
  | .hbm, ⟨22, _⟩ => ⟨S16x8x513x1, .f32⟩
  | .hbm, ⟨23, _⟩ => ⟨S16x8x513x1, .f32⟩
  | .hbm, ⟨24, _⟩ => ⟨S16x8x513x513, .f32⟩
  | .hbm, ⟨25, _⟩ => ⟨S_, .f32⟩
  | .hbm, ⟨26, _⟩ => ⟨S16x8x512x512, .f32⟩
  | .hbm, ⟨27, _⟩ => ⟨S16x8x512x512, .f32⟩
  | .hbm, ⟨28, _⟩ => ⟨S16x8x512x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_v0 : Ref sig .tc := ⟨.hbm, 10, rfl⟩
abbrev main_call0_v9 : Ref sig .tc := ⟨.hbm, 11, rfl⟩
abbrev main_cst : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_v2 : Ref sig .tc := ⟨.hbm, 24, rfl⟩
abbrev main_cst_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_cst_3 : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  slices_S16x8x512x512_S16x8x1x512_0_0_0_0 : S16x8x512x512.Slices ![0, 0, 0, 0] S16x8x1x512
  concatenates_S16x8x1x512_S16x8x512x512_S16x8x513x512_d2 : Shape.Concatenates [S16x8x1x512, S16x8x512x512] S16x8x513x512 2
  slices_S16x8x513x512_S16x8x1x512_0_0_512_0 : S16x8x513x512.Slices ![0, 0, 512, 0] S16x8x1x512
  slices_S16x8x513x512_S16x8x513x1_0_0_0_0 : S16x8x513x512.Slices ![0, 0, 0, 0] S16x8x513x1
  concatenates_S16x8x513x1_S16x8x513x512_S16x8x513x513_d3 : Shape.Concatenates [S16x8x513x1, S16x8x513x512] S16x8x513x513 3
  slices_S16x8x513x513_S16x8x513x1_0_0_0_512 : S16x8x513x513.Slices ![0, 0, 0, 512] S16x8x513x1
  reduceWindows_S16x8x513x513_S16x8x512x512_w1s1p0_0_w1s1p0_0_w2s1p0_0_w2s1p0_0 : S16x8x513x513.ReduceWindows (![1, 1, 2, 2] : Fin 4 → Nat) ![1, 1, 1, 1] ![0, 0, 0, 0] ![0, 0, 0, 0] S16x8x512x512
  h_S_ : 0 < S_.numel
  slices_S16x8x512x512_S16x8x1x512_0_0_511_0 : S16x8x512x512.Slices ![0, 0, 511, 0] S16x8x1x512
  concatenates_S16x8x512x512_S16x8x1x512_S16x8x513x512_d2 : Shape.Concatenates [S16x8x512x512, S16x8x1x512] S16x8x513x512 2
  slices_S16x8x513x512_S16x8x513x1_0_0_0_511 : S16x8x513x512.Slices ![0, 0, 0, 511] S16x8x513x1
  concatenates_S16x8x513x512_S16x8x513x1_S16x8x513x513_d3 : Shape.Concatenates [S16x8x513x512, S16x8x513x1] S16x8x513x513 3
  reducesTo_S16x8x512x512_S_d0_1_2_3 : S16x8x512x512.ReducesTo [0, 1, 2, 3] S_

variable [Facts₀]

class Facts : Prop extends Facts₀ where

variable [Facts]
-- ==== Proof.KAccRuns.lean ====
/-
  The kernel body of the 2x2 opening loss, run once per control case.

  The body streams one block of eight 512x512 images: a counted loop of four trips folds the squared
  differences of two images per trip into an 8x512 accumulator, the accumulator is summed to one number
  (the block's partial sum), and that number is stored into the one-element output block at the first grid
  point and added to what the block already holds at every later point.  The two conditionals are
  complementary on the grid (the first holds at point 0 only, the second from point 1 on), so every point is
  in exactly one of two cases:
    case A (point 0): the output block is overwritten with the block's partial sum;
    case B (points 1..15): the output block is read, the partial sum added, and the block stored back.
  Each run below is stated on arbitrary whole staging memrefs and hands the output buffer back with the list
  of pieces its stores wrote, so that what the output block holds after the body is a named term.
  Everything here is generic in the float instance.
-/
import proofs.«114172_g47107201302668_feedfinal_429_31_alg».proof.Proof.Gen.Kernel.Frame
import proofs.«114172_g47107201302668_feedfinal_429_31_alg».proof.Proof.Gen.Kernel.Skeleton
import proofs.«114172_g47107201302668_feedfinal_429_31_alg».proof.Proof.Gen.Kernel.Loops
import proofs.«114172_g47107201302668_feedfinal_429_31_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The first conditional's condition: the grid coordinate is zero. -/
abbrev cond0_0 (i : grid0.Coords) : Prop := k0_cond1 i = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition: the grid coordinate is not zero. -/
abbrev cond0_1 (i : grid0.Coords) : Prop := k0_cond2 i = 1#1
/-- It holds from point 1 on. -/
theorem hcond0_1 : ∀ t : Fin cfg0.N, cond0_1 (grid0.coords t) ↔ 1 ≤ t.val :=
  (by decide +kernel : ∀ t : Fin grid0.N, cond0_1 (grid0.coords t) ↔ 1 ≤ t.val)

/-- The input window is never idle. -/
theorem liveAt0_0 : ∀ t : Fin cfg0.N, cfg0.idle 0 (grid0.coords t) = false := by decide +kernel
/-- Neither is the output window: one of the two conditionals stores into it at every point. -/
theorem liveAt0_1 : ∀ t : Fin cfg0.N, cfg0.idle 1 (grid0.coords t) = false := by decide +kernel

/-! ## The staging memrefs at a point -/

/-- One staging buffer of the output window, through which its contents are stated. -/
abbrev VO0_1 : View sig .tc .vmem S1x1x1 .f32 := (Memref.whole cc0_stg1_0 : Memref sig .tc .vmem S1x1x1 .f32).view
abbrev ms0_0 (t : Fin cfg0.N) : Memref sig .tc .vmem S8x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1 .f32 := win0_1.stage (cfg0.slots t 1)
abbrev hs0_1 (t : Fin cfg0.N) : (ms0_1 t).IsWhole := hstage0_1 ((cfg0.slots t 1).cast nbuf0_1)

/-! ## The body in each case -/

set_option maxHeartbeats 1000000 in
/-- Case A (first conditional taken, second not): the image block stays as it was, and the output buffer,
    whatever it held, ends with the pieces the one store wrote. -/
noncomputable def kernelRun0_A (c : Dev nD) (i : grid0.Coords) (arg1 : Memref sig .tc .vmem S8x512x512 .f32) (harg1 : arg1.IsWhole)
    (arg2 : Memref sig .tc .vmem S1x1x1 .f32) (harg2 : arg2.IsWhole) (hc0 : cond0_0 i) (hc1 : ¬cond0_1 i)
    (x0 : Vec F S8x512x512 .f32) :
    { L1 : List (View.Piece (Elt F) S1x1x1 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__opening_mse_body i arg1 harg1 arg2 harg2) K } := by
  refine ⟨?_, fun E K => ?run⟩
  case run =>
    simp only [cc0__opening_mse_body_eq_skeleton]; unfold cc0__opening_mse_body_skel
    unfold owns
    iintro ⟨⟨%f0, %hf0, H0⟩, ⟨%d1, %f1, -, H1⟩, Hk⟩
    obtain rfl := harg1.eq_unread hf0
    sl_exec (disch := first | exact hc0 | exact hc1)
    sl_step
    iapply Hk
    isplitl [H0]
    · iexists _; isplitr; · ipureintro; exact harg1.read_unread _
      iexact H0
    iexists _; iexact H1

set_option maxHeartbeats 1000000 in
/-- Case B (first conditional not taken, second taken): the output buffer, holding the running sum `xo1`, is
    read and ends with the pieces the one store wrote. -/
noncomputable def kernelRun0_B (c : Dev nD) (i : grid0.Coords) (arg1 : Memref sig .tc .vmem S8x512x512 .f32) (harg1 : arg1.IsWhole)
    (arg2 : Memref sig .tc .vmem S1x1x1 .f32) (harg2 : arg2.IsWhole) (hc0 : ¬cond0_0 i) (hc1 : cond0_1 i)
    (x0 : Vec F S8x512x512 .f32) (xo1 : Vec F S1x1x1 .f32) :
    { L1 : List (View.Piece (Elt F) S1x1x1 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__opening_mse_body i arg1 harg1 arg2 harg2) K } := by
  refine ⟨?_, fun E K => ?run⟩
  case run =>
    simp only [cc0__opening_mse_body_eq_skeleton]; unfold cc0__opening_mse_body_skel
    unfold owns
    iintro ⟨⟨%f0, %hf0, H0⟩, ⟨%f1, %hf1, H1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    iexists _; iexact H1

end Cert.Kernel.Acc

end
-- ==== Proof.KAccFrame.lean ====
/-
  What the one-element output block holds after each grid point, and the frame run that names it.

  After point 0 the block holds what case A's store wrote (the first image block's partial sum); after a later
  point `t` it holds what case B's store wrote over what point `t - 1` left (the running sum plus the
  `t`-th partial sum).  The block is written back to its array after the last point only, so between points
  its staging buffer keeps what the body left.  With the output named in this way the launch theorem gives a
  run of the whole program whose post-condition names the output array, and the frame claim follows.
  Everything here is generic in the float instance.
-/
import proofs.«114172_g47107201302668_feedfinal_429_31_alg».proof.Proof.KAccRuns

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- Case A's one store covers the one-element block. -/
theorem cover0_A_1 (c : Dev nD) (i : grid0.Coords) (arg1 : Memref sig .tc .vmem S8x512x512 .f32) (harg1 : arg1.IsWhole)
    (arg2 : Memref sig .tc .vmem S1x1x1 .f32) (harg2 : arg2.IsWhole) (hc0 : cond0_0 i) (hc1 : ¬cond0_1 i)
    (x0 : Vec F S8x512x512 .f32) (y : S1x1x1.Idx) :
    ∃ pc ∈ (kernelRun0_A c i arg1 harg1 arg2 harg2 hc0 hc1 x0).1, y ∈ pc.1.set :=
  View.cover_of_tiledL (kernelRun0_A c i arg1 harg1 arg2 harg2 hc0 hc1 x0).1 S1x1x1.size (by sl_kernel_rfl) y

/-- What case A leaves in the output block: its pieces read back. -/
def out0_A_1 (c : Dev nD) (i : grid0.Coords) (arg1 : Memref sig .tc .vmem S8x512x512 .f32) (harg1 : arg1.IsWhole)
    (arg2 : Memref sig .tc .vmem S1x1x1 .f32) (harg2 : arg2.IsWhole) (hc0 : cond0_0 i) (hc1 : ¬cond0_1 i)
    (x0 : Vec F S8x512x512 .f32) : Vec F S1x1x1 .f32 :=
  VO0_1.read (Elt F) (VO0_1.writes (Elt F) VO0_1.junk (kernelRun0_A c i arg1 harg1 arg2 harg2 hc0 hc1 x0).1)

/-- Case B's one store covers the one-element block. -/
theorem cover0_B_1 (c : Dev nD) (i : grid0.Coords) (arg1 : Memref sig .tc .vmem S8x512x512 .f32) (harg1 : arg1.IsWhole)
    (arg2 : Memref sig .tc .vmem S1x1x1 .f32) (harg2 : arg2.IsWhole) (hc0 : ¬cond0_0 i) (hc1 : cond0_1 i)
    (x0 : Vec F S8x512x512 .f32) (xo1 : Vec F S1x1x1 .f32) (y : S1x1x1.Idx) :
    ∃ pc ∈ (kernelRun0_B c i arg1 harg1 arg2 harg2 hc0 hc1 x0 xo1).1, y ∈ pc.1.set :=
  View.cover_of_tiledL (kernelRun0_B c i arg1 harg1 arg2 harg2 hc0 hc1 x0 xo1).1 S1x1x1.size (by sl_kernel_rfl) y

/-- What case B leaves in the output block, from the running sum `xo1` it found there. -/
def out0_B_1 (c : Dev nD) (i : grid0.Coords) (arg1 : Memref sig .tc .vmem S8x512x512 .f32) (harg1 : arg1.IsWhole)
    (arg2 : Memref sig .tc .vmem S1x1x1 .f32) (harg2 : arg2.IsWhole) (hc0 : ¬cond0_0 i) (hc1 : cond0_1 i)
    (x0 : Vec F S8x512x512 .f32) (xo1 : Vec F S1x1x1 .f32) : Vec F S1x1x1 .f32 :=
  VO0_1.read (Elt F) (VO0_1.writes (Elt F) VO0_1.junk (kernelRun0_B c i arg1 harg1 arg2 harg2 hc0 hc1 x0 xo1).1)

/-! ## The running sum, point by point -/

theorem not_cond0_1_zero (hn : 0 < cfg0.N) : ¬cond0_1 (grid0.coords ⟨0, hn⟩) := fun h => by
  have h' : 1 ≤ 0 := (hcond0_1 ⟨0, hn⟩).mp h
  omega

theorem not_cond0_0_succ (n : ℕ) (hn : n + 1 < cfg0.N) : ¬cond0_0 (grid0.coords ⟨n + 1, hn⟩) := fun h => by
  have h' : (n + 1) % 16 = 0 := (hcond0_0 ⟨n + 1, hn⟩).mp h
  have hN : n + 1 < 16 := lt_of_lt_of_eq hn (show cfg0.N = 16 from N_0)
  omega

/-- The output block after the body at position `n`: case A at the first point, case B over what the point
    before left at every later one. -/
def outsAt0 (c : Dev nD) : (n : ℕ) → n < cfg0.N → Vec F S1x1x1 .f32
  | 0, hn => out0_A_1 c (grid0.coords ⟨0, hn⟩) (ms0_0 ⟨0, hn⟩) (hs0_0 ⟨0, hn⟩) (ms0_1 ⟨0, hn⟩) (hs0_1 ⟨0, hn⟩)
      ((hcond0_0 ⟨0, hn⟩).mpr (Nat.zero_mod _)) (not_cond0_1_zero hn) (iblk m c 0 ⟨0, hn⟩)
  | n + 1, hn => out0_B_1 c (grid0.coords ⟨n + 1, hn⟩) (ms0_0 ⟨n + 1, hn⟩) (hs0_0 ⟨n + 1, hn⟩) (ms0_1 ⟨n + 1, hn⟩) (hs0_1 ⟨n + 1, hn⟩)
      (not_cond0_0_succ n hn) ((hcond0_1 ⟨n + 1, hn⟩).mpr (Nat.succ_le_succ (Nat.zero_le n))) (iblk m c 0 ⟨n + 1, hn⟩)
      (outsAt0 c n (Nat.lt_of_succ_lt hn))

/-- At the first point: case A's contents. -/
theorem outsAt0_A (c : Dev nD) (t : Fin cfg0.N) (h0 : t.val % 16 = 0) (hc1 : ¬cond0_1 (grid0.coords t)) :
    outsAt0 m c t.val t.isLt = out0_A_1 c (grid0.coords t) (ms0_0 t) (hs0_0 t) (ms0_1 t) (hs0_1 t) ((hcond0_0 t).mpr h0) hc1 (iblk m c 0 t) := by
  obtain ⟨n, hn⟩ := t
  cases n with
  | zero => exact rfl
  | succ n =>
    exfalso
    have hN : n + 1 < 16 := lt_of_lt_of_eq hn (show cfg0.N = 16 from N_0)
    have h0' : (n + 1) % 16 = 0 := h0
    omega

/-- At a later point: case B's contents, over what the point before left. -/
theorem outsAt0_B (c : Dev nD) (t : Fin cfg0.N) (h1 : 1 ≤ t.val) (hc0 : ¬cond0_0 (grid0.coords t)) :
    outsAt0 m c t.val t.isLt = out0_B_1 c (grid0.coords t) (ms0_0 t) (hs0_0 t) (ms0_1 t) (hs0_1 t) hc0 ((hcond0_1 t).mpr h1) (iblk m c 0 t)
      (outsAt0 m c (t.val - 1) (Nat.lt_of_le_of_lt (Nat.sub_le _ _) t.isLt)) := by
  obtain ⟨n, hn⟩ := t
  cases n with
  | zero => exact absurd h1 (Nat.not_succ_le_zero 0)
  | succ n => exact rfl

/-! ## The proof data -/

/-- The arrays as the region finds them; after the body at point `t` the input buffer at its block and the
    output buffer at the running sum; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input buffer holds its block at every point. -/
theorem before0_0 (c : Dev nD) (t : Fin cfg0.N) (d) : (dats m 0 c).before 0 t d = iblk m c 0 t :=
  before0_0_of m (dats m 0 c) (A_eq m c 0) (after0_0 m c) t d

/-- The output window's table of idle points is empty at every coordinate: one of the two complementary
    conditionals holds. -/
theorem live0_1 : ∀ i : grid0.Coords, cfg0.idle 1 i = false := by decide +kernel

/-- At the first point the output buffer is fresh: it holds anything. -/
theorem before0_1_A (c : Dev nD) (t : Fin cfg0.N) (h0 : t.val % 16 = 0) (d) : (dats m 0 c).before 1 t d = d := by
  have hN : t.val < 16 := lt_of_lt_of_eq t.isLt (show cfg0.N = 16 from N_0)
  exact Dat.before_out_reset _ 1 rfl t (.inl (by omega)) d

/-- At a later point the output buffer holds what the body left at the point before: the block is not written
    back in between. -/
theorem before0_1_B (c : Dev nD) (t : Fin cfg0.N) (h1 : 1 ≤ t.val) (d) :
    (dats m 0 c).before 1 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 800000 in
/-- The body at any point: the point is in exactly one of the two cases; the input buffer holds its block, the
    output buffer anything (case A) or the running sum (case B); the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0_0 t) fullShare ((dats m 0 c).after 0 t) from by
      unfold Dat.leavesExact; rw [liveAt0_0 t],
    show (dats m 0 c).leavesExact 1 t = owns (c : Thread nD τ) (ms0_1 t) fullShare ((dats m 0 c).after 1 t) from by
      unfold Dat.leavesExact; rw [liveAt0_1 t],
    after0_0, after0_1]
  have hN : t.val < 16 := lt_of_lt_of_eq t.isLt (show cfg0.N = 16 from N_0)
  by_cases h0 : t.val % 16 = 0
  · have h1 : ¬1 ≤ t.val := by omega
    rw [outsAt0_A m c t h0 (fun h => h1 ((hcond0_1 t).mp h))]
    simp only [before0_1_A m c t h0]
    unfold out0_A_1
    iintro ⟨HΦ, Ho, ⟨%d0, H0⟩, ⟨%d1, H1⟩⟩
    iapply ((kernelRun0_A c (grid0.coords t) _ _ _ _ ((hcond0_0 t).mpr h0) (fun h => h1 ((hcond0_1 t).mp h)) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · have h1 : 1 ≤ t.val := by omega
    rw [outsAt0_B m c t h1 (fun h => h0 ((hcond0_0 t).mp h))]
    simp only [before0_1_B m c t h1]
    unfold out0_B_1
    iintro ⟨HΦ, Ho, ⟨%d0, H0⟩, ⟨%d1, H1⟩⟩
    iapply ((kernelRun0_B c (grid0.coords t) _ _ _ _ (fun h => h0 ((hcond0_0 t).mp h)) ((hcond0_1 t).mpr h1) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and the final state has every array of the pipeline
    at what the library computes from the proof data, and every other unscoped buffer as the host lines after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Acc

end
-- ==== Proof.AccRuns.lean ====
/-
  The kernel body of the 2x2 opening loss, run once per control case.

  The body streams one block of eight 512x512 images: a counted loop of four trips folds the squared
  differences of two images per trip into an 8x512 accumulator, the accumulator is summed to one number
  (the block's partial sum), and that number is stored into the one-element output block at the first grid
  point and added to what the block already holds at every later point.  The two conditionals are
  complementary on the grid (the first holds at point 0 only, the second from point 1 on), so every point is
  in exactly one of two cases:
    case A (point 0): the output block is overwritten with the block's partial sum;
    case B (points 1..15): the output block is read, the partial sum added, and the block stored back.
  Each run below is stated on arbitrary whole staging memrefs and hands the output buffer back with the list
  of pieces its stores wrote, so that what the output block holds after the body is a named term.
  Everything here is generic in the float instance.
-/
import proofs.«114172_g47107201302668_feedfinal_429_31_alg».proof.Proof.Gen.KernelIdeal.Frame
import proofs.«114172_g47107201302668_feedfinal_429_31_alg».proof.Proof.Gen.KernelIdeal.Skeleton
import proofs.«114172_g47107201302668_feedfinal_429_31_alg».proof.Proof.Gen.KernelIdeal.Loops
import proofs.«114172_g47107201302668_feedfinal_429_31_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The first conditional's condition: the grid coordinate is zero. -/
abbrev cond0_0 (i : grid0.Coords) : Prop := k0_cond1 i = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition: the grid coordinate is not zero. -/
abbrev cond0_1 (i : grid0.Coords) : Prop := k0_cond2 i = 1#1
/-- It holds from point 1 on. -/
theorem hcond0_1 : ∀ t : Fin cfg0.N, cond0_1 (grid0.coords t) ↔ 1 ≤ t.val :=
  (by decide +kernel : ∀ t : Fin grid0.N, cond0_1 (grid0.coords t) ↔ 1 ≤ t.val)

/-- The input window is never idle. -/
theorem liveAt0_0 : ∀ t : Fin cfg0.N, cfg0.idle 0 (grid0.coords t) = false := by decide +kernel
/-- Neither is the output window: one of the two conditionals stores into it at every point. -/
theorem liveAt0_1 : ∀ t : Fin cfg0.N, cfg0.idle 1 (grid0.coords t) = false := by decide +kernel

/-! ## The staging memrefs at a point -/

/-- One staging buffer of the output window, through which its contents are stated. -/
abbrev VO0_1 : View sig .tc .vmem S1x1x1 .f32 := (Memref.whole cc0_stg1_0 : Memref sig .tc .vmem S1x1x1 .f32).view
abbrev ms0_0 (t : Fin cfg0.N) : Memref sig .tc .vmem S8x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1 .f32 := win0_1.stage (cfg0.slots t 1)
abbrev hs0_1 (t : Fin cfg0.N) : (ms0_1 t).IsWhole := hstage0_1 ((cfg0.slots t 1).cast nbuf0_1)

/-! ## The body in each case -/

set_option maxHeartbeats 1000000 in
/-- Case A (first conditional taken, second not): the image block stays as it was, and the output buffer,
    whatever it held, ends with the pieces the one store wrote. -/
noncomputable def kernelRun0_A (c : Dev nD) (i : grid0.Coords) (arg1 : Memref sig .tc .vmem S8x512x512 .f32) (harg1 : arg1.IsWhole)
    (arg2 : Memref sig .tc .vmem S1x1x1 .f32) (harg2 : arg2.IsWhole) (hc0 : cond0_0 i) (hc1 : ¬cond0_1 i)
    (x0 : Vec F S8x512x512 .f32) :
    { L1 : List (View.Piece (Elt F) S1x1x1 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__opening_mse_body i arg1 harg1 arg2 harg2) K } := by
  refine ⟨?_, fun E K => ?run⟩
  case run =>
    simp only [cc0__opening_mse_body_eq_skeleton]; unfold cc0__opening_mse_body_skel
    unfold owns
    iintro ⟨⟨%f0, %hf0, H0⟩, ⟨%d1, %f1, -, H1⟩, Hk⟩
    obtain rfl := harg1.eq_unread hf0
    sl_exec (disch := first | exact hc0 | exact hc1)
    sl_step
    iapply Hk
    isplitl [H0]
    · iexists _; isplitr; · ipureintro; exact harg1.read_unread _
      iexact H0
    iexists _; iexact H1

set_option maxHeartbeats 1000000 in
/-- Case B (first conditional not taken, second taken): the output buffer, holding the running sum `xo1`, is
    read and ends with the pieces the one store wrote. -/
noncomputable def kernelRun0_B (c : Dev nD) (i : grid0.Coords) (arg1 : Memref sig .tc .vmem S8x512x512 .f32) (harg1 : arg1.IsWhole)
    (arg2 : Memref sig .tc .vmem S1x1x1 .f32) (harg2 : arg2.IsWhole) (hc0 : ¬cond0_0 i) (hc1 : cond0_1 i)
    (x0 : Vec F S8x512x512 .f32) (xo1 : Vec F S1x1x1 .f32) :
    { L1 : List (View.Piece (Elt F) S1x1x1 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__opening_mse_body i arg1 harg1 arg2 harg2) K } := by
  refine ⟨?_, fun E K => ?run⟩
  case run =>
    simp only [cc0__opening_mse_body_eq_skeleton]; unfold cc0__opening_mse_body_skel
    unfold owns
    iintro ⟨⟨%f0, %hf0, H0⟩, ⟨%f1, %hf1, H1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    iexists _; iexact H1

end Cert.KernelIdeal.Acc

end
-- ==== Proof.AccFrame.lean ====
/-
  What the one-element output block holds after each grid point, and the frame run that names it.

  After point 0 the block holds what case A's store wrote (the first image block's partial sum); after a later
  point `t` it holds what case B's store wrote over what point `t - 1` left (the running sum plus the
  `t`-th partial sum).  The block is written back to its array after the last point only, so between points
  its staging buffer keeps what the body left.  With the output named in this way the launch theorem gives a
  run of the whole program whose post-condition names the output array, and the frame claim follows.
  Everything here is generic in the float instance.
-/
import proofs.«114172_g47107201302668_feedfinal_429_31_alg».proof.Proof.AccRuns

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- Case A's one store covers the one-element block. -/
theorem cover0_A_1 (c : Dev nD) (i : grid0.Coords) (arg1 : Memref sig .tc .vmem S8x512x512 .f32) (harg1 : arg1.IsWhole)
    (arg2 : Memref sig .tc .vmem S1x1x1 .f32) (harg2 : arg2.IsWhole) (hc0 : cond0_0 i) (hc1 : ¬cond0_1 i)
    (x0 : Vec F S8x512x512 .f32) (y : S1x1x1.Idx) :
    ∃ pc ∈ (kernelRun0_A c i arg1 harg1 arg2 harg2 hc0 hc1 x0).1, y ∈ pc.1.set :=
  View.cover_of_tiledL (kernelRun0_A c i arg1 harg1 arg2 harg2 hc0 hc1 x0).1 S1x1x1.size (by sl_kernel_rfl) y

/-- What case A leaves in the output block: its pieces read back. -/
def out0_A_1 (c : Dev nD) (i : grid0.Coords) (arg1 : Memref sig .tc .vmem S8x512x512 .f32) (harg1 : arg1.IsWhole)
    (arg2 : Memref sig .tc .vmem S1x1x1 .f32) (harg2 : arg2.IsWhole) (hc0 : cond0_0 i) (hc1 : ¬cond0_1 i)
    (x0 : Vec F S8x512x512 .f32) : Vec F S1x1x1 .f32 :=
  VO0_1.read (Elt F) (VO0_1.writes (Elt F) VO0_1.junk (kernelRun0_A c i arg1 harg1 arg2 harg2 hc0 hc1 x0).1)

/-- Case B's one store covers the one-element block. -/
theorem cover0_B_1 (c : Dev nD) (i : grid0.Coords) (arg1 : Memref sig .tc .vmem S8x512x512 .f32) (harg1 : arg1.IsWhole)
    (arg2 : Memref sig .tc .vmem S1x1x1 .f32) (harg2 : arg2.IsWhole) (hc0 : ¬cond0_0 i) (hc1 : cond0_1 i)
    (x0 : Vec F S8x512x512 .f32) (xo1 : Vec F S1x1x1 .f32) (y : S1x1x1.Idx) :
    ∃ pc ∈ (kernelRun0_B c i arg1 harg1 arg2 harg2 hc0 hc1 x0 xo1).1, y ∈ pc.1.set :=
  View.cover_of_tiledL (kernelRun0_B c i arg1 harg1 arg2 harg2 hc0 hc1 x0 xo1).1 S1x1x1.size (by sl_kernel_rfl) y

/-- What case B leaves in the output block, from the running sum `xo1` it found there. -/
def out0_B_1 (c : Dev nD) (i : grid0.Coords) (arg1 : Memref sig .tc .vmem S8x512x512 .f32) (harg1 : arg1.IsWhole)
    (arg2 : Memref sig .tc .vmem S1x1x1 .f32) (harg2 : arg2.IsWhole) (hc0 : ¬cond0_0 i) (hc1 : cond0_1 i)
    (x0 : Vec F S8x512x512 .f32) (xo1 : Vec F S1x1x1 .f32) : Vec F S1x1x1 .f32 :=
  VO0_1.read (Elt F) (VO0_1.writes (Elt F) VO0_1.junk (kernelRun0_B c i arg1 harg1 arg2 harg2 hc0 hc1 x0 xo1).1)

/-! ## The running sum, point by point -/

theorem not_cond0_1_zero (hn : 0 < cfg0.N) : ¬cond0_1 (grid0.coords ⟨0, hn⟩) := fun h => by
  have h' : 1 ≤ 0 := (hcond0_1 ⟨0, hn⟩).mp h
  omega

theorem not_cond0_0_succ (n : ℕ) (hn : n + 1 < cfg0.N) : ¬cond0_0 (grid0.coords ⟨n + 1, hn⟩) := fun h => by
  have h' : (n + 1) % 16 = 0 := (hcond0_0 ⟨n + 1, hn⟩).mp h
  have hN : n + 1 < 16 := lt_of_lt_of_eq hn (show cfg0.N = 16 from N_0)
  omega

/-- The output block after the body at position `n`: case A at the first point, case B over what the point
    before left at every later one. -/
def outsAt0 (c : Dev nD) : (n : ℕ) → n < cfg0.N → Vec F S1x1x1 .f32
  | 0, hn => out0_A_1 c (grid0.coords ⟨0, hn⟩) (ms0_0 ⟨0, hn⟩) (hs0_0 ⟨0, hn⟩) (ms0_1 ⟨0, hn⟩) (hs0_1 ⟨0, hn⟩)
      ((hcond0_0 ⟨0, hn⟩).mpr (Nat.zero_mod _)) (not_cond0_1_zero hn) (iblk m c 0 ⟨0, hn⟩)
  | n + 1, hn => out0_B_1 c (grid0.coords ⟨n + 1, hn⟩) (ms0_0 ⟨n + 1, hn⟩) (hs0_0 ⟨n + 1, hn⟩) (ms0_1 ⟨n + 1, hn⟩) (hs0_1 ⟨n + 1, hn⟩)
      (not_cond0_0_succ n hn) ((hcond0_1 ⟨n + 1, hn⟩).mpr (Nat.succ_le_succ (Nat.zero_le n))) (iblk m c 0 ⟨n + 1, hn⟩)
      (outsAt0 c n (Nat.lt_of_succ_lt hn))

/-- At the first point: case A's contents. -/
theorem outsAt0_A (c : Dev nD) (t : Fin cfg0.N) (h0 : t.val % 16 = 0) (hc1 : ¬cond0_1 (grid0.coords t)) :
    outsAt0 m c t.val t.isLt = out0_A_1 c (grid0.coords t) (ms0_0 t) (hs0_0 t) (ms0_1 t) (hs0_1 t) ((hcond0_0 t).mpr h0) hc1 (iblk m c 0 t) := by
  obtain ⟨n, hn⟩ := t
  cases n with
  | zero => exact rfl
  | succ n =>
    exfalso
    have hN : n + 1 < 16 := lt_of_lt_of_eq hn (show cfg0.N = 16 from N_0)
    have h0' : (n + 1) % 16 = 0 := h0
    omega

/-- At a later point: case B's contents, over what the point before left. -/
theorem outsAt0_B (c : Dev nD) (t : Fin cfg0.N) (h1 : 1 ≤ t.val) (hc0 : ¬cond0_0 (grid0.coords t)) :
    outsAt0 m c t.val t.isLt = out0_B_1 c (grid0.coords t) (ms0_0 t) (hs0_0 t) (ms0_1 t) (hs0_1 t) hc0 ((hcond0_1 t).mpr h1) (iblk m c 0 t)
      (outsAt0 m c (t.val - 1) (Nat.lt_of_le_of_lt (Nat.sub_le _ _) t.isLt)) := by
  obtain ⟨n, hn⟩ := t
  cases n with
  | zero => exact absurd h1 (Nat.not_succ_le_zero 0)
  | succ n => exact rfl

/-! ## The proof data -/

/-- The arrays as the region finds them; after the body at point `t` the input buffer at its block and the
    output buffer at the running sum; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input buffer holds its block at every point. -/
theorem before0_0 (c : Dev nD) (t : Fin cfg0.N) (d) : (dats m 0 c).before 0 t d = iblk m c 0 t :=
  before0_0_of m (dats m 0 c) (A_eq m c 0) (after0_0 m c) t d

/-- The output window's table of idle points is empty at every coordinate: one of the two complementary
    conditionals holds. -/
theorem live0_1 : ∀ i : grid0.Coords, cfg0.idle 1 i = false := by decide +kernel

/-- At the first point the output buffer is fresh: it holds anything. -/
theorem before0_1_A (c : Dev nD) (t : Fin cfg0.N) (h0 : t.val % 16 = 0) (d) : (dats m 0 c).before 1 t d = d := by
  have hN : t.val < 16 := lt_of_lt_of_eq t.isLt (show cfg0.N = 16 from N_0)
  exact Dat.before_out_reset _ 1 rfl t (.inl (by omega)) d

/-- At a later point the output buffer holds what the body left at the point before: the block is not written
    back in between. -/
theorem before0_1_B (c : Dev nD) (t : Fin cfg0.N) (h1 : 1 ≤ t.val) (d) :
    (dats m 0 c).before 1 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    live0_1 (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 800000 in
/-- The body at any point: the point is in exactly one of the two cases; the input buffer holds its block, the
    output buffer anything (case A) or the running sum (case B); the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0_0 t) fullShare ((dats m 0 c).after 0 t) from by
      unfold Dat.leavesExact; rw [liveAt0_0 t],
    show (dats m 0 c).leavesExact 1 t = owns (c : Thread nD τ) (ms0_1 t) fullShare ((dats m 0 c).after 1 t) from by
      unfold Dat.leavesExact; rw [liveAt0_1 t],
    after0_0, after0_1]
  have hN : t.val < 16 := lt_of_lt_of_eq t.isLt (show cfg0.N = 16 from N_0)
  by_cases h0 : t.val % 16 = 0
  · have h1 : ¬1 ≤ t.val := by omega
    rw [outsAt0_A m c t h0 (fun h => h1 ((hcond0_1 t).mp h))]
    simp only [before0_1_A m c t h0]
    unfold out0_A_1
    iintro ⟨HΦ, Ho, ⟨%d0, H0⟩, ⟨%d1, H1⟩⟩
    iapply ((kernelRun0_A c (grid0.coords t) _ _ _ _ ((hcond0_0 t).mpr h0) (fun h => h1 ((hcond0_1 t).mp h)) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · have h1 : 1 ≤ t.val := by omega
    rw [outsAt0_B m c t h1 (fun h => h0 ((hcond0_0 t).mp h))]
    simp only [before0_1_B m c t h1]
    unfold out0_B_1
    iintro ⟨HΦ, Ho, ⟨%d0, H0⟩, ⟨%d1, H1⟩⟩
    iapply ((kernelRun0_B c (grid0.coords t) _ _ _ _ (fun h => h0 ((hcond0_0 t).mp h)) ((hcond0_1 t).mpr h1) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and the final state has every array of the pipeline
    at what the library computes from the proof data, and every other unscoped buffer as the host lines after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Acc

end
-- ==== Proof.AccV1.lean ====
/-
  What each control case leaves in the one-element output block, as a value.

  Case A's one store covers the block with the block's partial sum; case B's one store covers it with what
  the block held plus the partial sum.  Both facts hold at any float instance.
-/
import proofs.«114172_g47107201302668_feedfinal_429_31_alg».proof.Proof.AccFrame
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz3 : (![0, 0, 0] : Fin 3 → Nat) = fun _ => 0 := funext fun a => by fin_cases a <;> rfl

/-- The block's partial sum, as the store's payload names it. -/
abbrev partial0 (c : Dev nD) (i : grid0.Coords) (arg1 : Memref sig .tc .vmem S8x512x512 .f32) (harg1 : arg1.IsWhole)
    (arg2 : Memref sig .tc .vmem S1x1x1 .f32) (harg2 : arg2.IsWhole) (x0 : Vec F S8x512x512 .f32) : FVec F S1x1x1 .f32 :=
  k0_pay3 (st_k0_t1 Variants.none c none i arg1 harg1 arg2 harg2 (harg1.unread x0) k0_pay1
    (Scf.trips (0#32) (Scalar.addi 0#32 4#32) 1#32))

/-- Case A leaves the block's partial sum. -/
theorem out_A (c : Dev nD) (i : grid0.Coords) (arg1 : Memref sig .tc .vmem S8x512x512 .f32) (harg1 : arg1.IsWhole)
    (arg2 : Memref sig .tc .vmem S1x1x1 .f32) (harg2 : arg2.IsWhole) (hc0 : cond0_0 i) (hc1 : ¬cond0_1 i)
    (x0 : Vec F S8x512x512 .f32) :
    out0_A_1 c i arg1 harg1 arg2 harg2 hc0 hc1 x0 = partial0 c i arg1 harg1 arg2 harg2 x0 := by
  unfold out0_A_1
  rw [View.read_writes_eq_canon _ _ _ (cover0_A_1 c i arg1 harg1 arg2 harg2 hc0 hc1 x0)]
  unfold kernelRun0_A
  dsimp only
  rw [View.canon_unit_zero (S := S1x1x1) hz3]

/-- Case B leaves what the block held plus the block's partial sum. -/
theorem out_B (c : Dev nD) (i : grid0.Coords) (arg1 : Memref sig .tc .vmem S8x512x512 .f32) (harg1 : arg1.IsWhole)
    (arg2 : Memref sig .tc .vmem S1x1x1 .f32) (harg2 : arg2.IsWhole) (hc0 : ¬cond0_0 i) (hc1 : cond0_1 i)
    (x0 : Vec F S8x512x512 .f32) (xo1 : Vec F S1x1x1 .f32) :
    out0_B_1 c i arg1 harg1 arg2 harg2 hc0 hc1 x0 xo1 = addf xo1 (partial0 c i arg1 harg1 arg2 harg2 x0) := by
  unfold out0_B_1
  rw [View.read_writes_eq_canon _ _ _ (cover0_B_1 c i arg1 harg1 arg2 harg2 hc0 hc1 x0 xo1)]
  unfold kernelRun0_B
  dsimp only
  rw [View.canon_unit_zero (S := S1x1x1) hz3]
  unfold k0_pay4
  simp only [View.readAt_eq_ld, harg2.read_unread, View.ld_unit_zero (S := S1x1x1) hz3, shapeCast_self]

end Cert.KernelIdeal.Acc

end
-- ==== Proof.AccV2.lean ====
/-
  The image block a grid point streams, read at an index.

  The region's input array is the launched argument reshaped from [16, 8, 512, 512] to [128, 512, 512]
  (row-major, so image 8 t + k of the second is image (t, k) of the first), and the block at point t is the
  eight images 8 t .. 8 t + 7 of it.  Hence element (k, a, b) of the block at point t is element (t, k, a, b)
  of the argument.  This holds at any float instance.
-/
import proofs.«114172_g47107201302668_feedfinal_429_31_alg».proof.Proof.AccFrame
import Idealize.ShloMosaic.Lib.Pipeline.Value
import Idealize.ShloMosaic.Lib.ValueIdx

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Idealize.ShloMosaic.ValueIdx
variable {F : FTy → Type} [FloatOps F]
variable (m : (ℓ : Loc nD τ sig) → Buf (Elt F) ℓ)

/-- The region finds its input array at the launched argument, reshaped. -/
theorem V_main_v0 (c : Dev nD) :
    (V m c main_v0 : S128x512x512.Idx → F .f32)
      = shapeCast S128x512x512 (m ((c.tc : Thread nD τ).loc main_arg0)) shapeCasts_S16x8x512x512_S128x512x512 := by
  show StableHlo.after hostOps0 (fun b => m (c, b)) (Proc.devRef .tc main_v0) = _
  after_results
  rfl

/-- The input window's block index at point t is (t, 0, 0). -/
theorem index0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Element (k, a, b) of the block at point t is element (t, k, a, b) of the argument: both sit at row-major
    position ((8 t + k) 512 + a) 512 + b. -/
theorem iblk_apply (c : Dev nD) (t : Fin cfg0.N) (s : Fin 16) (hs : s.val = t.val) (img : Fin 8) (a b : Fin 512) :
    iblk m c 0 t (ix3 img a b) = m ((c.tc : Thread nD τ).loc main_arg0) (ix4 s img a b) := by
  unfold iblk
  rw [View.read_apply]
  show V m c main_v0 (((cfg0.win 0).blk t).view.emb (ix3 img a b)) = _
  rw [V_main_v0]
  refine shapeCast_apply _ _ _ _ ?_
  have e4 : (S16x8x512x512.rowMajor (ix4 s img a b)).val = ((s.val * 8 + img.val) * 512 + a.val) * 512 + b.val :=
    Shape.rowMajor_val_four _
  have e3 : (S128x512x512.rowMajor (((cfg0.win 0).blk t).view.emb (ix3 img a b))).val
      = ((win0_0.index t 0 * 8 + 1 * img.val) * 512 + (win0_0.index t 1 * 512 + 1 * a.val)) * 512 + (win0_0.index t 2 * 512 + 1 * b.val) :=
    Shape.rowMajor_val_three _
  refine e4.trans (Eq.trans ?_ e3.symm)
  rw [(index0_0 t).1, (index0_0 t).2.1, (index0_0 t).2.2, hs]
  omega

end Cert.KernelIdeal.Acc

end
-- ==== Proof.LibOpening2x2.lean ====
/-
  The 2x2 grey opening of a 512x512 image with edge replication, in two arrangements, and the lattice
  identity that joins them.

  Window form: the erosion at (i, j) is the minimum of the image over rows {i-1, i} and columns {j-1, j}
  (an index below 0 replicated as 0); the opening at (i, j) is the maximum of the erosion over rows {i, i+1}
  and columns {j, j+1} (an index above 511 replicated as 511).

  Factored form: with `rowMin i j = min (x i j) (x (i-1) j)`, the lane-dilated erosion is
  `g i j = min (rowMin i j) (max (rowMin i (j-1)) (rowMin i (j+1)))`, where at the last column the right
  neighbour is taken one step BACK (column 510), and the opening is `max (g i j) (g (i+1) j)`.

  In a linear order, `max (min a b) (min b c) = min b (max a c)`; that distributive law, at the two edge
  columns by absorption, makes the two arrangements equal at every pixel, for every image with entries in any
  linear order (no finiteness is used).  The squared-difference losses over the extended reals are then equal
  term by term.
-/
import Idealize.ShloMosaic.PureOps.Ideal
import Idealize.ShloMosaic.Lib.ValueIdx

namespace Opening2x2

/-- One step back, replicated at the edge. -/
def pre (i : Fin 512) : Fin 512 := ⟨i.val - 1, by omega⟩
/-- One step forward, replicated at the edge. -/
def suc (i : Fin 512) : Fin 512 := ⟨min (i.val + 1) 511, by omega⟩
/-- The factored form's right neighbour: one step forward, and at the last column one step back. -/
def sucK (j : Fin 512) : Fin 512 := ⟨if j.val = 511 then 510 else j.val + 1, by split <;> omega⟩

@[simp] theorem pre_val (i : Fin 512) : (pre i).val = i.val - 1 := rfl
@[simp] theorem suc_val (i : Fin 512) : (suc i).val = min (i.val + 1) 511 := rfl
@[simp] theorem sucK_val (j : Fin 512) : (sucK j).val = if j.val = 511 then 510 else j.val + 1 := rfl

section Lattice
variable {α : Type*} [LinearOrder α]

/-- The distributive law that folds the lane stage. -/
theorem max_min_min (a b c : α) : max (min a b) (min b c) = min b (max a c) := by
  rcases le_total a b with hab | hab <;> rcases le_total b c with hbc | hbc
  · rw [min_eq_left hab, min_eq_left hbc, max_eq_right hab, max_eq_right (hab.trans hbc), min_eq_left hbc]
  · rw [min_eq_left hab, min_eq_right hbc, min_eq_right (max_le hab hbc)]
  · rw [min_eq_right hab, min_eq_left hbc, max_self, min_eq_left (le_max_of_le_left hab)]
  · rw [min_eq_right hab, min_eq_right hbc, max_eq_left hbc, max_eq_left (hbc.trans hab), min_eq_left hab]

/-- The row-direction minimum. -/
def rowMin (x : Fin 512 → Fin 512 → α) (i j : Fin 512) : α := min (x i j) (x (pre i) j)
/-- The lane-dilated erosion, factored. -/
def gK (x : Fin 512 → Fin 512 → α) (i j : Fin 512) : α :=
  min (rowMin x i j) (max (rowMin x i (pre j)) (rowMin x i (sucK j)))
/-- The opening, factored. -/
def openK (x : Fin 512 → Fin 512 → α) (i j : Fin 512) : α := max (gK x i j) (gK x (suc i) j)

/-- The erosion as a 2x2 window minimum. -/
def eroR (x : Fin 512 → Fin 512 → α) (i j : Fin 512) : α :=
  min (min (x (pre i) (pre j)) (x (pre i) j)) (min (x i (pre j)) (x i j))
/-- The opening as a 2x2 window maximum of the erosion. -/
def openR (x : Fin 512 → Fin 512 → α) (i j : Fin 512) : α :=
  max (max (eroR x i j) (eroR x i (suc j))) (max (eroR x (suc i) j) (eroR x (suc i) (suc j)))

/-- The window erosion is the minimum of two row minima. -/
theorem eroR_eq (x : Fin 512 → Fin 512 → α) (i j : Fin 512) : eroR x i j = min (rowMin x i (pre j)) (rowMin x i j) := by
  unfold eroR rowMin
  ac_rfl

/-- The lane-dilated erosion is the maximum of the erosion at a column and at the next. -/
theorem gK_eq (x : Fin 512 → Fin 512 → α) (i j : Fin 512) : gK x i j = max (eroR x i j) (eroR x i (suc j)) := by
  rw [eroR_eq, eroR_eq]
  unfold gK
  by_cases hj : j.val = 511
  · have h1 : suc j = j := Fin.ext (by simp [hj])
    have h2 : sucK j = pre j := Fin.ext (by simp [hj])
    rw [h1, h2, max_self, max_self, min_comm]
  · have h1 : pre (suc j) = j := Fin.ext (by have := j.isLt; simp; omega)
    have h2 : sucK j = suc j := Fin.ext (by have := j.isLt; simp [hj]; omega)
    rw [h1, h2, max_min_min]

/-- The two arrangements of the opening agree at every pixel. -/
theorem openK_eq_openR (x : Fin 512 → Fin 512 → α) (i j : Fin 512) : openK x i j = openR x i j := by
  unfold openK openR
  rw [gK_eq, gK_eq]

end Lattice

/-- The sum over the image of the squared difference between the image and its opening, factored form. -/
noncomputable def lossK (x : Fin 512 → Fin 512 → EReal) : EReal :=
  ∑ i : Fin 512, ∑ j : Fin 512, (x i j - openK x i j) * (x i j - openK x i j)
/-- The same, window form. -/
noncomputable def lossR (x : Fin 512 → Fin 512 → EReal) : EReal :=
  ∑ i : Fin 512, ∑ j : Fin 512, (x i j - openR x i j) * (x i j - openR x i j)

theorem lossK_eq_lossR (x : Fin 512 → Fin 512 → EReal) : lossK x = lossR x := by
  unfold lossK lossR
  simp only [openK_eq_openR]

/-! ## The mean loss of a batch of 16 x 8 images -/

open Idealize.ShloMosaic

/-- A scalar array holding `s` divided by the literal 33554432.0 (= 16 * 8 * 512 * 512), the division the
    host's own. -/
noncomputable def meanOf (s : EReal) : FVec Ideal (⟨0, ![]⟩ : Shape) .f32 :=
  Host.divf (F := Ideal) (fun _ => s) (constant (F := Ideal) (⟨0, ![]⟩ : Shape) .f32 0x4C000000#32)

/-- Image `(b, ch)` of a [16, 8, 512, 512] array. -/
def image (x : FVec Ideal (⟨4, ![16, 8, 512, 512]⟩ : Shape) .f32) (b : Fin 16) (ch : Fin 8) : Fin 512 → Fin 512 → EReal :=
  fun i j => x (ValueIdx.ix4 b ch i j)

/-- The mean over the batch of a per-image loss. -/
noncomputable def result (loss : (Fin 512 → Fin 512 → EReal) → EReal) (x : FVec Ideal (⟨4, ![16, 8, 512, 512]⟩ : Shape) .f32) :
    FVec Ideal (⟨0, ![]⟩ : Shape) .f32 :=
  meanOf (∑ b : Fin 16, ∑ ch : Fin 8, loss (image x b ch))

/-- The factored and the window arrangement give the same mean loss. -/
theorem result_lossK_eq_lossR (x : FVec Ideal (⟨4, ![16, 8, 512, 512]⟩ : Shape) .f32) : result lossK x = result lossR x := by
  unfold result
  simp only [lossK_eq_lossR]

end Opening2x2
-- ==== Proof.AccV3.lean ====
/-
  The running sum in the output block, point by point, at the exact (extended-real) instance.

  After point n the block holds the sum over the image blocks 0 .. n of the block's loss (the sum over its
  eight images of the per-image loss): case A starts the sum at point 0 and case B adds block n's loss to
  what point n - 1 left.  After the last point it is the sum over all 16 x 8 images.
-/
import proofs.«114172_g47107201302668_feedfinal_429_31_alg».proof.Proof.AccV1
import proofs.«114172_g47107201302668_feedfinal_429_31_alg».proof.Proof.AccV2
import proofs.«114172_g47107201302668_feedfinal_429_31_alg».proof.Proof.LibOpening2x2

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Idealize.ShloMosaic.ValueIdx
open scoped BigOperators

/-- The loss of image block s of a [16, 8, 512, 512] array (zero past the last block). -/
def blockLoss (X : FVec Ideal S16x8x512x512 .f32) (s : ℕ) : EReal :=
  if h : s < 16 then ∑ img : Fin 8, Opening2x2.lossK (Opening2x2.image X ⟨s, h⟩ img) else 0

/-- The statement that a block's partial sum, as the store's payload names it, is the sum over the block's
    eight images of the per-image loss (proved where the body's loop is read; taken here as a hypothesis so
    that the bookkeeping over grid points does not depend on how it is proved). -/
def BlockTotal : Prop :=
  ∀ (c : Dev nD) (i : grid0.Coords) (arg1 : Memref sig .tc .vmem S8x512x512 .f32) (harg1 : arg1.IsWhole)
    (arg2 : Memref sig .tc .vmem S1x1x1 .f32) (harg2 : arg2.IsWhole) (x0 : Vec Ideal S8x512x512 .f32),
    partial0 (F := Ideal) c i arg1 harg1 arg2 harg2 x0
      = fun _ => ∑ img : Fin 8, Opening2x2.lossK (fun a b => x0 (ix3 img a b))

variable (hbt : BlockTotal)
include hbt

/-- A block that reads image block s of X has partial sum the loss of that image block. -/
theorem partial_eq (c : Dev nD) (i : grid0.Coords) (arg1 : Memref sig .tc .vmem S8x512x512 .f32) (harg1 : arg1.IsWhole)
    (arg2 : Memref sig .tc .vmem S1x1x1 .f32) (harg2 : arg2.IsWhole) (x0 : Vec Ideal S8x512x512 .f32)
    (X : FVec Ideal S16x8x512x512 .f32) (s : Fin 16)
    (hx : ∀ (img : Fin 8) (a b : Fin 512), x0 (ix3 img a b) = X (ix4 s img a b)) :
    partial0 (F := Ideal) c i arg1 harg1 arg2 harg2 x0 = fun _ => blockLoss X s.val := by
  refine (hbt c i arg1 harg1 arg2 harg2 x0).trans ?_
  funext _
  unfold blockLoss
  rw [dif_pos s.isLt]
  refine Finset.sum_congr rfl fun img _ => congrArg Opening2x2.lossK ?_
  funext a b
  exact hx img a b

/-- Case A starts the running sum. -/
theorem step_A (c : Dev nD) (i : grid0.Coords) (arg1 : Memref sig .tc .vmem S8x512x512 .f32) (harg1 : arg1.IsWhole)
    (arg2 : Memref sig .tc .vmem S1x1x1 .f32) (harg2 : arg2.IsWhole) (hc0 : cond0_0 i) (hc1 : ¬cond0_1 i)
    (x0 : Vec Ideal S8x512x512 .f32) (X : FVec Ideal S16x8x512x512 .f32) (s : Fin 16)
    (hx : ∀ (img : Fin 8) (a b : Fin 512), x0 (ix3 img a b) = X (ix4 s img a b)) :
    out0_A_1 (F := Ideal) c i arg1 harg1 arg2 harg2 hc0 hc1 x0 = fun _ => blockLoss X s.val :=
  (out_A c i arg1 harg1 arg2 harg2 hc0 hc1 x0).trans (partial_eq hbt c i arg1 harg1 arg2 harg2 x0 X s hx)

/-- Case B adds the block's loss to the running sum. -/
theorem step_B (c : Dev nD) (i : grid0.Coords) (arg1 : Memref sig .tc .vmem S8x512x512 .f32) (harg1 : arg1.IsWhole)
    (arg2 : Memref sig .tc .vmem S1x1x1 .f32) (harg2 : arg2.IsWhole) (hc0 : ¬cond0_0 i) (hc1 : cond0_1 i)
    (x0 : Vec Ideal S8x512x512 .f32) (xo1 : Vec Ideal S1x1x1 .f32) (X : FVec Ideal S16x8x512x512 .f32) (s : Fin 16)
    (hx : ∀ (img : Fin 8) (a b : Fin 512), x0 (ix3 img a b) = X (ix4 s img a b))
    (S : EReal) (hxo : xo1 = fun _ => S) :
    out0_B_1 (F := Ideal) c i arg1 harg1 arg2 harg2 hc0 hc1 x0 xo1 = fun _ => S + blockLoss X s.val := by
  refine (out_B c i arg1 harg1 arg2 harg2 hc0 hc1 x0 xo1).trans ?_
  rw [partial_eq hbt c i arg1 harg1 arg2 harg2 x0 X s hx, hxo]
  rfl

variable (m : (ℓ : Loc nD τ sig) → Buf (Elt Ideal) ℓ)

/-- After point n the output block holds the sum of the losses of image blocks 0 .. n. -/
theorem outsAt_eq (c : Dev nD) : ∀ (n : ℕ) (h : n < cfg0.N),
    outsAt0 (F := Ideal) m c n h
      = fun _ => ∑ s ∈ Finset.range (n + 1), blockLoss (m ((c.tc : Thread nD τ).loc main_arg0)) s
  | 0, h => by
    have hN : (0 : ℕ) < 16 := by decide
    refine (step_A hbt c (grid0.coords ⟨0, h⟩) (ms0_0 ⟨0, h⟩) (hs0_0 ⟨0, h⟩) (ms0_1 ⟨0, h⟩) (hs0_1 ⟨0, h⟩)
      ((hcond0_0 ⟨0, h⟩).mpr (Nat.zero_mod _)) (not_cond0_1_zero h) (iblk m c 0 ⟨0, h⟩)
      (m ((c.tc : Thread nD τ).loc main_arg0)) ⟨0, hN⟩ (fun img a b => iblk_apply m c ⟨0, h⟩ ⟨0, hN⟩ rfl img a b)).trans ?_
    funext _
    rw [Finset.sum_range_one]
  | n + 1, h => by
    have hN : n + 1 < 16 := lt_of_lt_of_eq h (show cfg0.N = 16 from N_0)
    refine (step_B hbt c (grid0.coords ⟨n + 1, h⟩) (ms0_0 ⟨n + 1, h⟩) (hs0_0 ⟨n + 1, h⟩) (ms0_1 ⟨n + 1, h⟩) (hs0_1 ⟨n + 1, h⟩)
      (not_cond0_0_succ n h) ((hcond0_1 ⟨n + 1, h⟩).mpr (Nat.succ_le_succ (Nat.zero_le n))) (iblk m c 0 ⟨n + 1, h⟩)
      (outsAt0 m c n (Nat.lt_of_succ_lt h))
      (m ((c.tc : Thread nD τ).loc main_arg0)) ⟨n + 1, hN⟩ (fun img a b => iblk_apply m c ⟨n + 1, h⟩ ⟨n + 1, hN⟩ rfl img a b)
      _ (outsAt_eq c n (Nat.lt_of_succ_lt h))).trans ?_
    funext _
    rw [Finset.sum_range_succ _ (n + 1)]

omit hbt in
/-- The sum of the 16 block losses is the sum over all images. -/
theorem total_eq (X : FVec Ideal S16x8x512x512 .f32) :
    ∑ s ∈ Finset.range 16, blockLoss X s = ∑ b : Fin 16, ∑ ch : Fin 8, Opening2x2.lossK (Opening2x2.image X b ch) := by
  rw [← Fin.sum_univ_eq_sum_range (fun s => blockLoss X s) 16]
  refine Finset.sum_congr rfl fun b _ => ?_
  unfold blockLoss
  rw [dif_pos b.isLt]

end Cert.KernelIdeal.Acc

end
-- ==== Proof.AccV4.lean ====
/-
  The output array after the run, at the exact instance.

  The one-element output block is written back to its array after the last grid point only, and the block is
  the whole array; so the array ends holding what the block held after point 15: the sum of the 16 block
  losses.
-/
import proofs.«114172_g47107201302668_feedfinal_429_31_alg».proof.Proof.AccV3

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Idealize.ShloMosaic.ValueIdx
open scoped BigOperators

variable (hbt : BlockTotal)
variable (m : (ℓ : Loc nD τ sig) → Buf (Elt Ideal) ℓ)

/-- What the output array ends holding: at its one index, the sum of the 16 block losses. -/
abbrev resultArr (c : Dev nD) : Buf (Elt Ideal) ((c : Thread nD τ).loc main_v1) :=
  fun _ => (∑ s ∈ Finset.range 16, blockLoss (m ((c.tc : Thread nD τ).loc main_arg0)) s : EReal)

include hbt in
/-- The one write-back, after point 15, writes the running sum; block (0, 0, 0) of the [1, 1, 1] array read
    through zero offsets is the array. -/
theorem flushed_eq (c : Dev nD) (t : Fin cfg0.N) (hf : (cfg0.win 1).flush t = true) :
    (dats m 0 c).flushed 1 t = ((cfg0.win 1).blk t).view.read (Elt Ideal) (resultArr m c) := by
  have hN : cfg0.N = 16 := N_0
  have h15 : t.val = 15 := by have := (flush0_1 t).mp hf; have := t.isLt; omega
  obtain rfl : t = t0_15 := Fin.ext h15
  show (cfg0.win 1).cut (grid0.coords t0_15) ((dats m 0 c).after 1 t0_15) = _
  rw [after0_1, outsAt_eq hbt]
  have hz' : (fun a => win0_1.index t0_15 a * main_v1.ty.shape.size a) = fun _ => 0 := funext fun a => by fin_cases a <;> decide
  exact (Memref.read_access_unit_zero (Elt Ideal) main_v1 hz' (fun a => by rw [congrFun hz' a]; simp) (resultArr m c)).symm

include hbt in
/-- So the output array ends holding the sum of the 16 block losses. -/
theorem final_o (c : Dev nD) : (dats m 0 c).arrAt 1 cfg0.N = resultArr m c :=
  (dats m 0 c).arrAt_eq_of_cover 1 (resultArr m c) (flushed_eq hbt m c) fun i =>
    ⟨t0_15, (flush0_1 t0_15).mpr rfl, by
      show i ∈ ((View.whole main_v1).slice (win0_1.rect t0_15)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega
      | ⟨2, _⟩ => show win0_1.index t0_15 2 * win0_1.size 2 ≤ (i 2 : Nat) ∧ (i 2 : Nat) < win0_1.index t0_15 2 * win0_1.size 2 + win0_1.xsize (grid0.coords t0_15) 2
                  rw [show win0_1.index t0_15 2 * win0_1.size 2 = 0 from by decide +kernel, show win0_1.xsize (grid0.coords t0_15) 2 = 1 from by decide +kernel]; omega⟩

end Cert.KernelIdeal.Acc

end
-- ==== Proof.AccV5.lean ====
/-
  The host operations after the region, and the run of the whole program, at the exact instance.

  After the region the host sums the one-element output array from the literal zero, which is that element,
  and divides by the literal 33554432.0.  With the array at the sum of the 16 block losses, the result is the
  mean loss over the 16 x 8 images, and the argument array is left as launched.
-/
import proofs.«114172_g47107201302668_feedfinal_429_31_alg».proof.Proof.AccV4
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.Sem
open Idealize.ShloMosaic.Pipeline (Dat)

open Idealize.ShloMosaic.ValueIdx
open scoped BigOperators

variable (hbt : BlockTotal)
variable (m : (ℓ : Loc nD τ sig) → Buf (Elt Ideal) ℓ) (ρ : Dev nD → PrngReg)

/-- The host tail on an output array that holds S at its one index: the sum from zero of a one-element array
    is its element, and the quotient by the literal is the host's own. -/
theorem tail_of (c : Dev nD) (S : EReal) (hfin : (dats m 0 c).arrAt 1 cfg0.N = fun _ => S) :
    Pipeline.afterTail₀ cfgs (dats m) 0 (V0 m) [hostOps1] c main_v3 = Opening2x2.meanOf S := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1)
      = fun _ => S :=
    (Pipeline.withArrays_arr spec0 launch0.win.arr_inj c _ _ 1).trans hfin
  rw [e]
  unfold Opening2x2.meanOf
  refine congrArg (fun z => Host.divf (F := Ideal) z (constant (F := Ideal) S_ .f32 0x4C000000#32)) ?_
  funext j
  show Ideal.hostReduceAdd reducesTo_S1x1x1_S_d0_1_2 (fun _ => S) (Ideal.ofBits .f32 0x00000000#32) j = S
  rw [Ideal.hostReduceAdd_total _ (fun b => b.elim0), Ideal.ofBits_zero_f32, zero_add, Finset.sum_const, Finset.card_univ,
    Shape.card_idx]
  exact one_nsmul S

include hbt in
/-- The result buffer after the host tail: the mean loss of the launched argument. -/
theorem tail_eq (c : Dev nD) :
    Pipeline.afterTail₀ cfgs (dats m) 0 (V0 m) [hostOps1] c main_v3
      = Opening2x2.result Opening2x2.lossK (m ((c.tc : Thread nD τ).loc main_arg0)) := by
  refine (tail_of m c (∑ s ∈ Finset.range 16, blockLoss (m ((c.tc : Thread nD τ).loc main_arg0)) s) (final_o hbt m c)).trans ?_
  unfold Opening2x2.result
  exact congrArg Opening2x2.meanOf (total_eq (m ((c.tc : Thread nD τ).loc main_arg0)))

include hbt in
/-- The run of the whole program: the result buffer ends at the mean loss of the launched argument, and the
    argument array as launched. -/
theorem value_run_of :
    θ_run (defs (F := Ideal)) (onTc (τ := τ) (main (F := Ideal))) ⟨m, fun _ => 0, ρ⟩
      (fun r => ∀ c : Dev nD,
        r.2.mem ((c.tc : Thread nD τ).loc main_v3)
            = Opening2x2.result Opening2x2.lossK (m ((c.tc : Thread nD τ).loc main_arg0))
        ∧ r.2.mem ((c.tc : Thread nD τ).loc main_arg0) = m ((c.tc : Thread nD τ).loc main_arg0)) :=
  (θ_run defs _ _).mono (fun r h c =>
    ⟨((h c).2 main_v3 (Pipeline.mem_restRefs_of main_v3 (by decide) (by decide))).trans (tail_eq hbt m c),
     ((h c).2 main_arg0 (Pipeline.mem_restRefs_of main_arg0 (by decide) (by decide))).trans (W_main_arg0 m (dats m) c)⟩)
    (run_main (F := Ideal) m ρ)

end Cert.KernelIdeal.Acc

end
-- ==== Proof.TripMirror.lean ====
/-
  One trip of the body's loop, written as kernel.py writes it.

  A trip handles two images `a` and `b` of the block.  Each image is cut into 32 strips of 16 rows.  For a strip
  `xs` with the strip one row higher `xu` (at the top strip: `xs` shifted down one row with its first row
  repeated), the lane-dilated erosion is `laneStage (min xs xu)`; the opened strip is the maximum of that and of
  itself shifted up one row (the row below the strip supplied by the next strip's first row, at the bottom strip by
  its own last row); the squared difference with the input strip is folded, eight rows at a time, into the 8x512
  accumulator.  Strip `s` of an image is finished when strip `s + 1` has been eroded, so the accumulator
  receives, in order, strips 0..30 of `a` and `b` alternately and then the two bottom strips.
  The run of the printed loop body computes exactly this term (`tripR_eq`), by definitional unfolding.
  Everything here is generic in the float instance.
-/
import proofs.«114172_g47107201302668_feedfinal_429_31_alg».proof.Proof.Gen.KernelIdeal.Loops

set_option maxRecDepth 65536

noncomputable section

namespace Cert.KernelIdeal.Acc

open Cert.KernelIdeal Cert.KernelIdeal.Gen
open Idealize.ShloMosaic Idealize.ShloMosaic.TcCoe
open Idealize.SL Idealize.SL.Sem

variable {F : FTy → Type} [FloatOps F]

/-! ## The pure stages -/

/-- The lane stage: `min r (max (r shifted right, first column repeated) (r shifted left, last column taken
    from column 510))`. -/
def laneStage (r : FVec F S16x512 .f32) : FVec F S16x512 .f32 :=
  minimumf r (maximumf
    (concatenate S16x512 1 [⟨S16x1, extractStridedSlice S16x1 ![0, 0] r slices_S16x512_o0_0_S16x1⟩, ⟨S16x511, extractStridedSlice S16x511 ![0, 0] r slices_S16x512_o0_0_S16x511⟩] concatenates_S16x1_S16x511_S16x512_d1)
    (concatenate S16x512 1 [⟨S16x511, extractStridedSlice S16x511 ![0, 1] r slices_S16x512_o0_1_S16x511⟩, ⟨S16x1, extractStridedSlice S16x1 ![0, 510] r slices_S16x512_o0_510_S16x1⟩] concatenates_S16x511_S16x1_S16x512_d1))

/-- The top strip's erosion: the strip one row higher is the strip shifted down with its first row repeated. -/
def gTop (xs : FVec F S16x512 .f32) : FVec F S16x512 .f32 :=
  laneStage (minimumf xs
    (concatenate S16x512 0 [⟨S1x512, extractStridedSlice S1x512 ![0, 0] xs slices_S16x512_o0_0_S1x512⟩, ⟨S15x512, extractStridedSlice S15x512 ![0, 0] xs slices_S16x512_o0_0_S15x512⟩] concatenates_S1x512_S15x512_S16x512_d0))

/-- A lower strip's erosion. -/
def gMid (xs xu : FVec F S16x512 .f32) : FVec F S16x512 .f32 := laneStage (minimumf xs xu)

/-- The squared difference between a strip `x` and its opening: `g` against `g` shifted up one row, the row
    below supplied as `grow`. -/
def sqErr (g : FVec F S16x512 .f32) (grow : FVec F S1x512 .f32) (x : FVec F S16x512 .f32) : FVec F S16x512 .f32 :=
  mulf
    (subf x (maximumf g (concatenate S16x512 0 [⟨S15x512, extractStridedSlice S15x512 ![1, 0] g slices_S16x512_o1_0_S15x512⟩, ⟨S1x512, grow⟩] concatenates_S15x512_S1x512_S16x512_d0)))
    (subf x (maximumf g (concatenate S16x512 0 [⟨S15x512, extractStridedSlice S15x512 ![1, 0] g slices_S16x512_o1_0_S15x512⟩, ⟨S1x512, grow⟩] concatenates_S15x512_S1x512_S16x512_d0)))

/-- Fold a 16x512 strip into the 8x512 accumulator, eight rows at a time. -/
def foldIn (acc : FVec F S8x512 .f32) (d : FVec F S16x512 .f32) : FVec F S8x512 .f32 :=
  addf (addf acc (extractStridedSlice S8x512 ![0, 0] d slices_S16x512_o0_0_S8x512)) (extractStridedSlice S8x512 ![8, 0] d slices_S16x512_o8_0_S8x512)

def row0 (g : FVec F S16x512 .f32) : FVec F S1x512 .f32 := extractStridedSlice S1x512 ![0, 0] g slices_S16x512_o0_0_S1x512
def row15 (g : FVec F S16x512 .f32) : FVec F S1x512 .f32 := extractStridedSlice S1x512 ![15, 0] g slices_S16x512_o15_0_S1x512

/-! ## Strips of an image of the block -/

theorem inb3 (a R : Nat) (ha : a + 1 ≤ 8) (hR : R + 16 ≤ 512) :
    ∀ d : Fin 3, (![a, R, 0] : Fin 3 → Nat) d + S1x16x512.size d ≤ S8x512x512.size d
  | ⟨0, _⟩ => ha
  | ⟨1, _⟩ => hR
  | ⟨2, _⟩ => Nat.le_refl 512

/-- Sixteen rows of image `a` of the block from row `R` on, as a 16x512 array. -/
def strip (arg1 : Memref sig .tc .vmem S8x512x512 .f32) (X : BufTy.Contents (Elt F) arg1.view.ty)
    (a R : Nat) (ha : a + 1 ≤ 8) (hR : R + 16 ≤ 512) : FVec F S16x512 .f32 :=
  shapeCast S16x512 (View.readAt (Elt F) arg1.view (Rect.unit (s := S8x512x512) ![a, R, 0] S1x16x512.size (inb3 a R ha hR)).toLoadRect X) shapeCasts_S1x16x512_S16x512

variable (arg1 : Memref sig .tc .vmem S8x512x512 .f32) (X : BufTy.Contents (Elt F) arg1.view.ty)

/-- Strip `s` of image `a`. -/
def xsOf (a : Nat) (ha : a + 1 ≤ 8) (s : Nat) (hs : s ≤ 31) : FVec F S16x512 .f32 :=
  strip arg1 X a (16 * s) ha (by omega)
/-- Strip `s ≥ 1` of image `a`, one row higher. -/
def xuOf (a : Nat) (ha : a + 1 ≤ 8) (s : Nat) (hs : s ≤ 31) (h1 : 1 ≤ s) : FVec F S16x512 .f32 :=
  strip arg1 X a (16 * s - 1) ha (by omega)

/-- The lane-dilated erosion of strip `s` of image `a`. -/
def gOf (a : Nat) (ha : a + 1 ≤ 8) : (s : Nat) → s ≤ 31 → FVec F S16x512 .f32
  | 0, _ => gTop (xsOf arg1 X a ha 0 (by omega))
  | s + 1, hs => gMid (xsOf arg1 X a ha (s + 1) hs) (xuOf arg1 X a ha (s + 1) hs (by omega))

/-- Strip `s ≤ 30` of image `a` folded in, once strip `s + 1` is eroded. -/
def stepMid (a : Nat) (ha : a + 1 ≤ 8) (s : Nat) (hs : s + 1 ≤ 31) (acc : FVec F S8x512 .f32) : FVec F S8x512 .f32 :=
  foldIn acc (sqErr (gOf arg1 X a ha s (by omega)) (row0 (gOf arg1 X a ha (s + 1) hs)) (xsOf arg1 X a ha s (by omega)))

/-- The bottom strip of image `a` folded in: the row below it is its own last row. -/
def stepLast (a : Nat) (ha : a + 1 ≤ 8) (acc : FVec F S8x512 .f32) : FVec F S8x512 .f32 :=
  foldIn acc (sqErr (gOf arg1 X a ha 31 (Nat.le_refl 31)) (row15 (gOf arg1 X a ha 31 (Nat.le_refl 31))) (xsOf arg1 X a ha 31 (Nat.le_refl 31)))

/-- Strips `0 .. s - 1` of the two images folded in, alternately. -/
def accUpTo (a : Nat) (ha : a + 1 ≤ 8) (b : Nat) (hb : b + 1 ≤ 8) : (s : Nat) → s ≤ 31 → FVec F S8x512 .f32 → FVec F S8x512 .f32
  | 0, _, acc => acc
  | s + 1, hs, acc => stepMid arg1 X b hb s hs (stepMid arg1 X a ha s hs (accUpTo a ha b hb s (by omega) acc))

/-- One trip: all 32 strips of the two images folded in. -/
def tripM (a : Nat) (ha : a + 1 ≤ 8) (b : Nat) (hb : b + 1 ≤ 8) (acc : FVec F S8x512 .f32) : FVec F S8x512 .f32 :=
  stepLast arg1 X b hb (stepLast arg1 X a ha (accUpTo arg1 X a ha b hb 31 (Nat.le_refl 31) acc))

/-! ## The trip's two images, as the body computes their positions -/

/-- The first image of trip `k`: `2 k`, as a 32-bit product cast to an index. -/
def imgA (k : Fin k0_t1_loop.trips) : Nat := (Scalar.indexCast (Scalar.muli 2#32 (Scf.iv 0#32 1#32 k))).toNat
/-- The second: `2 k + 1`. -/
def imgB (k : Fin k0_t1_loop.trips) : Nat := (Scalar.indexCast (Scalar.addi (Scalar.muli 2#32 (Scf.iv 0#32 1#32 k)) 1#32)).toNat

theorem imgA_inb (k : Fin k0_t1_loop.trips) : imgA k + 1 ≤ 8 := k0_off1_inb k 0
theorem imgB_inb (k : Fin k0_t1_loop.trips) : imgB k + 1 ≤ 8 := k0_off2_inb k 0

end Cert.KernelIdeal.Acc

end
-- ==== Proof.TripEq.lean ====
/-
  The run of the printed loop body yields the trip as kernel.py writes it: the two are one term up to the
  unfolding of definitions (the payloads of the printed body on one side, the stages of the trip on the other)
  and the evaluation of the strips' literal row offsets.
-/
import proofs.«114172_g47107201302668_feedfinal_429_31_alg».proof.Proof.TripMirror

set_option maxRecDepth 65536

noncomputable section

namespace Cert.KernelIdeal.Acc

open Cert.KernelIdeal Cert.KernelIdeal.Gen
open Idealize.ShloMosaic Idealize.ShloMosaic.TcCoe
open Idealize.SL Idealize.SL.Sem

variable {F : FTy → Type} [FloatOps F]

set_option maxHeartbeats 4000000 in
theorem tripR_eq (𝒱 : Variants) (c : Dev nD) (bd : Option 𝒱.V) (i : grid0.Coords) (arg1 : Memref sig .tc .vmem S8x512x512 .f32) (harg1 : arg1.IsWhole)
    (arg2 : Memref sig .tc .vmem S1x1x1 .f32) (harg2 : arg2.IsWhole) (X : BufTy.Contents (Elt F) arg1.view.ty) (k : Fin k0_t1_loop.trips)
    (acc : FVec F S8x512 .f32) :
    tripR_k0_t1 (F := F) 𝒱 c bd i arg1 harg1 arg2 harg2 X k acc
      = tripM arg1 X (imgA k) (imgA_inb k) (imgB k) (imgB_inb k) acc := by
  unfold tripR_k0_t1 trip_k0_t1
  rfl

end Cert.KernelIdeal.Acc

end
-- ==== Proof.TripRead.lean ====
/-
  The stages of a trip read at an index, over the extended reals.

  A strip loaded from the block is sixteen rows of one image; the lane stage at column `j` takes the row-direction
  minimum at columns `j - 1` (column 0 repeated), `j` and `j + 1` (at the last column: column 510); the top
  strip's "one row higher" repeats row 0; the shifted erosion supplies row `p + 1`, or below the strip's last row
  the row handed in; the fold adds rows `r` and `8 + r` of a strip to row `r` of the accumulator.
  With these, the lane-dilated erosion of strip `s` of an image is the factored-form erosion `gK` of the image
  at rows `16 s .. 16 s + 15`, and folding a strip in adds the image's squared differences `Dk` at those rows.
-/
import proofs.«114172_g47107201302668_feedfinal_429_31_alg».proof.Proof.TripMirror
import proofs.«114172_g47107201302668_feedfinal_429_31_alg».proof.Proof.LibOpening2x2
import Idealize.ShloMosaic.Lib.ValueIdx
import Idealize.ShloMosaic.Lib.ValueLayout
import Idealize.ShloMosaic.Lib.Pipeline.Value
import Idealize.ShloMosaic.Lib.WholeRead

set_option maxRecDepth 16384

noncomputable section

namespace Cert.KernelIdeal.Acc

open Cert.KernelIdeal Cert.KernelIdeal.Gen
open Idealize.ShloMosaic Idealize.ShloMosaic.ValueIdx Opening2x2

/-! ## Layout pieces at an index -/

/-- One row higher inside a strip, row 0 repeated. -/
def pre16 (p : Fin 16) : Fin 16 := ⟨p.val - 1, by omega⟩

/-- The strip shifted right by one column, column 0 repeated. -/
theorem lane_left (r : FVec Ideal S16x512 .f32) (p : Fin 16) (j : Fin 512) :
    concatenate S16x512 1 [⟨S16x1, extractStridedSlice S16x1 ![0, 0] r slices_S16x512_o0_0_S16x1⟩, ⟨S16x511, extractStridedSlice S16x511 ![0, 0] r slices_S16x512_o0_0_S16x511⟩] concatenates_S16x1_S16x511_S16x512_d1 (ix2 p j)
      = r (ix2 p (pre j)) := by
  by_cases hj : j.val = 0
  · refine (concatenate_pair_apply_left (t := S16x512) (s₁ := S16x1) (s₂ := S16x511) (1 : Fin 2) _ _ concatenates_S16x1_S16x511_S16x512_d1 _ rfl
      (ix2 p (⟨0, by omega⟩ : Fin 1)) (by
        intro b
        match b with
        | ⟨0, _⟩ => rfl
        | ⟨1, _⟩ => show 0 = j.val; omega)).trans ?_
    refine (slice2_axis1_eq 0 r slices_S16x512_o0_0_S16x1 p (⟨0, by omega⟩ : Fin 1)).trans ?_
    exact congrArg (fun q => r (ix2 p q)) (Fin.ext (by show 0 + 0 = j.val - 1; omega))
  · refine (concatenate_pair_apply_right (t := S16x512) (s₁ := S16x1) (s₂ := S16x511) (1 : Fin 2) _ _ concatenates_S16x1_S16x511_S16x512_d1 _ rfl rfl
      (ix2 p (⟨j.val - 1, by have := j.isLt; omega⟩ : Fin 511)) (by
        intro b hb
        match b with
        | ⟨0, _⟩ => rfl
        | ⟨1, _⟩ => exact absurd rfl hb) (by show j.val - 1 + 1 = j.val; omega)).trans ?_
    refine (slice2_axis1_eq 0 r slices_S16x512_o0_0_S16x511 p _).trans ?_
    exact congrArg (fun q => r (ix2 p q)) (Fin.ext (by show 0 + (j.val - 1) = j.val - 1; omega))

/-- The strip shifted left by one column, the last column filled from column 510. -/
theorem lane_right (r : FVec Ideal S16x512 .f32) (p : Fin 16) (j : Fin 512) :
    concatenate S16x512 1 [⟨S16x511, extractStridedSlice S16x511 ![0, 1] r slices_S16x512_o0_1_S16x511⟩, ⟨S16x1, extractStridedSlice S16x1 ![0, 510] r slices_S16x512_o0_510_S16x1⟩] concatenates_S16x511_S16x1_S16x512_d1 (ix2 p j)
      = r (ix2 p (sucK j)) := by
  by_cases hj : j.val = 511
  · refine (concatenate_pair_apply_right (t := S16x512) (s₁ := S16x511) (s₂ := S16x1) (1 : Fin 2) _ _ concatenates_S16x511_S16x1_S16x512_d1 _ rfl rfl
      (ix2 p (⟨0, by omega⟩ : Fin 1)) (by
        intro b hb
        match b with
        | ⟨0, _⟩ => rfl
        | ⟨1, _⟩ => exact absurd rfl hb) (by show 0 + 511 = j.val; omega)).trans ?_
    refine (slice2_axis1_eq 510 r slices_S16x512_o0_510_S16x1 p _).trans ?_
    exact congrArg (fun q => r (ix2 p q)) (Fin.ext (by show 510 + 0 = (sucK j).val; rw [sucK_val, if_pos hj]))
  · refine (concatenate_pair_apply_left (t := S16x512) (s₁ := S16x511) (s₂ := S16x1) (1 : Fin 2) _ _ concatenates_S16x511_S16x1_S16x512_d1 _ rfl
      (ix2 p (⟨j.val, by have := j.isLt; omega⟩ : Fin 511)) (by
        intro b
        match b with
        | ⟨0, _⟩ => rfl
        | ⟨1, _⟩ => rfl)).trans ?_
    refine (slice2_axis1_eq 1 r slices_S16x512_o0_1_S16x511 p _).trans ?_
    exact congrArg (fun q => r (ix2 p q)) (Fin.ext (by show 1 + j.val = (sucK j).val; rw [sucK_val, if_neg hj]; omega))

/-- The lane stage at an index. -/
theorem laneStage_apply (r : FVec Ideal S16x512 .f32) (p : Fin 16) (j : Fin 512) :
    laneStage r (ix2 p j) = min (r (ix2 p j)) (max (r (ix2 p (pre j))) (r (ix2 p (sucK j)))) := by
  unfold laneStage
  rw [minimumf_apply, maximumf_apply, lane_left, lane_right]

/-- The strip shifted down by one row, row 0 repeated. -/
theorem top_shift (xs : FVec Ideal S16x512 .f32) (p : Fin 16) (j : Fin 512) :
    concatenate S16x512 0 [⟨S1x512, extractStridedSlice S1x512 ![0, 0] xs slices_S16x512_o0_0_S1x512⟩, ⟨S15x512, extractStridedSlice S15x512 ![0, 0] xs slices_S16x512_o0_0_S15x512⟩] concatenates_S1x512_S15x512_S16x512_d0 (ix2 p j)
      = xs (ix2 (pre16 p) j) := by
  by_cases hp : p.val = 0
  · refine (concatenate_pair_apply_left (t := S16x512) (s₁ := S1x512) (s₂ := S15x512) (0 : Fin 2) _ _ concatenates_S1x512_S15x512_S16x512_d0 _ rfl
      (ix2 (⟨0, by omega⟩ : Fin 1) j) (by
        intro b
        match b with
        | ⟨0, _⟩ => show 0 = p.val; omega
        | ⟨1, _⟩ => rfl)).trans ?_
    refine (slice2_axis0_eq 0 xs slices_S16x512_o0_0_S1x512 _ j).trans ?_
    exact congrArg (fun q => xs (ix2 q j)) (Fin.ext (by show 0 + 0 = p.val - 1; omega))
  · refine (concatenate_pair_apply_right (t := S16x512) (s₁ := S1x512) (s₂ := S15x512) (0 : Fin 2) _ _ concatenates_S1x512_S15x512_S16x512_d0 _ rfl rfl
      (ix2 (⟨p.val - 1, by have := p.isLt; omega⟩ : Fin 15) j) (by
        intro b hb
        match b with
        | ⟨0, _⟩ => exact absurd rfl hb
        | ⟨1, _⟩ => rfl) (by show p.val - 1 + 1 = p.val; omega)).trans ?_
    refine (slice2_axis0_eq 0 xs slices_S16x512_o0_0_S15x512 _ j).trans ?_
    exact congrArg (fun q => xs (ix2 q j)) (Fin.ext (by show 0 + (p.val - 1) = p.val - 1; omega))

/-- The erosion shifted up by one row, the row below the strip handed in. -/
theorem up_shift (g : FVec Ideal S16x512 .f32) (grow : FVec Ideal S1x512 .f32) (p : Fin 16) (j : Fin 512) :
    concatenate S16x512 0 [⟨S15x512, extractStridedSlice S15x512 ![1, 0] g slices_S16x512_o1_0_S15x512⟩, ⟨S1x512, grow⟩] concatenates_S15x512_S1x512_S16x512_d0 (ix2 p j)
      = if h : p.val < 15 then g (ix2 (⟨p.val + 1, by omega⟩ : Fin 16) j) else grow (ix2 (0 : Fin 1) j) := by
  by_cases hp : p.val < 15
  · rw [dif_pos hp]
    refine (concatenate_pair_apply_left (t := S16x512) (s₁ := S15x512) (s₂ := S1x512) (0 : Fin 2) _ _ concatenates_S15x512_S1x512_S16x512_d0 _ rfl
      (ix2 (⟨p.val, hp⟩ : Fin 15) j) (by
        intro b
        match b with
        | ⟨0, _⟩ => rfl
        | ⟨1, _⟩ => rfl)).trans ?_
    refine (slice2_axis0_eq 1 g slices_S16x512_o1_0_S15x512 _ j).trans ?_
    exact congrArg (fun q => g (ix2 q j)) (Fin.ext (by show 1 + p.val = p.val + 1; omega))
  · rw [dif_neg hp]
    exact concatenate_pair_apply_right (t := S16x512) (s₁ := S15x512) (s₂ := S1x512) (0 : Fin 2) _ _ concatenates_S15x512_S1x512_S16x512_d0 _ rfl rfl
      (ix2 (0 : Fin 1) j) (by
        intro b hb
        match b with
        | ⟨0, _⟩ => exact absurd rfl hb
        | ⟨1, _⟩ => rfl) (by show 0 + 15 = p.val; have := p.isLt; omega)

theorem row0_apply (g : FVec Ideal S16x512 .f32) (j : Fin 512) : row0 g (ix2 (0 : Fin 1) j) = g (ix2 (0 : Fin 16) j) := by
  unfold row0
  refine (slice2_axis0_eq 0 g slices_S16x512_o0_0_S1x512 _ j).trans ?_
  exact congrArg (fun q => g (ix2 q j)) (Fin.ext rfl)

theorem row15_apply (g : FVec Ideal S16x512 .f32) (j : Fin 512) : row15 g (ix2 (0 : Fin 1) j) = g (ix2 (15 : Fin 16) j) := by
  unfold row15
  refine (slice2_axis0_eq 15 g slices_S16x512_o15_0_S1x512 _ j).trans ?_
  exact congrArg (fun q => g (ix2 q j)) (Fin.ext rfl)

/-- The fold at an index: rows `r` and `8 + r` of the strip added to row `r` of the accumulator. -/
theorem foldIn_apply (acc : FVec Ideal S8x512 .f32) (d : FVec Ideal S16x512 .f32) (r : Fin 8) (j : Fin 512) :
    foldIn acc d (ix2 r j) = acc (ix2 r j) + d (ix2 (⟨r.val, by omega⟩ : Fin 16) j) + d (ix2 (⟨8 + r.val, by omega⟩ : Fin 16) j) := by
  unfold foldIn
  rw [addf_apply, addf_apply]
  congr 1
  · congr 1
    refine (slice2_axis0_eq 0 d slices_S16x512_o0_0_S8x512 r j).trans ?_
    exact congrArg (fun q => d (ix2 q j)) (Fin.ext (by show 0 + r.val = r.val; omega))
  · exact slice2_axis0_eq 8 d slices_S16x512_o8_0_S8x512 r j

/-- The squared difference at an index. -/
theorem sqErr_apply (g : FVec Ideal S16x512 .f32) (grow : FVec Ideal S1x512 .f32) (x : FVec Ideal S16x512 .f32) (p : Fin 16) (j : Fin 512) :
    sqErr g grow x (ix2 p j)
      = (x (ix2 p j) - max (g (ix2 p j)) (if h : p.val < 15 then g (ix2 (⟨p.val + 1, by omega⟩ : Fin 16) j) else grow (ix2 (0 : Fin 1) j)))
        * (x (ix2 p j) - max (g (ix2 p j)) (if h : p.val < 15 then g (ix2 (⟨p.val + 1, by omega⟩ : Fin 16) j) else grow (ix2 (0 : Fin 1) j))) := by
  unfold sqErr
  rw [mulf_apply, subf_apply, maximumf_apply, up_shift]

/-! ## A strip of the block at an index -/

/-- Sixteen rows of image `a` from row `R`: entry `(p, j)` is the block's entry `(a, R + p, j)`. -/
theorem strip_apply (arg1 : Memref sig .tc .vmem S8x512x512 .f32) (harg1 : arg1.IsWhole) (x0 : Vec Ideal S8x512x512 .f32)
    (a R : Nat) (ha : a + 1 ≤ 8) (hR : R + 16 ≤ 512) (p : Fin 16) (j : Fin 512) :
    strip (F := Ideal) arg1 (harg1.unread x0) a R ha hR (ix2 p j)
      = x0 (ix3 (⟨a, by omega⟩ : Fin 8) (⟨R + p.val, by omega⟩ : Fin 512) j) := by
  unfold strip
  refine (shapeCast_dropUnit_apply ![16, 512] _ _ (ix2 p j)).trans ?_
  refine (harg1.readAt_unread x0 _ _).trans ?_
  refine congrArg x0 (funext fun d => Fin.ext ?_)
  match d with
  | ⟨0, _⟩ => show a + 1 * 0 = a; omega
  | ⟨1, _⟩ => show R + 1 * p.val = R + p.val; omega
  | ⟨2, _⟩ => show 0 + 1 * j.val = j.val; omega

end Cert.KernelIdeal.Acc

end
-- ==== Proof.TripSum.lean ====
/-
  What a trip adds to the accumulator, over the extended reals.

  Row `r` (of 8) of the accumulator receives, from each of the trip's two images, the squared differences at
  rows `16 t + r` and `16 t + 8 + r` of the image for every strip `t = 0 .. 31`: together, every row of the
  image congruent to `r` modulo 8.
-/
import proofs.«114172_g47107201302668_feedfinal_429_31_alg».proof.Proof.TripRead

set_option maxRecDepth 16384

noncomputable section

namespace Cert.KernelIdeal.Acc

open Cert.KernelIdeal Cert.KernelIdeal.Gen
open Idealize.ShloMosaic Idealize.ShloMosaic.ValueIdx Opening2x2

/-- Image `a` of a block of eight. -/
def imgOf (x0 : Vec Ideal S8x512x512 .f32) (a : Fin 8) : Fin 512 → Fin 512 → EReal := fun i j => x0 (ix3 a i j)

/-- The squared difference between a pixel and the opening (factored form) there. -/
def Dk (x : Fin 512 → Fin 512 → EReal) (i j : Fin 512) : EReal := (x i j - openK x i j) * (x i j - openK x i j)

/-- The same with the row a natural number (zero past the image), so that sums over rows need no proofs. -/
def DkN (x : Fin 512 → Fin 512 → EReal) (i : Nat) (j : Fin 512) : EReal := if h : i < 512 then Dk x ⟨i, h⟩ j else 0

theorem DkN_of_lt (x : Fin 512 → Fin 512 → EReal) (i : Nat) (h : i < 512) (j : Fin 512) : DkN x i j = Dk x ⟨i, h⟩ j := dif_pos h

/-- What strip `t` of an image contributes to row `r` of the accumulator at column `j`. -/
def stripT (x : Fin 512 → Fin 512 → EReal) (t : Nat) (r : Fin 8) (j : Fin 512) : EReal :=
  DkN x (16 * t + r.val) j + DkN x (16 * t + 8 + r.val) j

variable (arg1 : Memref sig .tc .vmem S8x512x512 .f32) (harg1 : arg1.IsWhole) (x0 : Vec Ideal S8x512x512 .f32)

theorem xsOf_apply (a : Nat) (ha : a + 1 ≤ 8) (s : Nat) (hs : s ≤ 31) (p : Fin 16) (j : Fin 512) :
    xsOf (F := Ideal) arg1 (harg1.unread x0) a ha s hs (ix2 p j) = imgOf x0 ⟨a, by omega⟩ ⟨16 * s + p.val, by omega⟩ j := by
  unfold xsOf
  exact strip_apply arg1 harg1 x0 a (16 * s) ha _ p j

theorem xuOf_apply (a : Nat) (ha : a + 1 ≤ 8) (s : Nat) (hs : s ≤ 31) (h1 : 1 ≤ s) (p : Fin 16) (j : Fin 512) :
    xuOf (F := Ideal) arg1 (harg1.unread x0) a ha s hs h1 (ix2 p j) = imgOf x0 ⟨a, by omega⟩ ⟨16 * s - 1 + p.val, by omega⟩ j := by
  unfold xuOf
  exact strip_apply arg1 harg1 x0 a (16 * s - 1) ha _ p j

/-- A row-direction minimum that is the image's at row `i` gives, through the lane stage, the image's
    lane-dilated erosion at row `i`. -/
theorem lane_of_rows (r : FVec Ideal S16x512 .f32) (x : Fin 512 → Fin 512 → EReal) (i : Fin 512) (p : Fin 16)
    (hr : ∀ j, r (ix2 p j) = rowMin x i j) (j : Fin 512) : laneStage r (ix2 p j) = gK x i j := by
  rw [laneStage_apply, hr, hr, hr]
  rfl

/-- The lane-dilated erosion of strip `s` of image `a` is the image's, at rows `16 s ..`. -/
theorem gOf_apply (a : Nat) (ha : a + 1 ≤ 8) : ∀ (s : Nat) (hs : s ≤ 31) (p : Fin 16) (j : Fin 512),
    gOf (F := Ideal) arg1 (harg1.unread x0) a ha s hs (ix2 p j) = gK (imgOf x0 ⟨a, by omega⟩) ⟨16 * s + p.val, by omega⟩ j
  | 0, hs, p, j => by
    show gTop (xsOf arg1 (harg1.unread x0) a ha 0 _) (ix2 p j) = _
    unfold gTop
    refine lane_of_rows _ _ _ p (fun j' => ?_) j
    rw [minimumf_apply, top_shift, xsOf_apply, xsOf_apply]
    unfold rowMin
    have e : (⟨16 * 0 + (pre16 p).val, by have := (pre16 p).isLt; omega⟩ : Fin 512) = pre ⟨16 * 0 + p.val, by omega⟩ :=
      Fin.ext (by show 16 * 0 + (p.val - 1) = 16 * 0 + p.val - 1; omega)
    rw [e]
  | s + 1, hs, p, j => by
    show gMid (xsOf arg1 (harg1.unread x0) a ha (s + 1) hs) (xuOf arg1 (harg1.unread x0) a ha (s + 1) hs _) (ix2 p j) = _
    unfold gMid
    refine lane_of_rows _ _ _ p (fun j' => ?_) j
    rw [minimumf_apply, xsOf_apply, xuOf_apply]
    unfold rowMin
    have e : (⟨16 * (s + 1) - 1 + p.val, by omega⟩ : Fin 512) = pre ⟨16 * (s + 1) + p.val, by omega⟩ :=
      Fin.ext (by show 16 * (s + 1) - 1 + p.val = 16 * (s + 1) + p.val - 1; omega)
    rw [e]

/-- The squared difference of strip `s` of image `a`, given the erosion's row below the strip. -/
theorem sq_strip (a : Nat) (ha : a + 1 ≤ 8) (s : Nat) (hs : s ≤ 31) (grow : FVec Ideal S1x512 .f32)
    (hgrow : ∀ j, grow (ix2 (0 : Fin 1) j) = gK (imgOf x0 ⟨a, by omega⟩) (suc ⟨16 * s + 15, by omega⟩) j) (p : Fin 16) (j : Fin 512) :
    sqErr (gOf (F := Ideal) arg1 (harg1.unread x0) a ha s hs) grow (xsOf arg1 (harg1.unread x0) a ha s hs) (ix2 p j)
      = Dk (imgOf x0 ⟨a, by omega⟩) ⟨16 * s + p.val, by omega⟩ j := by
  have hup : (if h : p.val < 15 then gOf (F := Ideal) arg1 (harg1.unread x0) a ha s hs (ix2 (⟨p.val + 1, by omega⟩ : Fin 16) j) else grow (ix2 (0 : Fin 1) j))
      = gK (imgOf x0 ⟨a, by omega⟩) (suc ⟨16 * s + p.val, by omega⟩) j := by
    by_cases hp : p.val < 15
    · rw [dif_pos hp, gOf_apply]
      exact congrArg (fun q => gK (imgOf x0 ⟨a, by omega⟩) q j) (Fin.ext (by
        show 16 * s + (p.val + 1) = min (16 * s + p.val + 1) 511; omega))
    · rw [dif_neg hp, hgrow]
      exact congrArg (fun q => gK (imgOf x0 ⟨a, by omega⟩) q j) (Fin.ext (by
        show min (16 * s + 15 + 1) 511 = min (16 * s + p.val + 1) 511; have := p.isLt; omega))
  rw [sqErr_apply, hup, xsOf_apply, gOf_apply]
  rfl

/-- Folding strip `s ≤ 30` of image `a` in. -/
theorem stepMid_apply (a : Nat) (ha : a + 1 ≤ 8) (s : Nat) (hs : s + 1 ≤ 31) (acc : FVec Ideal S8x512 .f32) (r : Fin 8) (j : Fin 512) :
    stepMid (F := Ideal) arg1 (harg1.unread x0) a ha s hs acc (ix2 r j) = acc (ix2 r j) + stripT (imgOf x0 ⟨a, by omega⟩) s r j := by
  unfold stepMid
  have hgrow : ∀ j, row0 (gOf (F := Ideal) arg1 (harg1.unread x0) a ha (s + 1) hs) (ix2 (0 : Fin 1) j)
      = gK (imgOf x0 ⟨a, by omega⟩) (suc ⟨16 * s + 15, by omega⟩) j := fun j => by
    rw [row0_apply, gOf_apply]
    exact congrArg (fun q => gK (imgOf x0 ⟨a, by omega⟩) q j) (Fin.ext (by
      show 16 * (s + 1) + 0 = min (16 * s + 15 + 1) 511; omega))
  rw [foldIn_apply, sq_strip arg1 harg1 x0 a ha s _ _ hgrow, sq_strip arg1 harg1 x0 a ha s _ _ hgrow]
  unfold stripT
  rw [DkN_of_lt _ (16 * s + r.val) (by omega), DkN_of_lt _ (16 * s + 8 + r.val) (by omega), add_assoc]
  congr 2
  exact congrArg (fun q => Dk (imgOf x0 ⟨a, by omega⟩) q j) (Fin.ext (by show 16 * s + (8 + r.val) = 16 * s + 8 + r.val; omega))

/-- Folding the bottom strip of image `a` in. -/
theorem stepLast_apply (a : Nat) (ha : a + 1 ≤ 8) (acc : FVec Ideal S8x512 .f32) (r : Fin 8) (j : Fin 512) :
    stepLast (F := Ideal) arg1 (harg1.unread x0) a ha acc (ix2 r j) = acc (ix2 r j) + stripT (imgOf x0 ⟨a, by omega⟩) 31 r j := by
  unfold stepLast
  have hgrow : ∀ j, row15 (gOf (F := Ideal) arg1 (harg1.unread x0) a ha 31 (Nat.le_refl 31)) (ix2 (0 : Fin 1) j)
      = gK (imgOf x0 ⟨a, by omega⟩) (suc ⟨16 * 31 + 15, by omega⟩) j := fun j => by
    rw [row15_apply, gOf_apply]
    exact congrArg (fun q => gK (imgOf x0 ⟨a, by omega⟩) q j) (Fin.ext (by
      show 16 * 31 + 15 = min (16 * 31 + 15 + 1) 511; omega))
  rw [foldIn_apply, sq_strip arg1 harg1 x0 a ha 31 _ _ hgrow, sq_strip arg1 harg1 x0 a ha 31 _ _ hgrow]
  unfold stripT
  rw [DkN_of_lt _ (16 * 31 + r.val) (by omega), DkN_of_lt _ (16 * 31 + 8 + r.val) (by omega), add_assoc]
  congr 2
  exact congrArg (fun q => Dk (imgOf x0 ⟨a, by omega⟩) q j) (Fin.ext (by show 16 * 31 + (8 + r.val) = 16 * 31 + 8 + r.val; omega))

/-- Strips `0 .. s - 1` of the two images folded in. -/
theorem accUpTo_apply (a : Nat) (ha : a + 1 ≤ 8) (b : Nat) (hb : b + 1 ≤ 8) :
    ∀ (s : Nat) (hs : s ≤ 31) (acc : FVec Ideal S8x512 .f32) (r : Fin 8) (j : Fin 512),
    accUpTo (F := Ideal) arg1 (harg1.unread x0) a ha b hb s hs acc (ix2 r j)
      = acc (ix2 r j) + ∑ t ∈ Finset.range s, (stripT (imgOf x0 ⟨a, by omega⟩) t r j + stripT (imgOf x0 ⟨b, by omega⟩) t r j)
  | 0, _, acc, r, j => by
    show acc (ix2 r j) = _
    rw [Finset.range_zero, Finset.sum_empty, add_zero]
  | s + 1, hs, acc, r, j => by
    show stepMid arg1 (harg1.unread x0) b hb s hs (stepMid arg1 (harg1.unread x0) a ha s hs (accUpTo arg1 (harg1.unread x0) a ha b hb s _ acc)) (ix2 r j) = _
    rw [stepMid_apply, stepMid_apply, accUpTo_apply a ha b hb s _ acc r j, Finset.sum_range_succ]
    ac_rfl

/-- One trip: every strip of the two images folded in. -/
theorem tripM_apply (a : Nat) (ha : a + 1 ≤ 8) (b : Nat) (hb : b + 1 ≤ 8) (acc : FVec Ideal S8x512 .f32) (r : Fin 8) (j : Fin 512) :
    tripM (F := Ideal) arg1 (harg1.unread x0) a ha b hb acc (ix2 r j)
      = acc (ix2 r j) + ∑ t ∈ Finset.range 32, (stripT (imgOf x0 ⟨a, by omega⟩) t r j + stripT (imgOf x0 ⟨b, by omega⟩) t r j) := by
  unfold tripM
  rw [stepLast_apply, stepLast_apply, accUpTo_apply, Finset.sum_range_succ (n := 31)]
  ac_rfl

end Cert.KernelIdeal.Acc

end
-- ==== Proof.TripValue.lean ====
/-
  What one image block contributes: the body's loop folds the squared differences between eight images and
  their 2x2 openings (factored form) into an 8x512 accumulator, and the sum of that accumulator is the sum
  over the eight images of the per-image loss.

  Trip `k` of the loop handles images `2 k` and `2 k + 1`; row `r` of the accumulator collects, per image,
  the rows `16 t + r` and `16 t + 8 + r` for `t = 0 .. 31`, that is every row congruent to `r` modulo 8; the
  accumulator's total, a sum over its 8 rows and 512 columns, is therefore the sum over all 512 rows and
  columns of each of the eight images.  Addition of extended reals is commutative and associative, which is
  all the regrouping uses.
-/
import proofs.«114172_g47107201302668_feedfinal_429_31_alg».proof.Proof.AccRuns
import proofs.«114172_g47107201302668_feedfinal_429_31_alg».proof.Proof.TripEq
import proofs.«114172_g47107201302668_feedfinal_429_31_alg».proof.Proof.TripSum
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.ShloMosaic.ValueIdx Opening2x2
open Idealize.SL Idealize.SL.Sem

/-! ## The two images of a trip -/

/-- Image number `a` of the block (the zero image past the block), so that sums over trips need no proofs. -/
def imgN (x0 : Vec Ideal S8x512x512 .f32) (a : Nat) : Fin 512 → Fin 512 → EReal :=
  if h : a < 8 then imgOf x0 ⟨a, h⟩ else fun _ _ => 0

theorem imgOf_eq_imgN (x0 : Vec Ideal S8x512x512 .f32) (a : Nat) (h : a + 1 ≤ 8) (a' : Nat) (e : a = a') :
    imgOf x0 ⟨a, by omega⟩ = imgN x0 a' := by
  subst e
  unfold imgN
  rw [dif_pos (by omega)]

theorem imgA_eq (k : Fin k0_t1_loop.trips) : imgA k = 2 * k.val := congrFun (k0_off1_eq k) 0
theorem imgB_eq (k : Fin k0_t1_loop.trips) : imgB k = 2 * k.val + 1 := congrFun (k0_off2_eq k) 0

/-! ## The accumulator after `n` trips -/

theorem pay1_apply (r : Fin 8) (j : Fin 512) : k0_pay1 (F := Ideal) (ix2 r j) = 0 := by
  unfold k0_pay1
  show Ideal.ofBits .f32 0x00000000#32 = 0
  exact Ideal.ofBits_zero_f32

theorem st_apply (c : Dev nD) (i : grid0.Coords) (arg1 : Memref sig .tc .vmem S8x512x512 .f32) (harg1 : arg1.IsWhole)
    (arg2 : Memref sig .tc .vmem S1x1x1 .f32) (harg2 : arg2.IsWhole) (x0 : Vec Ideal S8x512x512 .f32) :
    ∀ (n : Nat) (hn : n ≤ k0_t1_loop.trips) (r : Fin 8) (j : Fin 512),
    st_k0_t1 (F := Ideal) Variants.none c none i arg1 harg1 arg2 harg2 (harg1.unread x0) (k0_pay1 (F := Ideal)) n (ix2 r j)
      = ∑ k ∈ Finset.range n, ∑ t ∈ Finset.range 32, (stripT (imgN x0 (2 * k)) t r j + stripT (imgN x0 (2 * k + 1)) t r j)
  | 0, _, r, j => by
    rw [st_k0_t1_zero, pay1_apply, Finset.range_zero, Finset.sum_empty]
  | n + 1, hn, r, j => by
    have h := congrFun (st_k0_t1_succ (F := Ideal) Variants.none c none i arg1 harg1 arg2 harg2 (harg1.unread x0) (k0_pay1 (F := Ideal))
      ⟨n, Nat.lt_of_succ_le hn⟩) (ix2 r j)
    refine h.trans ?_
    rw [tripR_eq, tripM_apply, st_apply c i arg1 harg1 arg2 harg2 x0 n (Nat.le_of_succ_le hn) r j,
      imgOf_eq_imgN x0 (imgA ⟨n, Nat.lt_of_succ_le hn⟩) (imgA_inb _) (2 * n) (imgA_eq _),
      imgOf_eq_imgN x0 (imgB ⟨n, Nat.lt_of_succ_le hn⟩) (imgB_inb _) (2 * n + 1) (imgB_eq _)]
    exact (Finset.sum_range_succ _ n).symm

/-! ## The accumulator's total -/

/-- The store's payload: the sum of the accumulator over its 8 rows and 512 columns, at every index of the
    one-element block. -/
theorem pay3_apply (v2 : FVec Ideal S8x512 .f32) : k0_pay3 (F := Ideal) v2 = fun _ => ∑ r : Fin 8, ∑ j : Fin 512, v2 (ix2 r j) := by
  funext y
  unfold k0_pay3
  show extractAt ![0, 0, 0] (shapeCast S1x1x1 (multiReduction .add [1, 2] S1 (shapeCast S1x8x512 v2 shapeCasts_S8x512_S1x8x512) 0x00000000#32 reduces_S1x8x512_S1 (.inl rfl) rfl) shapeCasts_S1_S1x1x1) inpos_S1x1x1_p0_0_0 = _
  unfold extractAt shapeCast
  refine (Ideal.multiReduction_add_total _ 0x00000000#32 reduces_S1x8x512_S1 (fun b => by
    match b with
    | ⟨0, _⟩ => rfl) (.inl rfl) rfl _).trans ?_
  refine (Equiv.sum_comp (Shape.reshapeEquiv _) v2).trans ?_
  exact sum_idx2 v2

/-! ## Regrouping the rows -/

/-- The rows `16 t + p`, `t < 32`, `p < 16`, are the 512 rows. -/
theorem sum_strips (f : Nat → EReal) : ∑ t : Fin 32, ∑ p : Fin 16, f (16 * t.val + p.val) = ∑ i : Fin 512, f i.val := by
  rw [← Fintype.sum_prod_type']
  refine (Fintype.sum_equiv (finProdFinEquiv : Fin 32 × Fin 16 ≃ Fin (32 * 16)) _ (fun i : Fin (32 * 16) => f i.val) (fun x => ?_))
  show f (16 * x.1.val + x.2.val) = f (x.2.val + 16 * x.1.val)
  rw [Nat.add_comm]

/-- The rows `r` and `8 + r`, `r < 8`, are the 16 rows of a strip. -/
theorem sum_halves (g : Nat → EReal) : ∑ r : Fin 8, (g r.val + g (8 + r.val)) = ∑ p : Fin 16, g p.val := by
  rw [Finset.sum_add_distrib]
  exact (Fin.sum_univ_add (fun p : Fin (8 + 8) => g p.val)).symm

/-- Every row of an image is row `16 t + r` or `16 t + 8 + r` for exactly one strip `t` and one `r < 8`. -/
theorem sum_rows (f : Nat → EReal) :
    ∑ r : Fin 8, ∑ t ∈ Finset.range 32, (f (16 * t + r.val) + f (16 * t + 8 + r.val)) = ∑ i : Fin 512, f i.val := by
  rw [← sum_strips f]
  simp only [Finset.sum_range]
  rw [Finset.sum_comm]
  refine Finset.sum_congr rfl fun t _ => ?_
  rw [← sum_halves (fun p => f (16 * t.val + p))]
  refine Finset.sum_congr rfl fun r _ => ?_
  rw [Nat.add_assoc]

/-- Per image: the accumulator's rows and columns, over the strips, are the image's rows and columns. -/
theorem perImage (x : Fin 512 → Fin 512 → EReal) :
    ∑ r : Fin 8, ∑ j : Fin 512, ∑ t ∈ Finset.range 32, stripT x t r j = lossK x := by
  have h1 : ∀ j : Fin 512, ∑ r : Fin 8, ∑ t ∈ Finset.range 32, stripT x t r j = ∑ i : Fin 512, Dk x i j := fun j => by
    refine (sum_rows (fun i => DkN x i j)).trans ?_
    exact Finset.sum_congr rfl fun i _ => DkN_of_lt x i.val i.isLt j
  calc ∑ r : Fin 8, ∑ j : Fin 512, ∑ t ∈ Finset.range 32, stripT x t r j
      = ∑ j : Fin 512, ∑ r : Fin 8, ∑ t ∈ Finset.range 32, stripT x t r j := Finset.sum_comm
    _ = ∑ j : Fin 512, ∑ i : Fin 512, Dk x i j := Finset.sum_congr rfl fun j _ => h1 j
    _ = ∑ i : Fin 512, ∑ j : Fin 512, Dk x i j := Finset.sum_comm
    _ = lossK x := rfl

/-- Four trips of two images each are the eight images. -/
theorem sum_pairs (G : Nat → EReal) : ∑ k ∈ Finset.range 4, (G (2 * k) + G (2 * k + 1)) = ∑ n : Fin 8, G n.val := by
  rw [Fin.sum_univ_eight]
  simp only [Finset.sum_range_succ, Finset.sum_range_zero, zero_add]
  show G 0 + G 1 + (G 2 + G 3) + (G 4 + G 5) + (G 6 + G 7) = G 0 + G 1 + G 2 + G 3 + G 4 + G 5 + G 6 + G 7
  ac_rfl

/-- A sum over rows, columns and trips, with the trips outermost. -/
theorem trips_out (H : Fin 8 → Fin 512 → Nat → EReal) :
    ∑ r : Fin 8, ∑ j : Fin 512, ∑ k ∈ Finset.range 4, H r j k = ∑ k ∈ Finset.range 4, ∑ r : Fin 8, ∑ j : Fin 512, H r j k :=
  calc ∑ r : Fin 8, ∑ j : Fin 512, ∑ k ∈ Finset.range 4, H r j k
      = ∑ r : Fin 8, ∑ k ∈ Finset.range 4, ∑ j : Fin 512, H r j k := Finset.sum_congr rfl fun r _ => Finset.sum_comm
    _ = ∑ k ∈ Finset.range 4, ∑ r : Fin 8, ∑ j : Fin 512, H r j k := Finset.sum_comm

/-- The block's partial sum, as the store's payload names it, is the sum over the block's eight images of the
    factored-form loss. -/
theorem blockTotal (c : Dev nD) (i : grid0.Coords) (arg1 : Memref sig .tc .vmem S8x512x512 .f32) (harg1 : arg1.IsWhole)
    (arg2 : Memref sig .tc .vmem S1x1x1 .f32) (harg2 : arg2.IsWhole) (x0 : Vec Ideal S8x512x512 .f32) :
    k0_pay3 (F := Ideal) (st_k0_t1 (F := Ideal) Variants.none c none i arg1 harg1 arg2 harg2 (harg1.unread x0) (k0_pay1 (F := Ideal))
        (Scf.trips (0#32) (Scalar.addi 0#32 4#32) 1#32))
      = fun _ => ∑ img : Fin 8, Opening2x2.lossK (fun a b => x0 (ValueIdx.ix3 img a b)) := by
  have h4 : Scf.trips (0#32) (Scalar.addi 0#32 4#32) 1#32 = 4 := by decide +kernel
  have ht : (4 : Nat) ≤ k0_t1_loop.trips := by decide +kernel
  rw [pay3_apply, h4]
  funext _
  simp only [st_apply c i arg1 harg1 arg2 harg2 x0 4 ht]
  have hImg : ∀ n : Fin 8, ∑ r : Fin 8, ∑ j : Fin 512, ∑ t ∈ Finset.range 32, stripT (imgN x0 n.val) t r j
      = lossK (fun a b => x0 (ix3 n a b)) := fun n => by
    rw [perImage]
    unfold imgN
    rw [dif_pos n.isLt]
    rfl
  calc ∑ r : Fin 8, ∑ j : Fin 512, ∑ k ∈ Finset.range 4, ∑ t ∈ Finset.range 32,
          (stripT (imgN x0 (2 * k)) t r j + stripT (imgN x0 (2 * k + 1)) t r j)
      = ∑ k ∈ Finset.range 4, ∑ r : Fin 8, ∑ j : Fin 512, ∑ t ∈ Finset.range 32,
          (stripT (imgN x0 (2 * k)) t r j + stripT (imgN x0 (2 * k + 1)) t r j) := trips_out _
    _ = ∑ k ∈ Finset.range 4, ((∑ r : Fin 8, ∑ j : Fin 512, ∑ t ∈ Finset.range 32, stripT (imgN x0 (2 * k)) t r j)
          + (∑ r : Fin 8, ∑ j : Fin 512, ∑ t ∈ Finset.range 32, stripT (imgN x0 (2 * k + 1)) t r j)) := by
        simp only [Finset.sum_add_distrib]
    _ = ∑ n : Fin 8, ∑ r : Fin 8, ∑ j : Fin 512, ∑ t ∈ Finset.range 32, stripT (imgN x0 n.val) t r j :=
        sum_pairs (fun n => ∑ r : Fin 8, ∑ j : Fin 512, ∑ t ∈ Finset.range 32, stripT (imgN x0 n) t r j)
    _ = ∑ img : Fin 8, lossK (fun a b => x0 (ix3 img a b)) := Finset.sum_congr rfl fun n _ => hImg n

end Cert.KernelIdeal.Acc

end
-- ==== Proof.AccValue.lean ====
/-
  The kernel half of the equivalence, at the exact instance: every weakly fair execution of the program ends
  with the result buffer at the mean, over the 16 x 8 images of the launched argument, of the factored-form
  2x2-opening loss, and with the argument array as launched.  The bookkeeping over grid points and the host
  tail take the block's partial sum as a hypothesis; here that hypothesis is discharged by the reading of the
  body's loop.
-/
import proofs.«114172_g47107201302668_feedfinal_429_31_alg».proof.Proof.AccV5
import proofs.«114172_g47107201302668_feedfinal_429_31_alg».proof.Proof.TripValue

noncomputable section

namespace Cert.KernelIdeal.Acc

open Cert.KernelIdeal Cert.KernelIdeal.Gen
open Idealize.ShloMosaic Idealize.ShloMosaic.TcCoe
open Idealize.SL Idealize.SL.Sem

/-- The block's partial sum is the sum over its eight images of the per-image loss. -/
theorem blockTotal_holds : BlockTotal :=
  fun c i arg1 harg1 arg2 harg2 x0 => blockTotal c i arg1 harg1 arg2 harg2 x0

/-- The run of the whole program at the exact instance. -/
theorem value_run
    (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3)
            = Opening2x2.result Opening2x2.lossK (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) :=
  value_run_of blockTotal_holds m ρ

end Cert.KernelIdeal.Acc

end
-- ==== Proof.RefTerm.lean ====
/-
  The reference program's result as one pure term of its argument: the argument padded by one replicated row on top and
  one replicated column on the left, the 2x2 window minimum of that, the result padded by one replicated row at the
  bottom and one replicated column on the right, the 2x2 window maximum of that, then the sum over every axis of the
  squared difference with the argument, divided by the element count.
-/
import proofs.«114172_g47107201302668_feedfinal_429_31_alg».proof.Proof.Gen.ReferenceIdeal

noncomputable section

namespace Cert.ReferenceIdeal.Hand

open Cert.ReferenceIdeal Cert.ReferenceIdeal.Gen Idealize.ShloMosaic

variable {F : FTy → Type} [FloatOps F]

/-- One more row on top (a copy of row 0), stage one of the low padding. -/
def padLoRows (x : FVec F S16x8x512x512 .f32) : FVec F S16x8x513x512 .f32 :=
  concatenate S16x8x513x512 2
    [⟨S16x8x1x512, Host.reverse [2] (extractStridedSlice S16x8x1x512 ![0, 0, 0, 0] x slices_S16x8x512x512_S16x8x1x512_0_0_0_0)⟩,
     ⟨S16x8x512x512, x⟩] concatenates_S16x8x1x512_S16x8x512x512_S16x8x513x512_d2

/-- Then one more column on the left (a copy of column 0). -/
def padLo (x : FVec F S16x8x512x512 .f32) : FVec F S16x8x513x513 .f32 :=
  concatenate S16x8x513x513 3
    [⟨S16x8x513x1, Host.reverse [3] (extractStridedSlice S16x8x513x1 ![0, 0, 0, 0] (padLoRows x) slices_S16x8x513x512_S16x8x513x1_0_0_0_0)⟩,
     ⟨S16x8x513x512, padLoRows x⟩] concatenates_S16x8x513x1_S16x8x513x512_S16x8x513x513_d3

/-- One more row at the bottom (a copy of row 511), stage one of the high padding. -/
def padHiRows (x : FVec F S16x8x512x512 .f32) : FVec F S16x8x513x512 .f32 :=
  concatenate S16x8x513x512 2
    [⟨S16x8x512x512, x⟩,
     ⟨S16x8x1x512, Host.reverse [2] (extractStridedSlice S16x8x1x512 ![0, 0, 511, 0] x slices_S16x8x512x512_S16x8x1x512_0_0_511_0)⟩]
    concatenates_S16x8x512x512_S16x8x1x512_S16x8x513x512_d2

/-- Then one more column on the right (a copy of column 511). -/
def padHi (x : FVec F S16x8x512x512 .f32) : FVec F S16x8x513x513 .f32 :=
  concatenate S16x8x513x513 3
    [⟨S16x8x513x512, padHiRows x⟩,
     ⟨S16x8x513x1, Host.reverse [3] (extractStridedSlice S16x8x513x1 ![0, 0, 0, 511] (padHiRows x) slices_S16x8x513x512_S16x8x513x1_0_0_0_511)⟩]
    concatenates_S16x8x513x512_S16x8x513x1_S16x8x513x513_d3

/-- The 2x2 window minimum (from +inf) of the low-padded argument. -/
def eroded (x : FVec F S16x8x512x512 .f32) : FVec F S16x8x512x512 .f32 :=
  Host.reduceWindow FloatOps.minimumf ![1, 1, 2, 2] ![1, 1, 1, 1] ![0, 0, 0, 0] ![0, 0, 0, 0] (padLo x)
    (constant (F := F) S_ .f32 0x7F800000#32)
    reduceWindows_S16x8x513x513_S16x8x512x512_w1s1p0_0_w1s1p0_0_w2s1p0_0_w2s1p0_0 h_S_

/-- The 2x2 window maximum (from -inf) of the high-padded erosion. -/
def opened (x : FVec F S16x8x512x512 .f32) : FVec F S16x8x512x512 .f32 :=
  Host.reduceWindow FloatOps.maximumf ![1, 1, 2, 2] ![1, 1, 1, 1] ![0, 0, 0, 0] ![0, 0, 0, 0] (padHi (eroded x))
    (constant (F := F) S_ .f32 0xFF800000#32)
    reduceWindows_S16x8x513x513_S16x8x512x512_w1s1p0_0_w1s1p0_0_w2s1p0_0_w2s1p0_0 h_S_

/-- The squared difference between the argument and its opening. -/
def sqDiff (x : FVec F S16x8x512x512 .f32) : FVec F S16x8x512x512 .f32 :=
  mulf (subf x (opened x)) (subf x (opened x))

/-- The program's result. -/
def refOut (x : FVec F S16x8x512x512 .f32) : FVec F S_ .f32 :=
  Host.divf
    (Host.reduceAdd (sqDiff x) (constant (F := F) S_ .f32 0x00000000#32) reducesTo_S16x8x512x512_S_d0_1_2_3 h_S_)
    (constant (F := F) S_ .f32 0x4C000000#32)

end Cert.ReferenceIdeal.Hand

end
-- ==== Proof.RefSeq.lean ====
/-
  The reference program as the straight line of its thirty-two host operations (the four outlined padding and flip
  functions unfolded at their calls), and its run: every weakly fair execution terminates with the result buffer at
  the composed pure term of the argument, the argument unchanged.
-/
import proofs.«114172_g47107201302668_feedfinal_429_31_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations in program order, each call's callee listed over that call's buffers. -/
abbrev ops : List (HloOp τ sig (Elt F)) :=
  [ nullary main_c (constantI S_ 32 0#32),
    -- the low padding
    TRef.unary (.of main_arg0 : TRef sig ⟨S16x8x512x512, .f32⟩) main_call0.v0 (extractStridedSlice S16x8x1x512 ![0, 0, 0, 0] · slices_S16x8x512x512_S16x8x1x512_0_0_0_0),
    TRef.unary (.of main_arg0 : TRef sig ⟨S16x8x512x512, .f32⟩) main_call0.v1 (extractStridedSlice S16x8x1x512 ![0, 0, 0, 0] · slices_S16x8x512x512_S16x8x1x512_0_0_0_0),
    TRef.unary main_call0.v1 main_call0.call0.v0 (Host.reverse [2]),
    TRef.binary main_call0.call0.v0 (.of main_arg0 : TRef sig ⟨S16x8x512x512, .f32⟩) main_call0.v3 (fun a b => concatenate S16x8x513x512 2 [⟨S16x8x1x512, a⟩, ⟨S16x8x512x512, b⟩] concatenates_S16x8x1x512_S16x8x512x512_S16x8x513x512_d2),
    TRef.unary main_call0.v3 main_call0.v4 (extractStridedSlice S16x8x1x512 ![0, 0, 512, 0] · slices_S16x8x513x512_S16x8x1x512_0_0_512_0),
    TRef.unary main_call0.v3 main_call0.v5 (extractStridedSlice S16x8x513x1 ![0, 0, 0, 0] · slices_S16x8x513x512_S16x8x513x1_0_0_0_0),
    TRef.unary main_call0.v3 main_call0.v6 (extractStridedSlice S16x8x513x1 ![0, 0, 0, 0] · slices_S16x8x513x512_S16x8x513x1_0_0_0_0),
    TRef.unary main_call0.v6 main_call0.call1.v0 (Host.reverse [3]),
    TRef.binary main_call0.call1.v0 main_call0.v3 main_call0.v8 (fun a b => concatenate S16x8x513x513 3 [⟨S16x8x513x1, a⟩, ⟨S16x8x513x512, b⟩] concatenates_S16x8x513x1_S16x8x513x512_S16x8x513x513_d3),
    TRef.unary main_call0.v8 main_call0.v9 (extractStridedSlice S16x8x513x1 ![0, 0, 0, 512] · slices_S16x8x513x513_S16x8x513x1_0_0_0_512),
    -- the window minimum
    nullary main_cst (constant S_ .f32 0x7F800000#32),
    binary main_v0 main_cst main_v1 ((fun x v => Host.reduceWindow FloatOps.minimumf ![1, 1, 2, 2] ![1, 1, 1, 1] ![0, 0, 0, 0] ![0, 0, 0, 0] x v reduceWindows_S16x8x513x513_S16x8x512x512_w1s1p0_0_w1s1p0_0_w2s1p0_0_w2s1p0_0 h_S_) : (⟨S16x8x513x513, .f32⟩ : BufTy).Contents (Elt F) → (⟨S_, .f32⟩ : BufTy).Contents (Elt F) → (⟨S16x8x512x512, .f32⟩ : BufTy).Contents (Elt F)),
    nullary main_c_0 (constantI S_ 32 0#32),
    -- the high padding
    TRef.unary (.of main_v1 : TRef sig ⟨S16x8x512x512, .f32⟩) main_call1.v0 (extractStridedSlice S16x8x1x512 ![0, 0, 0, 0] · slices_S16x8x512x512_S16x8x1x512_0_0_0_0),
    TRef.unary (.of main_v1 : TRef sig ⟨S16x8x512x512, .f32⟩) main_call1.v1 (extractStridedSlice S16x8x1x512 ![0, 0, 511, 0] · slices_S16x8x512x512_S16x8x1x512_0_0_511_0),
    TRef.unary (.of main_v1 : TRef sig ⟨S16x8x512x512, .f32⟩) main_call1.v2 (extractStridedSlice S16x8x1x512 ![0, 0, 511, 0] · slices_S16x8x512x512_S16x8x1x512_0_0_511_0),
    TRef.unary main_call1.v2 main_call1.call0.v0 (Host.reverse [2]),
    TRef.binary (.of main_v1 : TRef sig ⟨S16x8x512x512, .f32⟩) main_call1.call0.v0 main_call1.v4 (fun a b => concatenate S16x8x513x512 2 [⟨S16x8x512x512, a⟩, ⟨S16x8x1x512, b⟩] concatenates_S16x8x512x512_S16x8x1x512_S16x8x513x512_d2),
    TRef.unary main_call1.v4 main_call1.v5 (extractStridedSlice S16x8x513x1 ![0, 0, 0, 0] · slices_S16x8x513x512_S16x8x513x1_0_0_0_0),
    TRef.unary main_call1.v4 main_call1.v6 (extractStridedSlice S16x8x513x1 ![0, 0, 0, 511] · slices_S16x8x513x512_S16x8x513x1_0_0_0_511),
    TRef.unary main_call1.v4 main_call1.v7 (extractStridedSlice S16x8x513x1 ![0, 0, 0, 511] · slices_S16x8x513x512_S16x8x513x1_0_0_0_511),
    TRef.unary main_call1.v7 main_call1.call1.v0 (Host.reverse [3]),
    TRef.binary main_call1.v4 main_call1.call1.v0 main_call1.v9 (fun a b => concatenate S16x8x513x513 3 [⟨S16x8x513x512, a⟩, ⟨S16x8x513x1, b⟩] concatenates_S16x8x513x512_S16x8x513x1_S16x8x513x513_d3),
    -- the window maximum, the squared difference, its sum and the division
    nullary main_cst_1 (constant S_ .f32 0xFF800000#32),
    binary main_v2 main_cst_1 main_v3 ((fun x v => Host.reduceWindow FloatOps.maximumf ![1, 1, 2, 2] ![1, 1, 1, 1] ![0, 0, 0, 0] ![0, 0, 0, 0] x v reduceWindows_S16x8x513x513_S16x8x512x512_w1s1p0_0_w1s1p0_0_w2s1p0_0_w2s1p0_0 h_S_) : (⟨S16x8x513x513, .f32⟩ : BufTy).Contents (Elt F) → (⟨S_, .f32⟩ : BufTy).Contents (Elt F) → (⟨S16x8x512x512, .f32⟩ : BufTy).Contents (Elt F)),
    binary main_arg0 main_v3 main_v4 (subf : (⟨S16x8x512x512, .f32⟩ : BufTy).Contents (Elt F) → (⟨S16x8x512x512, .f32⟩ : BufTy).Contents (Elt F) → (⟨S16x8x512x512, .f32⟩ : BufTy).Contents (Elt F)),
    binary main_v4 main_v4 main_v5 (mulf : (⟨S16x8x512x512, .f32⟩ : BufTy).Contents (Elt F) → (⟨S16x8x512x512, .f32⟩ : BufTy).Contents (Elt F) → (⟨S16x8x512x512, .f32⟩ : BufTy).Contents (Elt F)),
    nullary main_cst_2 (constant S_ .f32 0x00000000#32),
    binary main_v5 main_cst_2 main_v6 ((fun x v => Host.reduceAdd x v reducesTo_S16x8x512x512_S_d0_1_2_3 h_S_) : (⟨S16x8x512x512, .f32⟩ : BufTy).Contents (Elt F) → (⟨S_, .f32⟩ : BufTy).Contents (Elt F) → (⟨S_, .f32⟩ : BufTy).Contents (Elt F)),
    nullary main_cst_3 (constant S_ .f32 0x4C000000#32),
    binary main_v6 main_cst_3 main_v7 (Host.divf : (⟨S_, .f32⟩ : BufTy).Contents (Elt F) → (⟨S_, .f32⟩ : BufTy).Contents (Elt F) → (⟨S_, .f32⟩ : BufTy).Contents (Elt F)) ]

set_option maxRecDepth 4096 in
/-- The program is that straight line: the callees unfolded at their calls, sequencing reassociated. -/
theorem main_eq (c : Dev nD) : main (F := F) c = seq ops := by
  simp only [main, fn_pad.body, fn_pad_1.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., unary_bufs_sub .., binary_bufs_sub .., unary_bufs_sub ..,
    nullary_bufs_sub .., binary_bufs_sub .., nullary_bufs_sub ..,
    unary_bufs_sub .., unary_bufs_sub .., unary_bufs_sub .., unary_bufs_sub .., binary_bufs_sub .., unary_bufs_sub ..,
    unary_bufs_sub .., unary_bufs_sub .., unary_bufs_sub .., binary_bufs_sub ..,
    nullary_bufs_sub .., binary_bufs_sub .., binary_bufs_sub .., binary_bufs_sub .., nullary_bufs_sub .., binary_bufs_sub ..,
    nullary_bufs_sub .., binary_bufs_sub ..⟩

/-- The fold of the operations at the result buffer is the composed term of the argument: the typed references'
    casts are the identity at these literal references, each operation's result at its own buffer is its function's
    value and at any other buffer what was there. -/
theorem out_eq (V : Valuation τ sig (Elt F)) :
    after ops V (main_v7 : DevRef τ sig) = refOut (V (main_arg0 : DevRef τ sig)) := by
  simp only [after_cons, after_nil, TRef.unary, TRef.binary, TRef.toBuf, TRef.ofBuf, cast_eq]
  repeat (first
    | rw [nullary_result] | rw [unary_result] | rw [binary_result]
    | (rw [nullary_result_ne]; rotate_left; decide)
    | (rw [unary_result_ne]; rotate_left; decide)
    | (rw [binary_result_ne]; rotate_left; decide))
  unfold refOut sqDiff opened eroded padHi padHiRows padLo padLoRows
  rfl

/-- No operation writes the argument. -/
theorem arg0_eq (V : Valuation τ sig (Elt F)) :
    after ops V (main_arg0 : DevRef τ sig) = V (main_arg0 : DevRef τ sig) := by
  simp only [after_cons, after_nil, TRef.unary, TRef.binary, TRef.toBuf, TRef.ofBuf, cast_eq]
  repeat (first
    | rw [nullary_result] | rw [unary_result] | rw [binary_result]
    | (rw [nullary_result_ne]; rotate_left; decide)
    | (rw [unary_result_ne]; rotate_left; decide)
    | (rw [binary_result_ne]; rotate_left; decide))

/-- On every device, for any float values, from any memory with zero counters: every weakly fair execution of the
    program terminates with the result at the composed term of the argument and the argument unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (out_eq _), (h c main_arg0).trans (arg0_eq _)⟩)
    (run_seq scopedRefs_eq scopedSems_eq defs main (fun _ => ops) main_eq (fun _ => ops_sub) m ρ)

end Cert.ReferenceIdeal.Hand

end
-- ==== Proof.RefValue.lean ====
/-
  The reference program's composed term read at an index. The two paddings replicate the edge: the low padding reads
  the argument one step back on both image axes, the high padding one step forward, each stopped at the edge. A
  1x1x2x2 window with stride one and no padding over a 513x513 operand reads its four positions inside the operand, so
  the window minimum from +inf of the low-padded argument is the 2x2 erosion, and the window maximum from -inf of the
  high-padded erosion is the 2x2 opening (min and max being associative and commutative with those identities). The
  sum over every axis of the squared difference is then the sum over the batch of the per-image losses, and the
  program's result is their mean.
-/
import proofs.«114172_g47107201302668_feedfinal_429_31_alg».proof.Proof.RefTerm
import proofs.«114172_g47107201302668_feedfinal_429_31_alg».proof.Proof.LibOpening2x2
import Idealize.ShloMosaic.Lib.Pipeline.Value
import Idealize.ShloMosaic.Lib.IdealHost

noncomputable section

namespace Cert.ReferenceIdeal.Hand

open Cert.ReferenceIdeal Cert.ReferenceIdeal.Gen Idealize.ShloMosaic Idealize.ShloMosaic.ValueIdx
open scoped BigOperators

/-! ## The paddings read at an index -/

section Layout
variable {α : Type}

/-- Reversing an axis of extent one changes nothing (rows). -/
theorem reverse_rows1 (y : S16x8x1x512.Idx → α) : Host.reverse [2] y = y := by
  funext j
  unfold Host.reverse
  refine congrArg y (funext fun a => ?_)
  match a with
  | ⟨0, _⟩ => rfl
  | ⟨1, _⟩ => rfl
  | ⟨2, _⟩ => exact Subsingleton.elim (α := Fin 1) _ _
  | ⟨3, _⟩ => rfl

/-- Reversing an axis of extent one changes nothing (columns). -/
theorem reverse_cols1 (y : S16x8x513x1.Idx → α) : Host.reverse [3] y = y := by
  funext j
  unfold Host.reverse
  refine congrArg y (funext fun a => ?_)
  match a with
  | ⟨0, _⟩ => rfl
  | ⟨1, _⟩ => rfl
  | ⟨2, _⟩ => rfl
  | ⟨3, _⟩ => exact Subsingleton.elim (α := Fin 1) _ _

end Layout

variable {F : FTy → Type} [FloatOps F]

/-- The low row padding at row `i'` reads the row one step back, row 0 replicated. -/
theorem padLoRows_at (x : FVec F S16x8x512x512 .f32) (b : Fin 16) (ch : Fin 8) (i' : Fin 513) (j : Fin 512) (i : Fin 512)
    (hi : i.val = i'.val - 1) : padLoRows x (ix4 b ch i' j) = x (ix4 b ch i j) := by
  unfold padLoRows
  rw [reverse_rows1]
  by_cases h : i'.val < 1
  · refine (concatenate_pair_apply_left (t := S16x8x513x512) (s₁ := S16x8x1x512) (s₂ := S16x8x512x512) (2 : Fin 4) _ _ _
      (ix4 b ch i' j) rfl (ix4 b ch (⟨0, by omega⟩ : Fin 1) j) fun a => ?_).trans ?_
    · match a with
      | ⟨0, _⟩ => rfl
      | ⟨1, _⟩ => rfl
      | ⟨2, _⟩ => show 0 = i'.val; omega
      | ⟨3, _⟩ => rfl
    · refine extractStridedSlice_apply _ _ _ _ _ fun a => ?_
      match a with
      | ⟨0, _⟩ => show b.val = 0 + b.val; omega
      | ⟨1, _⟩ => show ch.val = 0 + ch.val; omega
      | ⟨2, _⟩ => show i.val = 0 + 0; omega
      | ⟨3, _⟩ => show j.val = 0 + j.val; omega
  · refine concatenate_pair_apply_right (t := S16x8x513x512) (s₁ := S16x8x1x512) (s₂ := S16x8x512x512) (2 : Fin 4) _ _ _
      (ix4 b ch i' j) rfl rfl (ix4 b ch i j) (fun a ha => ?_) ?_
    · match a with
      | ⟨0, _⟩ => rfl
      | ⟨1, _⟩ => rfl
      | ⟨2, _⟩ => exact absurd rfl ha
      | ⟨3, _⟩ => rfl
    · show i.val + 1 = i'.val; omega

/-- The low padding reads the argument one step back on both image axes, the edge replicated. -/
theorem padLo_at (x : FVec F S16x8x512x512 .f32) (b : Fin 16) (ch : Fin 8) (i' j' : Fin 513) (i j : Fin 512)
    (hi : i.val = i'.val - 1) (hj : j.val = j'.val - 1) : padLo x (ix4 b ch i' j') = x (ix4 b ch i j) := by
  unfold padLo
  rw [reverse_cols1]
  by_cases h : j'.val < 1
  · refine (concatenate_pair_apply_left (t := S16x8x513x513) (s₁ := S16x8x513x1) (s₂ := S16x8x513x512) (3 : Fin 4) _ _ _
      (ix4 b ch i' j') rfl (ix4 b ch i' (⟨0, by omega⟩ : Fin 1)) fun a => ?_).trans ?_
    · match a with
      | ⟨0, _⟩ => rfl
      | ⟨1, _⟩ => rfl
      | ⟨2, _⟩ => rfl
      | ⟨3, _⟩ => show 0 = j'.val; omega
    · refine (extractStridedSlice_apply _ _ _ _ (ix4 b ch i' j) fun a => ?_).trans (padLoRows_at x b ch i' j i hi)
      match a with
      | ⟨0, _⟩ => show b.val = 0 + b.val; omega
      | ⟨1, _⟩ => show ch.val = 0 + ch.val; omega
      | ⟨2, _⟩ => show i'.val = 0 + i'.val; omega
      | ⟨3, _⟩ => show j.val = 0 + 0; omega
  · refine (concatenate_pair_apply_right (t := S16x8x513x513) (s₁ := S16x8x513x1) (s₂ := S16x8x513x512) (3 : Fin 4) _ _ _
      (ix4 b ch i' j') rfl rfl (ix4 b ch i' j) (fun a ha => ?_) ?_).trans (padLoRows_at x b ch i' j i hi)
    · match a with
      | ⟨0, _⟩ => rfl
      | ⟨1, _⟩ => rfl
      | ⟨2, _⟩ => rfl
      | ⟨3, _⟩ => exact absurd rfl ha
    · show j.val + 1 = j'.val; omega

/-- The high row padding at row `i'` reads that row, row 511 replicated below. -/
theorem padHiRows_at (x : FVec F S16x8x512x512 .f32) (b : Fin 16) (ch : Fin 8) (i' : Fin 513) (j : Fin 512) (i : Fin 512)
    (hi : i.val = min i'.val 511) : padHiRows x (ix4 b ch i' j) = x (ix4 b ch i j) := by
  unfold padHiRows
  rw [reverse_rows1]
  by_cases h : i'.val < 512
  · refine concatenate_pair_apply_left (t := S16x8x513x512) (s₁ := S16x8x512x512) (s₂ := S16x8x1x512) (2 : Fin 4) _ _ _
      (ix4 b ch i' j) rfl (ix4 b ch i j) fun a => ?_
    match a with
    | ⟨0, _⟩ => rfl
    | ⟨1, _⟩ => rfl
    | ⟨2, _⟩ => show i.val = i'.val; omega
    | ⟨3, _⟩ => rfl
  · refine (concatenate_pair_apply_right (t := S16x8x513x512) (s₁ := S16x8x512x512) (s₂ := S16x8x1x512) (2 : Fin 4) _ _ _
      (ix4 b ch i' j) rfl rfl (ix4 b ch (⟨0, by omega⟩ : Fin 1) j) (fun a ha => ?_) ?_).trans ?_
    · match a with
      | ⟨0, _⟩ => rfl
      | ⟨1, _⟩ => rfl
      | ⟨2, _⟩ => exact absurd rfl ha
      | ⟨3, _⟩ => rfl
    · show 0 + 512 = i'.val; have := i'.isLt; omega
    · refine extractStridedSlice_apply _ _ _ _ _ fun a => ?_
      match a with
      | ⟨0, _⟩ => show b.val = 0 + b.val; omega
      | ⟨1, _⟩ => show ch.val = 0 + ch.val; omega
      | ⟨2, _⟩ => show i.val = 511 + 0; omega
      | ⟨3, _⟩ => show j.val = 0 + j.val; omega

/-- The high padding reads the argument at the same position, the last row and column replicated. -/
theorem padHi_at (x : FVec F S16x8x512x512 .f32) (b : Fin 16) (ch : Fin 8) (i' j' : Fin 513) (i j : Fin 512)
    (hi : i.val = min i'.val 511) (hj : j.val = min j'.val 511) : padHi x (ix4 b ch i' j') = x (ix4 b ch i j) := by
  unfold padHi
  rw [reverse_cols1]
  by_cases h : j'.val < 512
  · refine (concatenate_pair_apply_left (t := S16x8x513x513) (s₁ := S16x8x513x512) (s₂ := S16x8x513x1) (3 : Fin 4) _ _ _
      (ix4 b ch i' j') rfl (ix4 b ch i' j) fun a => ?_).trans (padHiRows_at x b ch i' j i hi)
    match a with
    | ⟨0, _⟩ => rfl
    | ⟨1, _⟩ => rfl
    | ⟨2, _⟩ => rfl
    | ⟨3, _⟩ => show j.val = j'.val; omega
  · refine (concatenate_pair_apply_right (t := S16x8x513x513) (s₁ := S16x8x513x512) (s₂ := S16x8x513x1) (3 : Fin 4) _ _ _
      (ix4 b ch i' j') rfl rfl (ix4 b ch i' (⟨0, by omega⟩ : Fin 1)) (fun a ha => ?_) ?_).trans ?_
    · match a with
      | ⟨0, _⟩ => rfl
      | ⟨1, _⟩ => rfl
      | ⟨2, _⟩ => rfl
      | ⟨3, _⟩ => exact absurd rfl ha
    · show 0 + 512 = j'.val; have := j'.isLt; omega
    · refine (extractStridedSlice_apply _ _ _ _ (ix4 b ch i' j) fun a => ?_).trans (padHiRows_at x b ch i' j i hi)
      match a with
      | ⟨0, _⟩ => show b.val = 0 + b.val; omega
      | ⟨1, _⟩ => show ch.val = 0 + ch.val; omega
      | ⟨2, _⟩ => show i'.val = 0 + i'.val; omega
      | ⟨3, _⟩ => show j.val = 511 + 0; omega

/-! ## A 1x1x2x2 window read at an index -/

/-- The four positions of a 1x1x2x2 window, in row-major order. -/
theorem window_numel : List.finRange (⟨4, ![1, 1, 2, 2]⟩ : Shape).numel = [⟨0, by decide⟩, ⟨1, by decide⟩, ⟨2, by decide⟩, ⟨3, by decide⟩] := by decide

/-- Their coordinates. -/
theorem window_coords :
    (∀ a : Fin 4, ((⟨4, ![1, 1, 2, 2]⟩ : Shape).rowMajor.symm ⟨0, by decide⟩ a).val = (![0, 0, 0, 0] : Fin 4 → Nat) a)
    ∧ (∀ a : Fin 4, ((⟨4, ![1, 1, 2, 2]⟩ : Shape).rowMajor.symm ⟨1, by decide⟩ a).val = (![0, 0, 0, 1] : Fin 4 → Nat) a)
    ∧ (∀ a : Fin 4, ((⟨4, ![1, 1, 2, 2]⟩ : Shape).rowMajor.symm ⟨2, by decide⟩ a).val = (![0, 0, 1, 0] : Fin 4 → Nat) a)
    ∧ (∀ a : Fin 4, ((⟨4, ![1, 1, 2, 2]⟩ : Shape).rowMajor.symm ⟨3, by decide⟩ a).val = (![0, 0, 1, 1] : Fin 4 → Nat) a) := by decide

/-- A window position inside the operand reads the operand there (no padding is met). -/
theorem window_read {α : Type} (y : S16x8x513x513.Idx → α) (v : α) (p : Fin 4 → Nat) (k : S16x8x513x513.Idx)
    (hk : ∀ a, (k a).val = p a) :
    (if hin : ∀ a : Fin 4, (![0, 0, 0, 0] : Fin 4 → Nat) a ≤ p a ∧ p a - (![0, 0, 0, 0] : Fin 4 → Nat) a < (![16, 8, 513, 513] : Fin 4 → Nat) a
      then y (fun a => ⟨p a - (![0, 0, 0, 0] : Fin 4 → Nat) a, (hin a).2⟩) else v) = y k := by
  have hz : ∀ a : Fin 4, (![0, 0, 0, 0] : Fin 4 → Nat) a = 0 := fun a => by fin_cases a <;> rfl
  have hin : ∀ a : Fin 4, (![0, 0, 0, 0] : Fin 4 → Nat) a ≤ p a ∧ p a - (![0, 0, 0, 0] : Fin 4 → Nat) a < (![16, 8, 513, 513] : Fin 4 → Nat) a :=
    fun a => ⟨by rw [hz a]; omega, by rw [hz a, ← hk a, Nat.sub_zero]; exact (k a).isLt⟩
  rw [dif_pos hin]
  exact congrArg y (funext fun a => Fin.ext (by show p a - (![0, 0, 0, 0] : Fin 4 → Nat) a = (k a).val; rw [hz a, hk a, Nat.sub_zero]))

theorem reduceWindow2x2_apply {α : Type} (f : α → α → α) (y : S16x8x513x513.Idx → α) (init : S_.Idx → α)
    (h : S16x8x513x513.ReduceWindows (![1, 1, 2, 2] : Fin 4 → Nat) ![1, 1, 1, 1] ![0, 0, 0, 0] ![0, 0, 0, 0] S16x8x512x512) (hu : 0 < S_.numel)
    (b : Fin 16) (ch : Fin 8) (i j : Fin 512) :
    Host.reduceWindow f ![1, 1, 2, 2] ![1, 1, 1, 1] ![0, 0, 0, 0] ![0, 0, 0, 0] y init h hu (ix4 b ch i j)
      = f (f (f (f (init (Shape.Idx.first hu)) (y (ix4 b ch (⟨i.val, by omega⟩ : Fin 513) (⟨j.val, by omega⟩ : Fin 513))))
                (y (ix4 b ch (⟨i.val, by omega⟩ : Fin 513) (⟨j.val + 1, by omega⟩ : Fin 513))))
            (y (ix4 b ch (⟨i.val + 1, by omega⟩ : Fin 513) (⟨j.val, by omega⟩ : Fin 513))))
          (y (ix4 b ch (⟨i.val + 1, by omega⟩ : Fin 513) (⟨j.val + 1, by omega⟩ : Fin 513))) := by
  unfold Host.reduceWindow
  simp only [window_numel, List.foldl_cons, List.foldl_nil]
  refine congrArg₂ f (congrArg₂ f (congrArg₂ f (congrArg₂ f rfl ?_) ?_) ?_) ?_
  · refine window_read y _ _ _ fun a => ?_
    rw [window_coords.1 a]
    match a with
    | ⟨0, _⟩ => show b.val = b.val * 1 + 0; omega
    | ⟨1, _⟩ => show ch.val = ch.val * 1 + 0; omega
    | ⟨2, _⟩ => show i.val = i.val * 1 + 0; omega
    | ⟨3, _⟩ => show j.val = j.val * 1 + 0; omega
  · refine window_read y _ _ _ fun a => ?_
    rw [window_coords.2.1 a]
    match a with
    | ⟨0, _⟩ => show b.val = b.val * 1 + 0; omega
    | ⟨1, _⟩ => show ch.val = ch.val * 1 + 0; omega
    | ⟨2, _⟩ => show i.val = i.val * 1 + 0; omega
    | ⟨3, _⟩ => show j.val + 1 = j.val * 1 + 1; omega
  · refine window_read y _ _ _ fun a => ?_
    rw [window_coords.2.2.1 a]
    match a with
    | ⟨0, _⟩ => show b.val = b.val * 1 + 0; omega
    | ⟨1, _⟩ => show ch.val = ch.val * 1 + 0; omega
    | ⟨2, _⟩ => show i.val + 1 = i.val * 1 + 1; omega
    | ⟨3, _⟩ => show j.val = j.val * 1 + 0; omega
  · refine window_read y _ _ _ fun a => ?_
    rw [window_coords.2.2.2 a]
    match a with
    | ⟨0, _⟩ => show b.val = b.val * 1 + 0; omega
    | ⟨1, _⟩ => show ch.val = ch.val * 1 + 0; omega
    | ⟨2, _⟩ => show i.val + 1 = i.val * 1 + 1; omega
    | ⟨3, _⟩ => show j.val + 1 = j.val * 1 + 1; omega

/-! ## The erosion, the opening and the loss at the extended reals -/

/-- The f32 pattern of +inf is the top extended real. -/
theorem ofBits_posInf_f32 : Ideal.ofBits .f32 0x7F800000#32 = (⊤ : EReal) := by simp [Ideal.ofBits, Ideal.ieee]
/-- The f32 pattern of -inf is the bottom extended real. -/
theorem ofBits_negInf_f32 : Ideal.ofBits .f32 0xFF800000#32 = (⊥ : EReal) := by simp [Ideal.ofBits, Ideal.ieee]

/-- The window minimum of the low-padded argument is the 2x2 erosion of the image. -/
theorem eroded_apply (x : FVec Ideal S16x8x512x512 .f32) (b : Fin 16) (ch : Fin 8) (i j : Fin 512) :
    eroded x (ix4 b ch i j) = Opening2x2.eroR (Opening2x2.image x b ch) i j := by
  unfold eroded
  rw [reduceWindow2x2_apply,
    padLo_at x b ch _ _ (Opening2x2.pre i) (Opening2x2.pre j) rfl rfl,
    padLo_at x b ch _ _ (Opening2x2.pre i) j rfl (by show j.val = j.val + 1 - 1; omega),
    padLo_at x b ch _ _ i (Opening2x2.pre j) (by show i.val = i.val + 1 - 1; omega) rfl,
    padLo_at x b ch _ _ i j (by show i.val = i.val + 1 - 1; omega) (by show j.val = j.val + 1 - 1; omega)]
  show min (min (min (min (Ideal.ofBits .f32 0x7F800000#32) _) _) _) _ = _
  rw [ofBits_posInf_f32, min_eq_right le_top]
  unfold Opening2x2.eroR Opening2x2.image
  ac_rfl

/-- The window maximum of the high-padded erosion is the 2x2 opening of the image. -/
theorem opened_apply (x : FVec Ideal S16x8x512x512 .f32) (b : Fin 16) (ch : Fin 8) (i j : Fin 512) :
    opened x (ix4 b ch i j) = Opening2x2.openR (Opening2x2.image x b ch) i j := by
  have hi : i.val = min i.val 511 := by have := i.isLt; omega
  have hj : j.val = min j.val 511 := by have := j.isLt; omega
  unfold opened
  rw [reduceWindow2x2_apply,
    padHi_at (eroded x) b ch _ _ i j hi hj,
    padHi_at (eroded x) b ch _ _ i (Opening2x2.suc j) hi rfl,
    padHi_at (eroded x) b ch _ _ (Opening2x2.suc i) j rfl hj,
    padHi_at (eroded x) b ch _ _ (Opening2x2.suc i) (Opening2x2.suc j) rfl rfl,
    eroded_apply, eroded_apply, eroded_apply, eroded_apply]
  show max (max (max (max (Ideal.ofBits .f32 0xFF800000#32) _) _) _) _ = _
  rw [ofBits_negInf_f32, max_eq_right bot_le]
  unfold Opening2x2.openR
  ac_rfl

/-- The squared difference at a pixel. -/
theorem sqDiff_apply (x : FVec Ideal S16x8x512x512 .f32) (b : Fin 16) (ch : Fin 8) (i j : Fin 512) :
    sqDiff x (ix4 b ch i j)
      = (Opening2x2.image x b ch i j - Opening2x2.openR (Opening2x2.image x b ch) i j)
        * (Opening2x2.image x b ch i j - Opening2x2.openR (Opening2x2.image x b ch) i j) := by
  unfold sqDiff
  rw [mulf_apply, subf_apply, opened_apply]
  rfl

/-! ## The sum over a rank-4 index set -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  simp only [Fintype.sum_prod_type]
  rfl

/-! ## The result -/

/-- The program's composed term is the mean over the batch of the per-image window-form losses. -/
theorem refOut_eq (x : FVec Ideal S16x8x512x512 .f32) : refOut x = Opening2x2.result Opening2x2.lossR x := by
  unfold refOut Opening2x2.result Opening2x2.meanOf
  refine congrArg (fun s => Host.divf (F := Ideal) s (constant (F := Ideal) (⟨0, ![]⟩ : Shape) .f32 0x4C000000#32)) ?_
  funext k
  rw [hostReduceAdd_apply, Ideal.hostReduceAdd_total _ (fun a => a.elim0), constant_apply, Ideal.ofBits_zero_f32, zero_add,
    sum_idx4]
  refine Finset.sum_congr rfl fun b _ => Finset.sum_congr rfl fun ch _ => ?_
  unfold Opening2x2.lossR
  refine Finset.sum_congr rfl fun i _ => Finset.sum_congr rfl fun j _ => ?_
  exact sqDiff_apply x b ch i j

end Cert.ReferenceIdeal.Hand

end
-- ==== Proof.RefRun.lean ====
/-
  The reference program's run with its result named: every weakly fair execution terminates with the result buffer
  at the mean over the batch of the per-image losses of the 2x2 grey opening in window form, the argument unchanged.
  The run gives the composed term of the host operations; read at an index that term is the window-form mean loss.
-/
import proofs.«114172_g47107201302668_feedfinal_429_31_alg».proof.Proof.RefSeq
import proofs.«114172_g47107201302668_feedfinal_429_31_alg».proof.Proof.RefValue

noncomputable section

namespace Cert.ReferenceIdeal.Hand

open Cert.ReferenceIdeal Cert.ReferenceIdeal.Gen Idealize.ShloMosaic Idealize.ShloMosaic.TcCoe Idealize.SL.Sem Idealize.ShloMosaic.StableHlo

theorem run
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v7)
            = Opening2x2.result Opening2x2.lossR (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) := by
  have h := run_term (F := Ideal) m ρ
  simp only [refOut_eq] at h
  exact h

end Cert.ReferenceIdeal.Hand

end
-- ==== Proof.lean ====
/-
  The mean squared difference between a batch of 16 x 8 images of 512 x 512 pixels and their 2x2 grey openings:
  a streaming kernel against the textbook reference, equal over the extended reals.

  The reference pads each image by one replicated row and column, takes 2x2 window minima (the erosion), pads
  the erosion on the other side, takes 2x2 window maxima (the opening), and averages the squared differences
  over all 16 * 8 * 512 * 512 pixels.

  The kernel walks the batch in 16 blocks of 8 images.  Per block, a loop of four trips handles two images each:
  an image is cut into 32 strips of 16 rows; with R the minimum of a strip and the strip one row higher, the
  lane-dilated erosion is g = min R (max (R one column left) (R one column right)), the opening is the maximum of
  g and g one row lower, and the squared differences are folded eight rows at a time into an 8 x 512 accumulator
  whose total is the block's partial sum.  The partial sum is stored into a one-element output at the first
  block and added to it at every later block; afterwards the host divides by 16 * 8 * 512 * 512.

  Why the two agree, at every input (finiteness is never used):
   * pixel by pixel the factored opening is the window opening: in a linear order
     max (min a b) (min b c) = min b (max a c), and at the two edge columns absorption gives the same
     (`Opening2x2.openK_eq_openR`);
   * the kernel's order of summation (rows congruent modulo 8, strips, pairs of images, blocks) and the
     reference's (one sum over all four axes) differ only by the commutativity and associativity of addition
     of extended reals;
   * both end with the same division by the same literal.
  The three frame claims come with the runs: each program's run names its result and leaves its argument as
  it was.  The kernel's idealization rewrote nothing, so `preserves` is trivially true.
-/
import proofs.«114172_g47107201302668_feedfinal_429_31_alg».proof.Defs
import proofs.«114172_g47107201302668_feedfinal_429_31_alg».proof.Proof.Gen.Kernel
import proofs.«114172_g47107201302668_feedfinal_429_31_alg».proof.Proof.Gen.KernelIdeal
import proofs.«114172_g47107201302668_feedfinal_429_31_alg».proof.Proof.Gen.ReferenceIdeal
import proofs.«114172_g47107201302668_feedfinal_429_31_alg».proof.Proof.Gen.Pre_finite_inputs
import proofs.«114172_g47107201302668_feedfinal_429_31_alg».proof.Proof.KAccFrame
import proofs.«114172_g47107201302668_feedfinal_429_31_alg».proof.Proof.AccFrame
import proofs.«114172_g47107201302668_feedfinal_429_31_alg».proof.Proof.AccValue
import proofs.«114172_g47107201302668_feedfinal_429_31_alg».proof.Proof.RefRun
import Idealize.ShloMosaic.Adequacy
import Idealize.ShloMosaic.Init

noncomputable section

namespace Cert.Proof

open Idealize.ShloMosaic Idealize.SL.Sem

/-- The word-level kernel runs and leaves its argument unchanged. -/
theorem frame_k : Cert.frame_Kernel := fun m ρ _ => Cert.Kernel.Acc.frame (F := Bits) m ρ

/-- So does its idealization. -/
theorem frame_ki : Cert.frame_KernelIdeal := fun m ρ _ => Cert.KernelIdeal.Acc.frame (F := Ideal) m ρ

/-- And the reference: its run with the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories that agree on the argument, the kernel ends at the mean loss in its factored form and the
    reference at the mean loss in its window form: one number. -/
theorem algebraic : Cert.algebraic_KernelIdeal_ReferenceIdeal := by
  intro m ρ m' ρ' _ hagree
  refine ⟨_, Cert.KernelIdeal.Acc.value_run m ρ, ?_⟩
  refine (θ_run Cert.ReferenceIdeal.defs _ _).mono (fun _ h c => ⟨(h c).1.trans ?_, (h c).2⟩)
    (Cert.ReferenceIdeal.Hand.run m' ρ')
  rw [hagree c]
  exact (Opening2x2.result_lossK_eq_lossR _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
